-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S2x8388608 : Shape := ⟨2, ![2, 8388608]⟩
abbrev S64 : Shape := ⟨1, ![64]⟩
abbrev S128x8 : Shape := ⟨2, ![128, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S17x16 : Shape := ⟨2, ![17, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S17x16 : S_.BroadcastsInDim S17x16 (![] : Fin 0 → Fin S17x16.rank)
  reducesTo_S17x16_S_d0_1 : S17x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S17x16 .f32) (main_arg10 : FVec F S16 .f32) (main_arg11 : FVec F S16x2 .f32) (main_arg12 : FVec F S2 .f32) (main_v33 : IVec S_ 1) : IVec S_ 1 :=
  let main_v34 : FVec F S17x16 .f32 := Host.absf main_arg9
  let main_cst_12 : FVec F S_ .f32 := constant S_ .f32 0x7F800000#32
  let main_v35 : FVec F S17x16 .f32 := broadcastInDim S17x16 ![] bcast_S_S17x16 main_cst_12
  let main_v36 : IVec S17x16 1 := cmpf .olt main_v34 main_v35
  let main_c_13 : IVec S_ 1 := constantI S_ 1 1#1
  let main_v37 : IVec S_ 1 := (fun x v => Host.reduce IntOp.andi x v reducesTo_S17x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x2 .f32 := Host.absf main_arg11
  let main_cst_16 : FVec F S_ .f32 := constant S_ .f32 0x7F800000#32
  let main_v45 : FVec F S16x2 .f32 := broadcastInDim S16x2 ![] bcast_S_S16x2 main_cst_16
  let main_v46 : IVec S16x2 1 := cmpf .olt main_v44 main_v45
  let main_c_17 : IVec S_ 1 := constantI S_ 1 1#1
  let main_v47 : IVec S_ 1 := (fun x v => Host.reduce IntOp.andi x v reducesTo_S16x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S8 .f32) (main_arg7 : FVec F S8x1 .f32) (main_arg8 : FVec F S1 .f32) (main_arg9 : FVec F S17x16 .f32) (main_arg10 : FVec F S16 .f32) (main_arg11 : FVec F S16x2 .f32) (main_arg12 : FVec F S2 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg7
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S524288x128 .f32) (main_arg1 : IVec S2x8388608 32) (main_arg2 : IVec S64 32) (main_arg3 : FVec F S128x8 .f32) (main_arg4 : FVec F S8 .f32) (main_arg5 : FVec F S8x8 .f32) (main_arg6 : FVec F S8 .f32) (main_arg7 : FVec F S8x1 .f32) (main_arg8 : FVec F S1 .f32) (main_arg9 : FVec F S17x16 .f32) (main_arg10 : FVec F S16 .f32) (main_arg11 : FVec F S16x2 .f32) (main_arg12 : FVec F S2 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x8 .f32 := Host.absf main_arg3
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg5
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg6 main_arg7 main_arg8 main_arg9 main_arg10 main_arg11 main_arg12 main_v13 main_v16
-- ==== Kernel.lean ====
abbrev S524288x128 : Shape := ⟨2, ![524288, 128]⟩
abbrev S2x8388608 : Shape := ⟨2, ![2, 8388608]⟩
abbrev S64 : Shape := ⟨1, ![64]⟩
abbrev S128x8 : Shape := ⟨2, ![128, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S17x16 : Shape := ⟨2, ![17, 16]⟩
abbrev S16 : Shape := ⟨1, ![16]⟩
abbrev S16x2 : Shape := ⟨2, ![16, 2]⟩
abbrev S2 : Shape := ⟨1, ![2]⟩
abbrev S1x8388608 : Shape := ⟨2, ![1, 8388608]⟩
abbrev S8388608 : Shape := ⟨1, ![8388608]⟩
abbrev S_ : Shape := ⟨0, ![]⟩
abbrev S524288 : Shape := ⟨1, ![524288]⟩
abbrev S8388608x1 : Shape := ⟨2, ![8388608, 1]⟩
abbrev S524288x8 : Shape := ⟨2, ![524288, 8]⟩
abbrev S4096x128 : Shape := ⟨2, ![4096, 128]⟩
abbrev S4096x8 : Shape := ⟨2, ![4096, 8]⟩
abbrev S8388608x8 : Shape := ⟨2, ![8388608, 8]⟩
abbrev S524288x1 : Shape := ⟨2, ![524288, 1]⟩
abbrev S1x8 : Shape := ⟨2, ![1, 8]⟩
abbrev S2048x8 : Shape := ⟨2, ![2048, 8]⟩
abbrev S2048x1 : Shape := ⟨2, ![2048, 1]⟩
abbrev S16384x8 : Shape := ⟨2, ![16384, 8]⟩
abbrev S16384x1 : Shape := ⟨2, ![16384, 1]⟩
abbrev S1x1 : Shape := ⟨2, ![1, 1]⟩
abbrev S524288x17 : Shape := ⟨2, ![524288, 17]⟩
abbrev S64x1 : Shape := ⟨2, ![64, 1]⟩
abbrev S64x17 : Shape := ⟨2, ![64, 17]⟩
abbrev S64x16 : Shape := ⟨2, ![64, 16]⟩
abbrev S1x16 : Shape := ⟨2, ![1, 16]⟩
abbrev S64x2 : Shape := ⟨2, ![64, 2]⟩
abbrev S1x2 : Shape := ⟨2, ![1, 2]⟩

abbrev nBuf : Space → Nat
  | .hbm => 132
  | .vmem => 42
  | .smem => 0
  | _ => 0

abbrev hbmTy0_0 (i : Nat) : BufTy := match i % 128 with
  | 0 => ⟨S524288x128, .f32⟩
  | 1 => ⟨S2x8388608, .i32⟩
  | 2 => ⟨S64, .i32⟩
  | 3 => ⟨S128x8, .f32⟩
  | 4 => ⟨S8, .f32⟩
  | 5 => ⟨S8x8, .f32⟩
  | 6 => ⟨S8, .f32⟩
  | 7 => ⟨S8x1, .f32⟩
  | 8 => ⟨S1, .f32⟩
  | 9 => ⟨S17x16, .f32⟩
  | 10 => ⟨S16, .f32⟩
  | 11 => ⟨S16x2, .f32⟩
  | 12 => ⟨S2, .f32⟩
  | 13 => ⟨S1x8388608, .i32⟩
  | 14 => ⟨S8388608, .i32⟩
  | 15 => ⟨S1x8388608, .i32⟩
  | 16 => ⟨S8388608, .i32⟩
  | 17 => ⟨S_, .f32⟩
  | 18 => ⟨S8388608, .f32⟩
  | 19 => ⟨S_, .f32⟩
  | 20 => ⟨S524288, .f32⟩
  | 21 => ⟨S8388608x1, .i32⟩
  | 22 => ⟨S524288, .f32⟩
  | 23 => ⟨S_, .f32⟩
  | 24 => ⟨S524288, .f32⟩
  | 25 => ⟨S524288, .f32⟩
  | 26 => ⟨S524288, .f32⟩
  | 27 => ⟨S_, .i32⟩
  | 28 => ⟨S8388608, .i32⟩
  | 29 => ⟨S8388608, .i1⟩
  | 30 => ⟨S_, .i32⟩
  | 31 => ⟨S8388608, .i32⟩
  | 32 => ⟨S8388608, .i32⟩
  | 33 => ⟨S8388608, .i32⟩
  | 34 => ⟨S8388608x1, .i32⟩
  | 35 => ⟨S8388608, .f32⟩
  | 36 => ⟨S_, .i32⟩
  | 37 => ⟨S8388608, .i32⟩
  | 38 => ⟨S8388608, .i1⟩
  | 39 => ⟨S_, .i32⟩
  | 40 => ⟨S8388608, .i32⟩
  | 41 => ⟨S8388608, .i32⟩
  | 42 => ⟨S8388608, .i32⟩
  | 43 => ⟨S8388608x1, .i32⟩
  | 44 => ⟨S8388608, .f32⟩
  | 45 => ⟨S8388608, .f32⟩
  | 46 => ⟨S524288, .f32⟩
  | 47 => ⟨S524288x8, .f32⟩
  | 48 => ⟨S_, .i32⟩
  | 49 => ⟨S8388608, .i32⟩
  | 50 => ⟨S8388608, .i1⟩
  | 51 => ⟨S_, .i32⟩
  | 52 => ⟨S8388608, .i32⟩
  | 53 => ⟨S8388608, .i32⟩
  | 54 => ⟨S8388608, .i32⟩
  | 55 => ⟨S8388608x1, .i32⟩
  | 56 => ⟨S8388608x8, .f32⟩
  | 57 => ⟨S8388608x1, .f32⟩
  | 58 => ⟨S8388608x8, .f32⟩
  | 59 => ⟨S8388608x8, .f32⟩
  | 60 => ⟨S_, .f32⟩
  | 61 => ⟨S524288x8, .f32⟩
  | 62 => ⟨S8388608x1, .i32⟩
  | 63 => ⟨S524288x8, .f32⟩
  | 64 => ⟨S524288x1, .f32⟩
  | 65 => ⟨S1x8, .f32⟩
  | 66 => ⟨S524288x8, .f32⟩
  | 67 => ⟨S524288x8, .f32⟩
  | 68 => ⟨S_, .i32⟩
  | 69 => ⟨S8388608, .i32⟩
  | 70 => ⟨S8388608, .i1⟩
  | 71 => ⟨S_, .i32⟩
  | 72 => ⟨S8388608, .i32⟩
  | 73 => ⟨S8388608, .i32⟩
  | 74 => ⟨S8388608, .i32⟩
  | 75 => ⟨S8388608x1, .i32⟩
  | 76 => ⟨S8388608x8, .f32⟩
  | 77 => ⟨S8388608x1, .f32⟩
  | 78 => ⟨S8388608x8, .f32⟩
  | 79 => ⟨S8388608x8, .f32⟩
  | 80 => ⟨S_, .f32⟩
  | 81 => ⟨S524288x8, .f32⟩
  | 82 => ⟨S8388608x1, .i32⟩
  | 83 => ⟨S524288x8, .f32⟩
  | 84 => ⟨S524288x1, .f32⟩
  | 85 => ⟨S1x8, .f32⟩
  | 86 => ⟨S524288x8, .f32⟩
  | 87 => ⟨S524288x1, .f32⟩
  | 88 => ⟨S_, .i32⟩
  | 89 => ⟨S8388608, .i32⟩
  | 90 => ⟨S8388608, .i1⟩
  | 91 => ⟨S_, .i32⟩
  | 92 => ⟨S8388608, .i32⟩
  | 93 => ⟨S8388608, .i32⟩
  | 94 => ⟨S8388608, .i32⟩
  | 95 => ⟨S8388608x1, .i32⟩
  | 96 => ⟨S8388608x1, .f32⟩
  | 97 => ⟨S8388608x1, .f32⟩
  | 98 => ⟨S8388608x1, .f32⟩
  | 99 => ⟨S_, .f32⟩
  | 100 => ⟨S524288x1, .f32⟩
  | 101 => ⟨S8388608x1, .i32⟩
  | 102 => ⟨S524288x1, .f32⟩
  | 103 => ⟨S524288x1, .f32⟩
  | 104 => ⟨S1x1, .f32⟩
  | 105 => ⟨S524288x1, .f32⟩
  | 106 => ⟨S524288x17, .f32⟩
  | 107 => ⟨S64, .i32⟩
  | 108 => ⟨S_, .i32⟩
  | 109 => ⟨S64, .i32⟩
  | 110 => ⟨S64, .i32⟩
  | 111 => ⟨S64, .i32⟩
  | 112 => ⟨S_, .i32⟩
  | 113 => ⟨S64, .i32⟩
  | 114 => ⟨S64, .i1⟩
  | 115 => ⟨S_, .i32⟩
  | 116 => ⟨S64, .i32⟩
  | 117 => ⟨S64, .i32⟩
  | 118 => ⟨S64, .i32⟩
  | 119 => ⟨S64x1, .i32⟩
  | 120 => ⟨S64x17, .f32⟩
  | 121 => ⟨S64x16, .f32⟩
  | 122 => ⟨S1x16, .f32⟩
  | 123 => ⟨S64x16, .f32⟩
  | 124 => ⟨S64x16, .f32⟩
  | 125 => ⟨S_, .f32⟩
  | 126 => ⟨S64x16, .f32⟩
  | 127 => ⟨S64x16, .f32⟩
  | _ => ⟨S524288x128, .f32⟩

abbrev hbmTy0_1 (i : Nat) : BufTy := match i % 128 with
  | 0 => ⟨S64x2, .f32⟩
  | 1 => ⟨S1x2, .f32⟩
  | 2 => ⟨S64x2, .f32⟩
  | 3 => ⟨S64x2, .f32⟩
  | _ => ⟨S524288x128, .f32⟩

abbrev hbmTy (i : Nat) : BufTy := match i / 128 with
  | 0 => hbmTy0_0 i
  | 1 => hbmTy0_1 i
  | _ => ⟨S524288x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S128x8, .f32⟩
  | .local _ .vmem, ⟨3, _⟩ => ⟨S4096x8, .f32⟩
  | .local _ .vmem, ⟨4, _⟩ => ⟨S4096x8, .f32⟩
  | .local _ .vmem, ⟨5, _⟩ => ⟨S2048x8, .f32⟩
  | .local _ .vmem, ⟨6, _⟩ => ⟨S2048x8, .f32⟩
  | .local _ .vmem, ⟨7, _⟩ => ⟨S2048x8, .f32⟩
  | .local _ .vmem, ⟨8, _⟩ => ⟨S2048x8, .f32⟩
  | .local _ .vmem, ⟨9, _⟩ => ⟨S2048x1, .f32⟩
  | .local _ .vmem, ⟨10, _⟩ => ⟨S2048x1, .f32⟩
  | .local _ .vmem, ⟨11, _⟩ => ⟨S1x8, .f32⟩
  | .local _ .vmem, ⟨12, _⟩ => ⟨S2048x8, .f32⟩
  | .local _ .vmem, ⟨13, _⟩ => ⟨S2048x8, .f32⟩
  | .local _ .vmem, ⟨14, _⟩ => ⟨S16384x8, .f32⟩
  | .local _ .vmem, ⟨15, _⟩ => ⟨S16384x8, .f32⟩
  | .local _ .vmem, ⟨16, _⟩ => ⟨S8x8, .f32⟩
  | .local _ .vmem, ⟨17, _⟩ => ⟨S16384x8, .f32⟩
  | .local _ .vmem, ⟨18, _⟩ => ⟨S16384x8, .f32⟩
  | .local _ .vmem, ⟨19, _⟩ => ⟨S2048x8, .f32⟩
  | .local _ .vmem, ⟨20, _⟩ => ⟨S2048x8, .f32⟩
  | .local _ .vmem, ⟨21, _⟩ => ⟨S2048x8, .f32⟩
  | .local _ .vmem, ⟨22, _⟩ => ⟨S2048x8, .f32⟩
  | .local _ .vmem, ⟨23, _⟩ => ⟨S2048x1, .f32⟩
  | .local _ .vmem, ⟨24, _⟩ => ⟨S2048x1, .f32⟩
  | .local _ .vmem, ⟨25, _⟩ => ⟨S1x8, .f32⟩
  | .local _ .vmem, ⟨26, _⟩ => ⟨S2048x8, .f32⟩
  | .local _ .vmem, ⟨27, _⟩ => ⟨S2048x8, .f32⟩
  | .local _ .vmem, ⟨28, _⟩ => ⟨S16384x8, .f32⟩
  | .local _ .vmem, ⟨29, _⟩ => ⟨S16384x8, .f32⟩
  | .local _ .vmem, ⟨30, _⟩ => ⟨S8x1, .f32⟩
  | .local _ .vmem, ⟨31, _⟩ => ⟨S16384x1, .f32⟩
  | .local _ .vmem, ⟨32, _⟩ => ⟨S16384x1, .f32⟩
  | .local _ .vmem, ⟨33, _⟩ => ⟨S2048x1, .f32⟩
  | .local _ .vmem, ⟨34, _⟩ => ⟨S2048x1, .f32⟩
  | .local _ .vmem, ⟨35, _⟩ => ⟨S2048x1, .f32⟩
  | .local _ .vmem, ⟨36, _⟩ => ⟨S2048x1, .f32⟩
  | .local _ .vmem, ⟨37, _⟩ => ⟨S2048x1, .f32⟩
  | .local _ .vmem, ⟨38, _⟩ => ⟨S2048x1, .f32⟩
  | .local _ .vmem, ⟨39, _⟩ => ⟨S1x1, .f32⟩
  | .local _ .vmem, ⟨40, _⟩ => ⟨S2048x1, .f32⟩
  | .local _ .vmem, ⟨41, _⟩ => ⟨S2048x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_15 : Ref sig .tc := ⟨.hbm, 112, rfl⟩
abbrev main_v82 : Ref sig .tc := ⟨.hbm, 113, rfl⟩
abbrev main_v83 : Ref sig .tc := ⟨.hbm, 114, rfl⟩
abbrev main_c_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call0_cst : Ref sig .tc := ⟨.hbm, 125, rfl⟩
abbrev main_call0_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S16384x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![256], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16384x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S16384x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![256], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2048x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S_S524288 : S_.BroadcastsInDim S524288 (![] : Fin 0 → Fin S524288.rank)
  bcast_S8388608_S8388608x1_0 : S8388608.BroadcastsInDim S8388608x1 (![0] : Fin 1 → Fin S8388608x1.rank)
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x8_S128x8_0_0 : ∀ a, (![0, 0] : Fin 2 → Nat) a + S128x8.size a ≤ S128x8.size a
  h_S128x8 : 0 < S128x8.numel
  inb_S4096x8_S4096x8_0_0 : ∀ a, (![0, 0] : Fin 2 → Nat) a + S4096x8.size a ≤ S4096x8.size a
  h_S4096x8 : 0 < S4096x8.numel
  bcast_S8388608x1_S8388608x8_0_1 : S8388608x1.BroadcastsInDim S8388608x8 (![0, 1] : Fin 2 → Fin S8388608x8.rank)
  bcast_S_S524288x8 : S_.BroadcastsInDim S524288x8 (![] : Fin 0 → Fin S524288x8.rank)
  shapeCasts_S524288_S524288x1 : S524288.ShapeCasts S524288x1
  shapeCasts_S8_S1x8 : S8.ShapeCasts S1x8
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x8 : S2048x1.Broadcasts S2048x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S16384x8_S16384x8_0_0 : ∀ a, (![0, 0] : Fin 2 → Nat) a + S16384x8.size a ≤ S16384x8.size a
  h_S16384x8 : 0 < S16384x8.numel
  shapeCasts_S16384x8_S16384x8 : S16384x8.ShapeCasts S16384x8
  inb_S8x8_S8x8_0_0 : ∀ a, (![0, 0] : Fin 2 → Nat) a + S8x8.size a ≤ S8x8.size a
  h_S8x8 : 0 < S8x8.numel
  inb_S8x1_S8x1_0_0 : ∀ a, (![0, 0] : Fin 2 → Nat) a + S8x1.size a ≤ S8x1.size a
  h_S8x1 : 0 < S8x1.numel
  inb_S16384x1_S16384x1_0_0 : ∀ a, (![0, 0] : Fin 2 → Nat) a + S16384x1.size a ≤ S16384x1.size a
  h_S16384x1 : 0 < S16384x1.numel
  bcast_S_S524288x1 : S_.BroadcastsInDim S524288x1 (![] : Fin 0 → Fin S524288x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  concatenates_S524288x8_S524288x8_S524288x1_S524288x17_d1 : Shape.Concatenates [S524288x8, S524288x8, S524288x1] S524288x17 1
  bcast_S_S64 : S_.BroadcastsInDim S64 (![] : Fin 0 → Fin S64.rank)
  bcast_S64_S64x1_0 : S64.BroadcastsInDim S64x1 (![0] : Fin 1 → Fin S64x1.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S524288_S8388608x1_S8388608_n_0_0_1_wf : ScatterDims.WF S524288 S8388608x1 S8388608 [] [0] [0] 1
  gather_S524288_S8388608x1_S8388608_n_0_n_n_0_1_1_wf : GatherDims.WF S524288 S8388608x1 S8388608 [] [0] [] [0] [] 1 ![1]
  dot_S4096x128_S128x8_S4096x8_1_0_0_1_n_n_wf : DotDims.WF S4096x128 S128x8 S4096x8 [1] [0] [0] [1] [] []
  gather_S524288x8_S8388608x1_S8388608x8_1_0_n_n_0_1_18_wf : GatherDims.WF S524288x8 S8388608x1 S8388608x8 [1] [0] [] [0] [] 1 ![1, 8]
  scatter_S524288x8_S8388608x1_S8388608x8_1_0_0_1_wf : ScatterDims.WF S524288x8 S8388608x1 S8388608x8 [1] [0] [0] 1
  dot_S16384x8_S8x8_S16384x8_1_0_0_1_n_n_wf : DotDims.WF S16384x8 S8x8 S16384x8 [1] [0] [0] [1] [] []
  dot_S16384x8_S8x1_S16384x1_1_0_0_1_n_n_wf : DotDims.WF S16384x8 S8x1 S16384x1 [1] [0] [0] [1] [] []
  gather_S524288x1_S8388608x1_S8388608x1_1_0_n_n_0_1_11_wf : GatherDims.WF S524288x1 S8388608x1 S8388608x1 [1] [0] [] [0] [] 1 ![1, 1]
  scatter_S524288x1_S8388608x1_S8388608x1_1_0_0_1_wf : ScatterDims.WF S524288x1 S8388608x1 S8388608x1 [1] [0] [0] 1
  gather_S524288x17_S64x1_S64x17_1_0_n_n_0_1_117_wf : GatherDims.WF S524288x17 S64x1 S64x17 [1] [0] [] [0] [] 1 ![1, 17]
  dot_S64x17_S17x16_S64x16_1_0_0_1_n_n_wf : DotDims.WF S64x17 S17x16 S64x16 [1] [0] [0] [1] [] []
  dot_S64x16_S16x2_S64x2_1_0_0_1_n_n_wf : DotDims.WF S64x16 S16x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8.size a ≤ S128x8.size a
  hwx0_1 : ∀ i : grid0.Coords, EltTy.bits .f32 = 32 ∨ (Rect.block (s := S128x8) S128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S524288x8.size a
  hwx0_2 : ∀ i : grid0.Coords, EltTy.bits .f32 = 32 ∨ (Rect.block (s := S524288x8) S4096x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x8.size a ≤ S524288x8.size a
  hwx1_0 : ∀ i : grid1.Coords, EltTy.bits .f32 = 32 ∨ (Rect.block (s := S524288x8) S2048x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x8.size a ≤ S524288x8.size a
  hwx1_1 : ∀ i : grid1.Coords, EltTy.bits .f32 = 32 ∨ (Rect.block (s := S524288x8) S2048x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S524288x1.size a
  hwx1_2 : ∀ i : grid1.Coords, EltTy.bits .f32 = 32 ∨ (Rect.block (s := S524288x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x8.size a ≤ S524288x8.size a
  hwx1_4 : ∀ i : grid1.Coords, EltTy.bits .f32 = 32 ∨ (Rect.block (s := S524288x8) S2048x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x8.size a ≤ S524288x8.size a
  hwx2_0 : ∀ i : grid2.Coords, EltTy.bits .f32 = 32 ∨ (Rect.block (s := S524288x8) S16384x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x8.size a ≤ S8x8.size a
  hwx2_1 : ∀ i : grid2.Coords, EltTy.bits .f32 = 32 ∨ (Rect.block (s := S8x8) S8x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384x8.size a ≤ S524288x8.size a
  hwx2_2 : ∀ i : grid2.Coords, EltTy.bits .f32 = 32 ∨ (Rect.block (s := S524288x8) S16384x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x8.size a ≤ S524288x8.size a
  hwx3_0 : ∀ i : grid3.Coords, EltTy.bits .f32 = 32 ∨ (Rect.block (s := S524288x8) S2048x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x8.size a ≤ S524288x8.size a
  hwx3_1 : ∀ i : grid3.Coords, EltTy.bits .f32 = 32 ∨ (Rect.block (s := S524288x8) S2048x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S524288x1.size a
  hwx3_2 : ∀ i : grid3.Coords, EltTy.bits .f32 = 32 ∨ (Rect.block (s := S524288x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x8.size a ≤ S524288x8.size a
  hwx3_4 : ∀ i : grid3.Coords, EltTy.bits .f32 = 32 ∨ (Rect.block (s := S524288x8) S2048x8.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16384x8.size a ≤ S524288x8.size a
  hwx4_0 : ∀ i : grid4.Coords, EltTy.bits .f32 = 32 ∨ (Rect.block (s := S524288x8) S16384x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x1.size a ≤ S8x1.size a
  hwx4_1 : ∀ i : grid4.Coords, EltTy.bits .f32 = 32 ∨ (Rect.block (s := S8x1) S8x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16384x1.size a ≤ S524288x1.size a
  hwx4_2 : ∀ i : grid4.Coords, EltTy.bits .f32 = 32 ∨ (Rect.block (s := S524288x1) S16384x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1.size a ≤ S524288x1.size a
  hwx5_0 : ∀ i : grid5.Coords, EltTy.bits .f32 = 32 ∨ (Rect.block (s := S524288x1) S2048x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1.size a ≤ S524288x1.size a
  hwx5_1 : ∀ i : grid5.Coords, EltTy.bits .f32 = 32 ∨ (Rect.block (s := S524288x1) S2048x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S524288x1.size a
  hwx5_2 : ∀ i : grid5.Coords, EltTy.bits .f32 = 32 ∨ (Rect.block (s := S524288x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2048x1.size a ≤ S524288x1.size a
  hwx5_4 : ∀ i : grid5.Coords, EltTy.bits .f32 = 32 ∨ (Rect.block (s := S524288x1) S2048x1.size (cc5_transform_4 i) (hinb5_4 i)).WholeWords (EltTy.packing .f32)

variable [Facts₀]

def scatter_S524288_S8388608x1_S8388608_n_0_0_1 : ScatterDims S524288 S8388608x1 S8388608 where
  updateWindowDims := []
  insertedWindowDims := [0]
  scatterDimsToOperandDims := [0]
  indexVectorDim := 1
  wf := scatter_S524288_S8388608x1_S8388608_n_0_0_1_wf
def gather_S524288_S8388608x1_S8388608_n_0_n_n_0_1_1 : GatherDims S524288 S8388608x1 S8388608 where
  offsetDims := []
  collapsedSliceDims := [0]
  operandBatchingDims := []
  startIndicesBatchingDims := []
  startIndexMap := [0]
  indexVectorDim := 1
  sliceSizes := ![1]
  wf := gather_S524288_S8388608x1_S8388608_n_0_n_n_0_1_1_wf
def dot_S4096x128_S128x8_S4096x8_1_0_0_1_n_n : DotDims S4096x128 S128x8 S4096x8 where
  lhsContracting := [1]
  rhsContracting := [0]
  lhsNonContracting := [0]
  rhsNonContracting := [1]
  lhsBatch := []
  rhsBatch := []
  wf := dot_S4096x128_S128x8_S4096x8_1_0_0_1_n_n_wf
def gather_S524288x8_S8388608x1_S8388608x8_1_0_n_n_0_1_18 : GatherDims S524288x8 S8388608x1 S8388608x8 where
  offsetDims := [1]
  collapsedSliceDims := [0]
  operandBatchingDims := []
  startIndicesBatchingDims := []
  startIndexMap := [0]
  indexVectorDim := 1
  sliceSizes := ![1, 8]
  wf := gather_S524288x8_S8388608x1_S8388608x8_1_0_n_n_0_1_18_wf
def scatter_S524288x8_S8388608x1_S8388608x8_1_0_0_1 : ScatterDims S524288x8 S8388608x1 S8388608x8 where
  updateWindowDims := [1]
  insertedWindowDims := [0]
  scatterDimsToOperandDims := [0]
  indexVectorDim := 1
  wf := scatter_S524288x8_S8388608x1_S8388608x8_1_0_0_1_wf
def dot_S16384x8_S8x8_S16384x8_1_0_0_1_n_n : DotDims S16384x8 S8x8 S16384x8 where
  lhsContracting := [1]
  rhsContracting := [0]
  lhsNonContracting := [0]
  rhsNonContracting := [1]
  lhsBatch := []
  rhsBatch := []
  wf := dot_S16384x8_S8x8_S16384x8_1_0_0_1_n_n_wf
def dot_S16384x8_S8x1_S16384x1_1_0_0_1_n_n : DotDims S16384x8 S8x1 S16384x1 where
  lhsContracting := [1]
  rhsContracting := [0]
  lhsNonContracting := [0]
  rhsNonContracting := [1]
  lhsBatch := []
  rhsBatch := []
  wf := dot_S16384x8_S8x1_S16384x1_1_0_0_1_n_n_wf
def gather_S524288x1_S8388608x1_S8388608x1_1_0_n_n_0_1_11 : GatherDims S524288x1 S8388608x1 S8388608x1 where
  offsetDims := [1]
  collapsedSliceDims := [0]
  operandBatchingDims := []
  startIndicesBatchingDims := []
  startIndexMap := [0]
  indexVectorDim := 1
  sliceSizes := ![1, 1]
  wf := gather_S524288x1_S8388608x1_S8388608x1_1_0_n_n_0_1_11_wf
def scatter_S524288x1_S8388608x1_S8388608x1_1_0_0_1 : ScatterDims S524288x1 S8388608x1 S8388608x1 where
  updateWindowDims := [1]
  insertedWindowDims := [0]
  scatterDimsToOperandDims := [0]
  indexVectorDim := 1
  wf := scatter_S524288x1_S8388608x1_S8388608x1_1_0_0_1_wf
def gather_S524288x17_S64x1_S64x17_1_0_n_n_0_1_117 : GatherDims S524288x17 S64x1 S64x17 where
  offsetDims := [1]
  collapsedSliceDims := [0]
  operandBatchingDims := []
  startIndicesBatchingDims := []
  startIndexMap := [0]
  indexVectorDim := 1
  sliceSizes := ![1, 17]
  wf := gather_S524288x17_S64x1_S64x17_1_0_n_n_0_1_117_wf
def dot_S64x17_S17x16_S64x16_1_0_0_1_n_n : DotDims S64x17 S17x16 S64x16 where
  lhsContracting := [1]
  rhsContracting := [0]
  lhsNonContracting := [0]
  rhsNonContracting := [1]
  lhsBatch := []
  rhsBatch := []
  wf := dot_S64x17_S17x16_S64x16_1_0_0_1_n_n_wf
def dot_S64x16_S16x2_S64x2_1_0_0_1_n_n : DotDims S64x16 S16x2 S64x2 where
  lhsContracting := [1]
  rhsContracting := [0]
  lhsNonContracting := [0]
  rhsNonContracting := [1]
  lhsBatch := []
  rhsBatch := []
  wf := dot_S64x16_S16x2_S64x2_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4096x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2048x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2048x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2048x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S16384x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S8x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S16384x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2048x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2048x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2048x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S16384x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S8x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S16384x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S2048x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S2048x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v74) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S2048x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S524288x128 : Shape := ⟨2, ![524288, 128]⟩
abbrev S2x8388608 : Shape := ⟨2, ![2, 8388608]⟩
abbrev S64 : Shape := ⟨1, ![64]⟩
abbrev S128x8 : Shape := ⟨2, ![128, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S17x16 : Shape := ⟨2, ![17, 16]⟩
abbrev S16 : Shape := ⟨1, ![16]⟩
abbrev S16x2 : Shape := ⟨2, ![16, 2]⟩
abbrev S2 : Shape := ⟨1, ![2]⟩
abbrev S1x8388608 : Shape := ⟨2, ![1, 8388608]⟩
abbrev S8388608 : Shape := ⟨1, ![8388608]⟩
abbrev S_ : Shape := ⟨0, ![]⟩
abbrev S524288 : Shape := ⟨1, ![524288]⟩
abbrev S8388608x1 : Shape := ⟨2, ![8388608, 1]⟩
abbrev S524288x8 : Shape := ⟨2, ![524288, 8]⟩
abbrev S8388608x8 : Shape := ⟨2, ![8388608, 8]⟩
abbrev S524288x1 : Shape := ⟨2, ![524288, 1]⟩
abbrev S1x8 : Shape := ⟨2, ![1, 8]⟩
abbrev S1x1 : Shape := ⟨2, ![1, 1]⟩
abbrev S524288x17 : Shape := ⟨2, ![524288, 17]⟩
abbrev S64x1 : Shape := ⟨2, ![64, 1]⟩
abbrev S64x17 : Shape := ⟨2, ![64, 17]⟩
abbrev S64x16 : Shape := ⟨2, ![64, 16]⟩
abbrev S1x16 : Shape := ⟨2, ![1, 16]⟩
abbrev S64x2 : Shape := ⟨2, ![64, 2]⟩
abbrev S1x2 : Shape := ⟨2, ![1, 2]⟩

abbrev nBuf : Space → Nat
  | .hbm => 154
  | .vmem => 0
  | .smem => 0
  | _ => 0

abbrev hbmTy0_0 (i : Nat) : BufTy := match i % 128 with
  | 0 => ⟨S524288x128, .f32⟩
  | 1 => ⟨S2x8388608, .i32⟩
  | 2 => ⟨S64, .i32⟩
  | 3 => ⟨S128x8, .f32⟩
  | 4 => ⟨S8, .f32⟩
  | 5 => ⟨S8x8, .f32⟩
  | 6 => ⟨S8, .f32⟩
  | 7 => ⟨S8x1, .f32⟩
  | 8 => ⟨S1, .f32⟩
  | 9 => ⟨S17x16, .f32⟩
  | 10 => ⟨S16, .f32⟩
  | 11 => ⟨S16x2, .f32⟩
  | 12 => ⟨S2, .f32⟩
  | 13 => ⟨S1x8388608, .i32⟩
  | 14 => ⟨S8388608, .i32⟩
  | 15 => ⟨S1x8388608, .i32⟩
  | 16 => ⟨S8388608, .i32⟩
  | 17 => ⟨S_, .f32⟩
  | 18 => ⟨S8388608, .f32⟩
  | 19 => ⟨S_, .f32⟩
  | 20 => ⟨S524288, .f32⟩
  | 21 => ⟨S8388608x1, .i32⟩
  | 22 => ⟨S524288, .f32⟩
  | 23 => ⟨S_, .f32⟩
  | 24 => ⟨S524288, .f32⟩
  | 25 => ⟨S524288, .f32⟩
  | 26 => ⟨S524288, .f32⟩
  | 27 => ⟨S_, .i32⟩
  | 28 => ⟨S8388608, .i32⟩
  | 29 => ⟨S8388608, .i1⟩
  | 30 => ⟨S_, .i32⟩
  | 31 => ⟨S8388608, .i32⟩
  | 32 => ⟨S8388608, .i32⟩
  | 33 => ⟨S8388608, .i32⟩
  | 34 => ⟨S8388608x1, .i32⟩
  | 35 => ⟨S8388608, .f32⟩
  | 36 => ⟨S_, .i32⟩
  | 37 => ⟨S8388608, .i32⟩
  | 38 => ⟨S8388608, .i1⟩
  | 39 => ⟨S_, .i32⟩
  | 40 => ⟨S8388608, .i32⟩
  | 41 => ⟨S8388608, .i32⟩
  | 42 => ⟨S8388608, .i32⟩
  | 43 => ⟨S8388608x1, .i32⟩
  | 44 => ⟨S8388608, .f32⟩
  | 45 => ⟨S8388608, .f32⟩
  | 46 => ⟨S524288x8, .f32⟩
  | 47 => ⟨S_, .i32⟩
  | 48 => ⟨S8388608, .i32⟩
  | 49 => ⟨S8388608, .i1⟩
  | 50 => ⟨S_, .i32⟩
  | 51 => ⟨S8388608, .i32⟩
  | 52 => ⟨S8388608, .i32⟩
  | 53 => ⟨S8388608, .i32⟩
  | 54 => ⟨S8388608x1, .i32⟩
  | 55 => ⟨S8388608x8, .f32⟩
  | 56 => ⟨S8388608x1, .f32⟩
  | 57 => ⟨S8388608x8, .f32⟩
  | 58 => ⟨S8388608x8, .f32⟩
  | 59 => ⟨S_, .f32⟩
  | 60 => ⟨S524288x8, .f32⟩
  | 61 => ⟨S8388608x1, .i32⟩
  | 62 => ⟨S524288x8, .f32⟩
  | 63 => ⟨S524288, .f32⟩
  | 64 => ⟨S524288x1, .f32⟩
  | 65 => ⟨S524288x8, .f32⟩
  | 66 => ⟨S524288x8, .f32⟩
  | 67 => ⟨S524288x8, .f32⟩
  | 68 => ⟨S1x8, .f32⟩
  | 69 => ⟨S524288x8, .f32⟩
  | 70 => ⟨S524288x8, .f32⟩
  | 71 => ⟨S_, .f32⟩
  | 72 => ⟨S524288x8, .f32⟩
  | 73 => ⟨S524288x8, .f32⟩
  | 74 => ⟨S524288x8, .f32⟩
  | 75 => ⟨S_, .i32⟩
  | 76 => ⟨S8388608, .i32⟩
  | 77 => ⟨S8388608, .i1⟩
  | 78 => ⟨S_, .i32⟩
  | 79 => ⟨S8388608, .i32⟩
  | 80 => ⟨S8388608, .i32⟩
  | 81 => ⟨S8388608, .i32⟩
  | 82 => ⟨S8388608x1, .i32⟩
  | 83 => ⟨S8388608x8, .f32⟩
  | 84 => ⟨S8388608x1, .f32⟩
  | 85 => ⟨S8388608x8, .f32⟩
  | 86 => ⟨S8388608x8, .f32⟩
  | 87 => ⟨S_, .f32⟩
  | 88 => ⟨S524288x8, .f32⟩
  | 89 => ⟨S8388608x1, .i32⟩
  | 90 => ⟨S524288x8, .f32⟩
  | 91 => ⟨S524288, .f32⟩
  | 92 => ⟨S524288x1, .f32⟩
  | 93 => ⟨S524288x8, .f32⟩
  | 94 => ⟨S524288x8, .f32⟩
  | 95 => ⟨S524288x8, .f32⟩
  | 96 => ⟨S1x8, .f32⟩
  | 97 => ⟨S524288x8, .f32⟩
  | 98 => ⟨S524288x8, .f32⟩
  | 99 => ⟨S_, .f32⟩
  | 100 => ⟨S524288x8, .f32⟩
  | 101 => ⟨S524288x8, .f32⟩
  | 102 => ⟨S524288x1, .f32⟩
  | 103 => ⟨S_, .i32⟩
  | 104 => ⟨S8388608, .i32⟩
  | 105 => ⟨S8388608, .i1⟩
  | 106 => ⟨S_, .i32⟩
  | 107 => ⟨S8388608, .i32⟩
  | 108 => ⟨S8388608, .i32⟩
  | 109 => ⟨S8388608, .i32⟩
  | 110 => ⟨S8388608x1, .i32⟩
  | 111 => ⟨S8388608x1, .f32⟩
  | 112 => ⟨S8388608x1, .f32⟩
  | 113 => ⟨S8388608x1, .f32⟩
  | 114 => ⟨S_, .f32⟩
  | 115 => ⟨S524288x1, .f32⟩
  | 116 => ⟨S8388608x1, .i32⟩
  | 117 => ⟨S524288x1, .f32⟩
  | 118 => ⟨S524288, .f32⟩
  | 119 => ⟨S524288x1, .f32⟩
  | 120 => ⟨S524288x1, .f32⟩
  | 121 => ⟨S524288x1, .f32⟩
  | 122 => ⟨S1x1, .f32⟩
  | 123 => ⟨S524288x1, .f32⟩
  | 124 => ⟨S524288x1, .f32⟩
  | 125 => ⟨S_, .f32⟩
  | 126 => ⟨S524288x1, .f32⟩
  | 127 => ⟨S524288x1, .f32⟩
  | _ => ⟨S524288x128, .f32⟩

abbrev hbmTy0_1 (i : Nat) : BufTy := match i % 128 with
  | 0 => ⟨S524288x17, .f32⟩
  | 1 => ⟨S64, .i32⟩
  | 2 => ⟨S_, .i32⟩
  | 3 => ⟨S64, .i32⟩
  | 4 => ⟨S64, .i32⟩
  | 5 => ⟨S64, .i32⟩
  | 6 => ⟨S_, .i32⟩
  | 7 => ⟨S64, .i32⟩
  | 8 => ⟨S64, .i1⟩
  | 9 => ⟨S_, .i32⟩
  | 10 => ⟨S64, .i32⟩
  | 11 => ⟨S64, .i32⟩
  | 12 => ⟨S64, .i32⟩
  | 13 => ⟨S64x1, .i32⟩
  | 14 => ⟨S64x17, .f32⟩
  | 15 => ⟨S64x16, .f32⟩
  | 16 => ⟨S1x16, .f32⟩
  | 17 => ⟨S64x16, .f32⟩
  | 18 => ⟨S64x16, .f32⟩
  | 19 => ⟨S_, .f32⟩
  | 20 => ⟨S64x16, .f32⟩
  | 21 => ⟨S64x16, .f32⟩
  | 22 => ⟨S64x2, .f32⟩
  | 23 => ⟨S1x2, .f32⟩
  | 24 => ⟨S64x2, .f32⟩
  | 25 => ⟨S64x2, .f32⟩
  | _ => ⟨S524288x128, .f32⟩

abbrev hbmTy (i : Nat) : BufTy := match i / 128 with
  | 0 => hbmTy0_0 i
  | 1 => hbmTy0_1 i
  | _ => ⟨S524288x128, .f32⟩

abbrev bufTy : (tb : Table) → Fin (tcTables nBuf tb) → BufTy
  | .hbm, ⟨i, _⟩ => hbmTy i
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_v71 : Ref sig .tc := ⟨.hbm, 101, rfl⟩
abbrev main_v72 : Ref sig .tc := ⟨.hbm, 102, rfl⟩
abbrev main_c_11 : Ref sig .tc := ⟨.hbm, 103, rfl⟩
abbrev main_v73 : Ref sig .tc := ⟨.hbm, 104, rfl⟩
abbrev main_v74 : Ref sig .tc := ⟨.hbm, 105, rfl⟩
abbrev main_c_12 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_13 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call2_cst : Ref sig .tc := ⟨.hbm, 125, rfl⟩
abbrev main_call2_v0 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_14 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_15 : Ref sig .tc := ⟨.hbm, 134, rfl⟩
abbrev main_v98 : Ref sig .tc := ⟨.hbm, 135, rfl⟩
abbrev main_v99 : Ref sig .tc := ⟨.hbm, 136, rfl⟩
abbrev main_c_16 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_call3_cst : Ref sig .tc := ⟨.hbm, 147, rfl⟩
abbrev main_call3_v0 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩

abbrev nD : Nat := 1
abbrev τ : Topo := Topo.v7x

variable {F : FTy → Type} [FloatOps F]

class Facts₀ : Prop where
  slices_S2x8388608_S1x8388608_0_0 : S2x8388608.Slices ![0, 0] S1x8388608
  shapeCasts_S1x8388608_S8388608 : S1x8388608.ShapeCasts S8388608
  slices_S2x8388608_S1x8388608_1_0 : S2x8388608.Slices ![1, 0] S1x8388608
  bcast_S_S8388608 : S_.BroadcastsInDim S8388608 (![] : Fin 0 → Fin S8388608.rank)
  bcast_S_S524288 : S_.BroadcastsInDim S524288 (![] : Fin 0 → Fin S524288.rank)
  bcast_S8388608_S8388608x1_0 : S8388608.BroadcastsInDim S8388608x1 (![0] : Fin 1 → Fin S8388608x1.rank)
  bcast_S8388608x1_S8388608x8_0_1 : S8388608x1.BroadcastsInDim S8388608x8 (![0, 1] : Fin 2 → Fin S8388608x8.rank)
  bcast_S_S524288x8 : S_.BroadcastsInDim S524288x8 (![] : Fin 0 → Fin S524288x8.rank)
  bcast_S524288_S524288x1_0 : S524288.BroadcastsInDim S524288x1 (![0] : Fin 1 → Fin S524288x1.rank)
  bcast_S524288x1_S524288x8_0_1 : S524288x1.BroadcastsInDim S524288x8 (![0, 1] : Fin 2 → Fin S524288x8.rank)
  bcast_S8_S1x8_1 : S8.BroadcastsInDim S1x8 (![1] : Fin 1 → Fin S1x8.rank)
  bcast_S1x8_S524288x8_0_1 : S1x8.BroadcastsInDim S524288x8 (![0, 1] : Fin 2 → Fin S524288x8.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  concatenates_S524288x8_S524288x8_S524288x1_S524288x17_d1 : Shape.Concatenates [S524288x8, S524288x8, S524288x1] S524288x17 1
  bcast_S_S64 : S_.BroadcastsInDim S64 (![] : Fin 0 → Fin S64.rank)
  bcast_S64_S64x1_0 : S64.BroadcastsInDim S64x1 (![0] : Fin 1 → Fin S64x1.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S524288_S8388608x1_S8388608_n_0_0_1_wf : ScatterDims.WF S524288 S8388608x1 S8388608 [] [0] [0] 1
  gather_S524288_S8388608x1_S8388608_n_0_n_n_0_1_1_wf : GatherDims.WF S524288 S8388608x1 S8388608 [] [0] [] [0] [] 1 ![1]
  dot_S524288x128_S128x8_S524288x8_1_0_0_1_n_n_wf : DotDims.WF S524288x128 S128x8 S524288x8 [1] [0] [0] [1] [] []
  gather_S524288x8_S8388608x1_S8388608x8_1_0_n_n_0_1_18_wf : GatherDims.WF S524288x8 S8388608x1 S8388608x8 [1] [0] [] [0] [] 1 ![1, 8]
  scatter_S524288x8_S8388608x1_S8388608x8_1_0_0_1_wf : ScatterDims.WF S524288x8 S8388608x1 S8388608x8 [1] [0] [0] 1
  dot_S524288x8_S8x8_S524288x8_1_0_0_1_n_n_wf : DotDims.WF S524288x8 S8x8 S524288x8 [1] [0] [0] [1] [] []
  dot_S524288x8_S8x1_S524288x1_1_0_0_1_n_n_wf : DotDims.WF S524288x8 S8x1 S524288x1 [1] [0] [0] [1] [] []
  gather_S524288x1_S8388608x1_S8388608x1_1_0_n_n_0_1_11_wf : GatherDims.WF S524288x1 S8388608x1 S8388608x1 [1] [0] [] [0] [] 1 ![1, 1]
  scatter_S524288x1_S8388608x1_S8388608x1_1_0_0_1_wf : ScatterDims.WF S524288x1 S8388608x1 S8388608x1 [1] [0] [0] 1
  gather_S524288x17_S64x1_S64x17_1_0_n_n_0_1_117_wf : GatherDims.WF S524288x17 S64x1 S64x17 [1] [0] [] [0] [] 1 ![1, 17]
  dot_S64x17_S17x16_S64x16_1_0_0_1_n_n_wf : DotDims.WF S64x17 S17x16 S64x16 [1] [0] [0] [1] [] []
  dot_S64x16_S16x2_S64x2_1_0_0_1_n_n_wf : DotDims.WF S64x16 S16x2 S64x2 [1] [0] [0] [1] [] []

variable [Facts₀]

def scatter_S524288_S8388608x1_S8388608_n_0_0_1 : ScatterDims S524288 S8388608x1 S8388608 where
  updateWindowDims := []
  insertedWindowDims := [0]
  scatterDimsToOperandDims := [0]
  indexVectorDim := 1
  wf := scatter_S524288_S8388608x1_S8388608_n_0_0_1_wf
def gather_S524288_S8388608x1_S8388608_n_0_n_n_0_1_1 : GatherDims S524288 S8388608x1 S8388608 where
  offsetDims := []
  collapsedSliceDims := [0]
  operandBatchingDims := []
  startIndicesBatchingDims := []
  startIndexMap := [0]
  indexVectorDim := 1
  sliceSizes := ![1]
  wf := gather_S524288_S8388608x1_S8388608_n_0_n_n_0_1_1_wf
def dot_S524288x128_S128x8_S524288x8_1_0_0_1_n_n : DotDims S524288x128 S128x8 S524288x8 where
  lhsContracting := [1]
  rhsContracting := [0]
  lhsNonContracting := [0]
  rhsNonContracting := [1]
  lhsBatch := []
  rhsBatch := []
  wf := dot_S524288x128_S128x8_S524288x8_1_0_0_1_n_n_wf
def gather_S524288x8_S8388608x1_S8388608x8_1_0_n_n_0_1_18 : GatherDims S524288x8 S8388608x1 S8388608x8 where
  offsetDims := [1]
  collapsedSliceDims := [0]
  operandBatchingDims := []
  startIndicesBatchingDims := []
  startIndexMap := [0]
  indexVectorDim := 1
  sliceSizes := ![1, 8]
  wf := gather_S524288x8_S8388608x1_S8388608x8_1_0_n_n_0_1_18_wf
def scatter_S524288x8_S8388608x1_S8388608x8_1_0_0_1 : ScatterDims S524288x8 S8388608x1 S8388608x8 where
  updateWindowDims := [1]
  insertedWindowDims := [0]
  scatterDimsToOperandDims := [0]
  indexVectorDim := 1
  wf := scatter_S524288x8_S8388608x1_S8388608x8_1_0_0_1_wf
def dot_S524288x8_S8x8_S524288x8_1_0_0_1_n_n : DotDims S524288x8 S8x8 S524288x8 where
  lhsContracting := [1]
  rhsContracting := [0]
  lhsNonContracting := [0]
  rhsNonContracting := [1]
  lhsBatch := []
  rhsBatch := []
  wf := dot_S524288x8_S8x8_S524288x8_1_0_0_1_n_n_wf
def dot_S524288x8_S8x1_S524288x1_1_0_0_1_n_n : DotDims S524288x8 S8x1 S524288x1 where
  lhsContracting := [1]
  rhsContracting := [0]
  lhsNonContracting := [0]
  rhsNonContracting := [1]
  lhsBatch := []
  rhsBatch := []
  wf := dot_S524288x8_S8x1_S524288x1_1_0_0_1_n_n_wf
def gather_S524288x1_S8388608x1_S8388608x1_1_0_n_n_0_1_11 : GatherDims S524288x1 S8388608x1 S8388608x1 where
  offsetDims := [1]
  collapsedSliceDims := [0]
  operandBatchingDims := []
  startIndicesBatchingDims := []
  startIndexMap := [0]
  indexVectorDim := 1
  sliceSizes := ![1, 1]
  wf := gather_S524288x1_S8388608x1_S8388608x1_1_0_n_n_0_1_11_wf
def scatter_S524288x1_S8388608x1_S8388608x1_1_0_0_1 : ScatterDims S524288x1 S8388608x1 S8388608x1 where
  updateWindowDims := [1]
  insertedWindowDims := [0]
  scatterDimsToOperandDims := [0]
  indexVectorDim := 1
  wf := scatter_S524288x1_S8388608x1_S8388608x1_1_0_0_1_wf
def gather_S524288x17_S64x1_S64x17_1_0_n_n_0_1_117 : GatherDims S524288x17 S64x1 S64x17 where
  offsetDims := [1]
  collapsedSliceDims := [0]
  operandBatchingDims := []
  startIndicesBatchingDims := []
  startIndexMap := [0]
  indexVectorDim := 1
  sliceSizes := ![1, 17]
  wf := gather_S524288x17_S64x1_S64x17_1_0_n_n_0_1_117_wf
def dot_S64x17_S17x16_S64x16_1_0_0_1_n_n : DotDims S64x17 S17x16 S64x16 where
  lhsContracting := [1]
  rhsContracting := [0]
  lhsNonContracting := [0]
  rhsNonContracting := [1]
  lhsBatch := []
  rhsBatch := []
  wf := dot_S64x17_S17x16_S64x16_1_0_0_1_n_n_wf
def dot_S64x16_S16x2_S64x2_1_0_0_1_n_n : DotDims S64x16 S16x2 S64x2 where
  lhsContracting := [1]
  rhsContracting := [0]
  lhsNonContracting := [0]
  rhsNonContracting := [1]
  lhsBatch := []
  rhsBatch := []
  wf := dot_S64x16_S16x2_S64x2_1_0_0_1_n_n_wf

class Facts : Prop extends Facts₀ where

variable [Facts]
-- ==== Proof.BitsFrame.Region0.lean ====
/-
  Pipeline 0 of the program, one grid point at a time, for any contents `V` of the arrays when the call is entered.
  Every window's block divides its array evenly, so a block at a point is the array read through the block's rectangle.
  The body reads each input block whole, writes the output block whole, and what it writes is one pure function of
  the input blocks (`out0_2`). From that: the proof data of the pipeline (each input's buffer keeps its block, the
  output's buffer holds that function of the input blocks) and the obligation that the body meets them at every point.
-/
import proofs.«109645_j46763603919526_2_alg».proof.Proof.Gen.Kernel.Launch
import proofs.«109645_j46763603919526_2_alg».proof.Proof.Gen.Kernel.Skeleton
import proofs.«109645_j46763603919526_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros0 : (![0, 0] : Fin 2 → Nat) = fun _ => 0 := by funext a; fin_cases a <;> rfl

/-- Window `w`'s block at point `t`: the array, as the call finds it, read through the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, whether or not the block was fetched there (an unfetched
    block has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, whether or not the block was fetched there (an unfetched
    block has not moved), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-block rectangles, and what it writes -/

abbrev r0_0 : Rect S4096x128 := Rect.unit (s := S4096x128) ![0, 0] S4096x128.size inb_S4096x128_S4096x128_0_0
abbrev r0_1 : Rect S128x8 := Rect.unit (s := S128x8) ![0, 0] S128x8.size inb_S128x8_S128x8_0_0
abbrev r0_2 : Rect S4096x8 := Rect.unit (s := S4096x8) ![0, 0] S4096x8.size inb_S4096x8_S4096x8_0_0

/-- The output buffer after the body, as a function of the input blocks: its one whole-block store. -/
def out0_2 (x0 : Vec F S4096x128 .f32) (x1 : Vec F S128x8 .f32) : Vec F S4096x8 .f32 :=
  View.canon [⟨r0_2, k0_pay1 (View.ld x0 r0_0) (View.ld x1 r0_1)⟩]

/-- That store covers the buffer. -/
theorem cover0_2 (p0 : Vec F S4096x8 .f32) (y : S4096x8.Idx) :
    ∃ pc ∈ ([⟨r0_2, p0⟩] : List (View.Piece (Elt F) S4096x8 .f32)), y ∈ pc.1.set :=
  ⟨_, List.mem_singleton_self _, View.mem_set_unit_zero zeros0 inb_S4096x8_S4096x8_0_0 y⟩

/-! ## The body's triple -/

set_option maxHeartbeats 1000000 in
/-- From the input buffers at read contents `x_w` and the output buffer at anything, the body runs to its return with the
    inputs as they were and the output at `out0_2` of the inputs. -/
theorem sound_kernel0 (c : Dev nD) (E : Set ℕ) (i : grid0.Coords)
    (arg0 : Memref sig .tc .vmem S4096x128 .f32) (harg0 : arg0.IsWhole) (arg1 : Memref sig .tc .vmem S128x8 .f32) (harg1 : arg1.IsWhole) (arg2 : Memref sig .tc .vmem S4096x8 .f32) (harg2 : arg2.IsWhole)
    (x0 : Vec F S4096x128 .f32) (x1 : Vec F S128x8 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the call finds them; after the body at point `t` each input's buffer at its block and the output's at
    `out0_2` of the input blocks; the invariant: the scoped buffers no window stages and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at any point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.BitsFrame.Region1.lean ====
/-
  Pipeline 1 of the program, one grid point at a time, for any contents `V` of the arrays when the call is entered.
  Every window's block divides its array evenly, so a block at a point is the array read through the block's rectangle.
  The body reads each input block whole, writes the output block whole, and what it writes is one pure function of
  the input blocks (`out1_4`). From that: the proof data of the pipeline (each input's buffer keeps its block, the
  output's buffer holds that function of the input blocks) and the obligation that the body meets them at every point.
-/
import proofs.«109645_j46763603919526_2_alg».proof.Proof.Gen.Kernel.Launch
import proofs.«109645_j46763603919526_2_alg».proof.Proof.Gen.Kernel.Skeleton
import proofs.«109645_j46763603919526_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros1 : (![0, 0] : Fin 2 → Nat) = fun _ => 0 := by funext a; fin_cases a <;> rfl

/-- Window `w`'s block at point `t`: the array, as the call finds it, read through the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, whether or not the block was fetched there (an unfetched
    block has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, whether or not the block was fetched there (an unfetched
    block has not moved), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, whether or not the block was fetched there (an unfetched
    block has not moved), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, whether or not the block was fetched there (an unfetched
    block has not moved), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-block rectangles, and what it writes -/

abbrev r1_0 : Rect S2048x8 := Rect.unit (s := S2048x8) ![0, 0] S2048x8.size inb_S2048x8_S2048x8_0_0
abbrev r1_1 : Rect S2048x8 := Rect.unit (s := S2048x8) ![0, 0] S2048x8.size inb_S2048x8_S2048x8_0_0
abbrev r1_2 : Rect S2048x1 := Rect.unit (s := S2048x1) ![0, 0] S2048x1.size inb_S2048x1_S2048x1_0_0
abbrev r1_3 : Rect S1x8 := Rect.unit (s := S1x8) ![0, 0] S1x8.size inb_S1x8_S1x8_0_0
abbrev r1_4 : Rect S2048x8 := Rect.unit (s := S2048x8) ![0, 0] S2048x8.size inb_S2048x8_S2048x8_0_0

/-- The output buffer after the body, as a function of the input blocks: its one whole-block store. -/
def out1_4 (x0 : Vec F S2048x8 .f32) (x1 : Vec F S2048x8 .f32) (x2 : Vec F S2048x1 .f32) (x3 : Vec F S1x8 .f32) : Vec F S2048x8 .f32 :=
  View.canon [⟨r1_4, k1_pay1 (View.ld x0 r1_0) (View.ld x1 r1_1) (View.ld x2 r1_2) (View.ld x3 r1_3)⟩]

/-- That store covers the buffer. -/
theorem cover1_4 (p0 : Vec F S2048x8 .f32) (y : S2048x8.Idx) :
    ∃ pc ∈ ([⟨r1_4, p0⟩] : List (View.Piece (Elt F) S2048x8 .f32)), y ∈ pc.1.set :=
  ⟨_, List.mem_singleton_self _, View.mem_set_unit_zero zeros1 inb_S2048x8_S2048x8_0_0 y⟩

/-! ## The body's triple -/

set_option maxHeartbeats 1000000 in
/-- From the input buffers at read contents `x_w` and the output buffer at anything, the body runs to its return with the
    inputs as they were and the output at `out1_4` of the inputs. -/
theorem sound_kernel1 (c : Dev nD) (E : Set ℕ) (i : grid1.Coords)
    (arg0 : Memref sig .tc .vmem S2048x8 .f32) (harg0 : arg0.IsWhole) (arg1 : Memref sig .tc .vmem S2048x8 .f32) (harg1 : arg1.IsWhole) (arg2 : Memref sig .tc .vmem S2048x1 .f32) (harg2 : arg2.IsWhole) (arg3 : Memref sig .tc .vmem S1x8 .f32) (harg3 : arg3.IsWhole) (arg4 : Memref sig .tc .vmem S2048x8 .f32) (harg4 : arg4.IsWhole)
    (x0 : Vec F S2048x8 .f32) (x1 : Vec F S2048x8 .f32) (x2 : Vec F S2048x1 .f32) (x3 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_kernel i arg0 harg0 arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The arrays as the call finds them; after the body at point `t` each input's buffer at its block and the output's at
    `out1_4` of the input blocks; the invariant: the scoped buffers no window stages and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at any point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.BitsFrame.Region2.lean ====
/-
  Pipeline 2 of the program, one grid point at a time, for any contents `V` of the arrays when the call is entered.
  Every window's block divides its array evenly, so a block at a point is the array read through the block's rectangle.
  The body reads each input block whole, writes the output block whole, and what it writes is one pure function of
  the input blocks (`out2_2`). From that: the proof data of the pipeline (each input's buffer keeps its block, the
  output's buffer holds that function of the input blocks) and the obligation that the body meets them at every point.
-/
import proofs.«109645_j46763603919526_2_alg».proof.Proof.Gen.Kernel.Launch
import proofs.«109645_j46763603919526_2_alg».proof.Proof.Gen.Kernel.Skeleton
import proofs.«109645_j46763603919526_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros2 : (![0, 0] : Fin 2 → Nat) = fun _ => 0 := by funext a; fin_cases a <;> rfl

/-- Window `w`'s block at point `t`: the array, as the call finds it, read through the block's rectangle. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, whether or not the block was fetched there (an unfetched
    block has not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's buffer holds its block at every point, whether or not the block was fetched there (an unfetched
    block has not moved), for any proof data over these arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's whole-block rectangles, and what it writes -/

abbrev r2_0 : Rect S16384x8 := Rect.unit (s := S16384x8) ![0, 0] S16384x8.size inb_S16384x8_S16384x8_0_0
abbrev r2_1 : Rect S8x8 := Rect.unit (s := S8x8) ![0, 0] S8x8.size inb_S8x8_S8x8_0_0
abbrev r2_2 : Rect S16384x8 := Rect.unit (s := S16384x8) ![0, 0] S16384x8.size inb_S16384x8_S16384x8_0_0

/-- The output buffer after the body, as a function of the input blocks: its one whole-block store. -/
def out2_2 (x0 : Vec F S16384x8 .f32) (x1 : Vec F S8x8 .f32) : Vec F S16384x8 .f32 :=
  View.canon [⟨r2_2, k2_pay1 (View.ld x0 r2_0) (View.ld x1 r2_1)⟩]

/-- That store covers the buffer. -/
theorem cover2_2 (p0 : Vec F S16384x8 .f32) (y : S16384x8.Idx) :
    ∃ pc ∈ ([⟨r2_2, p0⟩] : List (View.Piece (Elt F) S16384x8 .f32)), y ∈ pc.1.set :=
  ⟨_, List.mem_singleton_self _, View.mem_set_unit_zero zeros2 inb_S16384x8_S16384x8_0_0 y⟩

/-! ## The body's triple -/

set_option maxHeartbeats 1000000 in
/-- From the input buffers at read contents `x_w` and the output buffer at anything, the body runs to its return with the
    inputs as they were and the output at `out2_2` of the inputs. -/
theorem sound_kernel2 (c : Dev nD) (E : Set ℕ) (i : grid2.Coords)
    (arg0 : Memref sig .tc .vmem S16384x8 .f32) (harg0 : arg0.IsWhole) (arg1 : Memref sig .tc .vmem S8x8 .f32) (harg1 : arg1.IsWhole) (arg2 : Memref sig .tc .vmem S16384x8 .f32) (harg2 : arg2.IsWhole)
    (x0 : Vec F S16384x8 .f32) (x1 : Vec F S8x8 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the call finds them; after the body at point `t` each input's buffer at its block and the output's at
    `out2_2` of the input blocks; the invariant: the scoped buffers no window stages and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at any point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.BitsFrame.Region3.lean ====
/-
  Pipeline 3 of the program, one grid point at a time, for any contents `V` of the arrays when the call is entered.
  Every window's block divides its array evenly, so a block at a point is the array read through the block's rectangle.
  The body reads each input block whole, writes the output block whole, and what it writes is one pure function of
  the input blocks (`out3_4`). From that: the proof data of the pipeline (each input's buffer keeps its block, the
  output's buffer holds that function of the input blocks) and the obligation that the body meets them at every point.
-/
import proofs.«109645_j46763603919526_2_alg».proof.Proof.Gen.Kernel.Launch
import proofs.«109645_j46763603919526_2_alg».proof.Proof.Gen.Kernel.Skeleton
import proofs.«109645_j46763603919526_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros3 : (![0, 0] : Fin 2 → Nat) = fun _ => 0 := by funext a; fin_cases a <;> rfl

/-- Window `w`'s block at point `t`: the array, as the call finds it, read through the block's rectangle. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, whether or not the block was fetched there (an unfetched
    block has not moved), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's buffer holds its block at every point, whether or not the block was fetched there (an unfetched
    block has not moved), for any proof data over these arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's buffer holds its block at every point, whether or not the block was fetched there (an unfetched
    block has not moved), for any proof data over these arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's buffer holds its block at every point, whether or not the block was fetched there (an unfetched
    block has not moved), for any proof data over these arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's whole-block rectangles, and what it writes -/

abbrev r3_0 : Rect S2048x8 := Rect.unit (s := S2048x8) ![0, 0] S2048x8.size inb_S2048x8_S2048x8_0_0
abbrev r3_1 : Rect S2048x8 := Rect.unit (s := S2048x8) ![0, 0] S2048x8.size inb_S2048x8_S2048x8_0_0
abbrev r3_2 : Rect S2048x1 := Rect.unit (s := S2048x1) ![0, 0] S2048x1.size inb_S2048x1_S2048x1_0_0
abbrev r3_3 : Rect S1x8 := Rect.unit (s := S1x8) ![0, 0] S1x8.size inb_S1x8_S1x8_0_0
abbrev r3_4 : Rect S2048x8 := Rect.unit (s := S2048x8) ![0, 0] S2048x8.size inb_S2048x8_S2048x8_0_0

/-- The output buffer after the body, as a function of the input blocks: its one whole-block store. -/
def out3_4 (x0 : Vec F S2048x8 .f32) (x1 : Vec F S2048x8 .f32) (x2 : Vec F S2048x1 .f32) (x3 : Vec F S1x8 .f32) : Vec F S2048x8 .f32 :=
  View.canon [⟨r3_4, k3_pay1 (View.ld x0 r3_0) (View.ld x1 r3_1) (View.ld x2 r3_2) (View.ld x3 r3_3)⟩]

/-- That store covers the buffer. -/
theorem cover3_4 (p0 : Vec F S2048x8 .f32) (y : S2048x8.Idx) :
    ∃ pc ∈ ([⟨r3_4, p0⟩] : List (View.Piece (Elt F) S2048x8 .f32)), y ∈ pc.1.set :=
  ⟨_, List.mem_singleton_self _, View.mem_set_unit_zero zeros3 inb_S2048x8_S2048x8_0_0 y⟩

/-! ## The body's triple -/

set_option maxHeartbeats 1000000 in
/-- From the input buffers at read contents `x_w` and the output buffer at anything, the body runs to its return with the
    inputs as they were and the output at `out3_4` of the inputs. -/
theorem sound_kernel3 (c : Dev nD) (E : Set ℕ) (i : grid3.Coords)
    (arg0 : Memref sig .tc .vmem S2048x8 .f32) (harg0 : arg0.IsWhole) (arg1 : Memref sig .tc .vmem S2048x8 .f32) (harg1 : arg1.IsWhole) (arg2 : Memref sig .tc .vmem S2048x1 .f32) (harg2 : arg2.IsWhole) (arg3 : Memref sig .tc .vmem S1x8 .f32) (harg3 : arg3.IsWhole) (arg4 : Memref sig .tc .vmem S2048x8 .f32) (harg4 : arg4.IsWhole)
    (x0 : Vec F S2048x8 .f32) (x1 : Vec F S2048x8 .f32) (x2 : Vec F S2048x1 .f32) (x3 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__combine_kernel i arg0 harg0 arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The arrays as the call finds them; after the body at point `t` each input's buffer at its block and the output's at
    `out3_4` of the input blocks; the invariant: the scoped buffers no window stages and the generator register,
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at any point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's proof data, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.BitsFrame.Region4.lean ====
/-
  Pipeline 4 of the program, one grid point at a time, for any contents `V` of the arrays when the call is entered.
  Every window's block divides its array evenly, so a block at a point is the array read through the block's rectangle.
  The body reads each input block whole, writes the output block whole, and what it writes is one pure function of
  the input blocks (`out4_2`). From that: the proof data of the pipeline (each input's buffer keeps its block, the
  output's buffer holds that function of the input blocks) and the obligation that the body meets them at every point.
-/
import proofs.«109645_j46763603919526_2_alg».proof.Proof.Gen.Kernel.Launch
import proofs.«109645_j46763603919526_2_alg».proof.Proof.Gen.Kernel.Skeleton
import proofs.«109645_j46763603919526_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros4 : (![0, 0] : Fin 2 → Nat) = fun _ => 0 := by funext a; fin_cases a <;> rfl

/-- Window `w`'s block at point `t`: the array, as the call finds it, read through the block's rectangle. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's buffer holds its block at every point, whether or not the block was fetched there (an unfetched
    block has not moved), for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's buffer holds its block at every point, whether or not the block was fetched there (an unfetched
    block has not moved), for any proof data over these arrays whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's whole-block rectangles, and what it writes -/

abbrev r4_0 : Rect S16384x8 := Rect.unit (s := S16384x8) ![0, 0] S16384x8.size inb_S16384x8_S16384x8_0_0
abbrev r4_1 : Rect S8x1 := Rect.unit (s := S8x1) ![0, 0] S8x1.size inb_S8x1_S8x1_0_0
abbrev r4_2 : Rect S16384x1 := Rect.unit (s := S16384x1) ![0, 0] S16384x1.size inb_S16384x1_S16384x1_0_0

/-- The output buffer after the body, as a function of the input blocks: its one whole-block store. -/
def out4_2 (x0 : Vec F S16384x8 .f32) (x1 : Vec F S8x1 .f32) : Vec F S16384x1 .f32 :=
  View.canon [⟨r4_2, k4_pay1 (View.ld x0 r4_0) (View.ld x1 r4_1)⟩]

/-- That store covers the buffer. -/
theorem cover4_2 (p0 : Vec F S16384x1 .f32) (y : S16384x1.Idx) :
    ∃ pc ∈ ([⟨r4_2, p0⟩] : List (View.Piece (Elt F) S16384x1 .f32)), y ∈ pc.1.set :=
  ⟨_, List.mem_singleton_self _, View.mem_set_unit_zero zeros4 inb_S16384x1_S16384x1_0_0 y⟩

/-! ## The body's triple -/

set_option maxHeartbeats 1000000 in
/-- From the input buffers at read contents `x_w` and the output buffer at anything, the body runs to its return with the
    inputs as they were and the output at `out4_2` of the inputs. -/
theorem sound_kernel4 (c : Dev nD) (E : Set ℕ) (i : grid4.Coords)
    (arg0 : Memref sig .tc .vmem S16384x8 .f32) (harg0 : arg0.IsWhole) (arg1 : Memref sig .tc .vmem S8x1 .f32) (harg1 : arg1.IsWhole) (arg2 : Memref sig .tc .vmem S16384x1 .f32) (harg2 : arg2.IsWhole)
    (x0 : Vec F S16384x8 .f32) (x1 : Vec F S8x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The arrays as the call finds them; after the body at point `t` each input's buffer at its block and the output's at
    `out4_2` of the input blocks; the invariant: the scoped buffers no window stages and the generator register,
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at any point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.BitsFrame.Region5.lean ====
/-
  Pipeline 5 of the program, one grid point at a time, for any contents `V` of the arrays when the call is entered.
  Every window's block divides its array evenly, so a block at a point is the array read through the block's rectangle.
  The body reads each input block whole, writes the output block whole, and what it writes is one pure function of
  the input blocks (`out5_4`). From that: the proof data of the pipeline (each input's buffer keeps its block, the
  output's buffer holds that function of the input blocks) and the obligation that the body meets them at every point.
-/
import proofs.«109645_j46763603919526_2_alg».proof.Proof.Gen.Kernel.Launch
import proofs.«109645_j46763603919526_2_alg».proof.Proof.Gen.Kernel.Skeleton
import proofs.«109645_j46763603919526_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros5 : (![0, 0] : Fin 2 → Nat) = fun _ => 0 := by funext a; fin_cases a <;> rfl

/-- Window `w`'s block at point `t`: the array, as the call finds it, read through the block's rectangle. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's buffer holds its block at every point, whether or not the block was fetched there (an unfetched
    block has not moved), for any proof data over these arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's buffer holds its block at every point, whether or not the block was fetched there (an unfetched
    block has not moved), for any proof data over these arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's buffer holds its block at every point, whether or not the block was fetched there (an unfetched
    block has not moved), for any proof data over these arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's buffer holds its block at every point, whether or not the block was fetched there (an unfetched
    block has not moved), for any proof data over these arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's whole-block rectangles, and what it writes -/

abbrev r5_0 : Rect S2048x1 := Rect.unit (s := S2048x1) ![0, 0] S2048x1.size inb_S2048x1_S2048x1_0_0
abbrev r5_1 : Rect S2048x1 := Rect.unit (s := S2048x1) ![0, 0] S2048x1.size inb_S2048x1_S2048x1_0_0
abbrev r5_2 : Rect S2048x1 := Rect.unit (s := S2048x1) ![0, 0] S2048x1.size inb_S2048x1_S2048x1_0_0
abbrev r5_3 : Rect S1x1 := Rect.unit (s := S1x1) ![0, 0] S1x1.size inb_S1x1_S1x1_0_0
abbrev r5_4 : Rect S2048x1 := Rect.unit (s := S2048x1) ![0, 0] S2048x1.size inb_S2048x1_S2048x1_0_0

/-- The output buffer after the body, as a function of the input blocks: its one whole-block store. -/
def out5_4 (x0 : Vec F S2048x1 .f32) (x1 : Vec F S2048x1 .f32) (x2 : Vec F S2048x1 .f32) (x3 : Vec F S1x1 .f32) : Vec F S2048x1 .f32 :=
  View.canon [⟨r5_4, k5_pay1 (View.ld x0 r5_0) (View.ld x1 r5_1) (View.ld x2 r5_2) (View.ld x3 r5_3)⟩]

/-- That store covers the buffer. -/
theorem cover5_4 (p0 : Vec F S2048x1 .f32) (y : S2048x1.Idx) :
    ∃ pc ∈ ([⟨r5_4, p0⟩] : List (View.Piece (Elt F) S2048x1 .f32)), y ∈ pc.1.set :=
  ⟨_, List.mem_singleton_self _, View.mem_set_unit_zero zeros5 inb_S2048x1_S2048x1_0_0 y⟩

/-! ## The body's triple -/

set_option maxHeartbeats 1000000 in
/-- From the input buffers at read contents `x_w` and the output buffer at anything, the body runs to its return with the
    inputs as they were and the output at `out5_4` of the inputs. -/
theorem sound_kernel5 (c : Dev nD) (E : Set ℕ) (i : grid5.Coords)
    (arg0 : Memref sig .tc .vmem S2048x1 .f32) (harg0 : arg0.IsWhole) (arg1 : Memref sig .tc .vmem S2048x1 .f32) (harg1 : arg1.IsWhole) (arg2 : Memref sig .tc .vmem S2048x1 .f32) (harg2 : arg2.IsWhole) (arg3 : Memref sig .tc .vmem S1x1 .f32) (harg3 : arg3.IsWhole) (arg4 : Memref sig .tc .vmem S2048x1 .f32) (harg4 : arg4.IsWhole)
    (x0 : Vec F S2048x1 .f32) (x1 : Vec F S2048x1 .f32) (x2 : Vec F S2048x1 .f32) (x3 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3)) -∗ K ⟨⟩))
      ⊢ wp frame (wpE (defs₀ (F := F)) Variants.none c none) E (cc5__combine_kernel i arg0 harg0 arg1 harg1 arg2 harg2 arg3 harg3 arg4 harg4) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The arrays as the call finds them; after the body at point `t` each input's buffer at its block and the output's at
    `out5_4` of the input blocks; the invariant: the scoped buffers no window stages and the generator register,
    untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at any point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's proof data, at every point. -/
theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.BitsFrame.Run.lean ====
/-
  The whole program as thirteen items in order — seven stretches of host operations and the six pipelines — with the
  contents of every unscoped buffer named at each of the fourteen boundaries between them: a stretch of host operations
  applies its operations to the contents it starts from; a pipeline leaves each of its arrays at what its write-backs
  leave (an input array as it was) and every other buffer alone. From that: every weakly fair execution terminates and
  each unscoped buffer ends at the last boundary's contents (`run_all`), and no item changes an argument array.
-/
import proofs.«109645_j46763603919526_2_alg».proof.Proof.BitsFrame.Region0
import proofs.«109645_j46763603919526_2_alg».proof.Proof.BitsFrame.Region1
import proofs.«109645_j46763603919526_2_alg».proof.Proof.BitsFrame.Region2
import proofs.«109645_j46763603919526_2_alg».proof.Proof.BitsFrame.Region3
import proofs.«109645_j46763603919526_2_alg».proof.Proof.BitsFrame.Region4
import proofs.«109645_j46763603919526_2_alg».proof.Proof.BitsFrame.Region5
import proofs.«109645_j46763603919526_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev bd0 : Dev nD → Valuation τ sig (Elt F) := fun c b => m (c, b)
/-- After the host operations `hostOps0`. -/
abbrev bd1 : Dev nD → Valuation τ sig (Elt F) := fun c => StableHlo.after hostOps0 (bd0 m c)
/-- The same, read at the TensorCore's references. -/
abbrev rd1 : (c : Dev nD) → (b : Ref sig .tc) → Buf (Elt F) ((c : Thread nD τ).loc b) := fun c b => bd1 m c b
/-- After pipeline 0: its arrays at what the pipeline leaves, every other buffer as it was. -/
def bd2 (c : Dev nD) : Valuation τ sig (Elt F) :=
  Pipeline.withArrays spec0 c (bd1 m c) fun w => (dat0 (rd1 m) c).arrAt w cfg0.N
theorem bd2_arr (c : Dev nD) (w : Fin cfg0.W) :
    bd2 m c (Proc.devRef .tc (Pipeline.arrRef spec0 w)) = (dat0 (rd1 m) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m c (Proc.devRef .tc b) = bd1 m c (Proc.devRef .tc b) := by
  unfold bd2; exact Pipeline.withArrays_of_ne spec0 c _ _ b hb
/-- The same, read at the TensorCore's references. -/
abbrev rd2 : (c : Dev nD) → (b : Ref sig .tc) → Buf (Elt F) ((c : Thread nD τ).loc b) := fun c b => bd2 m c b
theorem hF0 (c : Dev nD) (w : Fin cfg0.W) : (dat0 (rd1 m) c).arrAt w cfg0.N = rd2 m c (Pipeline.arrRef spec0 w) :=
  (bd2_arr m c w).symm
theorem hrest0 (c : Dev nD) : ∀ b, b ∉ Finset.univ.image (Pipeline.arrRef spec0) → rd2 m c b = rd1 m c b :=
  fun b hb => bd2_of_ne m c b fun w e => hb (Finset.mem_image.mpr ⟨w, Finset.mem_univ _, e⟩)
/-- Pipeline 0 changes no buffer but its output array `main_v27`: an input array is left as it was. -/
theorem bd2_keep (c : Dev nD) (b : Ref sig .tc) (h : b ≠ main_v27) :
    bd2 m c (Proc.devRef .tc b) = bd1 m c (Proc.devRef .tc b) := by
  by_cases h0 : b = main_arg0
  · subst h0; exact (bd2_arr m c 0).trans (((dat0 (rd1 m) c).arrAt_in 0 rfl _).trans (A_eq0 (rd1 m) c 0))
  by_cases h1 : b = main_arg3
  · subst h1; exact (bd2_arr m c 1).trans (((dat0 (rd1 m) c).arrAt_in 1 rfl _).trans (A_eq0 (rd1 m) c 1))
  refine bd2_of_ne m c b fun w => ?_
  fin_cases w
  · exact fun e => h0 e.symm
  · exact fun e => h1 e.symm
  · exact fun e => h e.symm
/-- After the host operations `hostOps1`. -/
abbrev bd3 : Dev nD → Valuation τ sig (Elt F) := fun c => StableHlo.after hostOps1 (bd2 m c)
/-- The same, read at the TensorCore's references. -/
abbrev rd3 : (c : Dev nD) → (b : Ref sig .tc) → Buf (Elt F) ((c : Thread nD τ).loc b) := fun c b => bd3 m c b
/-- After pipeline 1: its arrays at what the pipeline leaves, every other buffer as it was. -/
def bd4 (c : Dev nD) : Valuation τ sig (Elt F) :=
  Pipeline.withArrays spec1 c (bd3 m c) fun w => (dat1 (rd3 m) c).arrAt w cfg1.N
theorem bd4_arr (c : Dev nD) (w : Fin cfg1.W) :
    bd4 m c (Proc.devRef .tc (Pipeline.arrRef spec1 w)) = (dat1 (rd3 m) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m c (Proc.devRef .tc b) = bd3 m c (Proc.devRef .tc b) := by
  unfold bd4; exact Pipeline.withArrays_of_ne spec1 c _ _ b hb
/-- The same, read at the TensorCore's references. -/
abbrev rd4 : (c : Dev nD) → (b : Ref sig .tc) → Buf (Elt F) ((c : Thread nD τ).loc b) := fun c b => bd4 m c b
theorem hF1 (c : Dev nD) (w : Fin cfg1.W) : (dat1 (rd3 m) c).arrAt w cfg1.N = rd4 m c (Pipeline.arrRef spec1 w) :=
  (bd4_arr m c w).symm
theorem hrest1 (c : Dev nD) : ∀ b, b ∉ Finset.univ.image (Pipeline.arrRef spec1) → rd4 m c b = rd3 m c b :=
  fun b hb => bd4_of_ne m c b fun w e => hb (Finset.mem_image.mpr ⟨w, Finset.mem_univ _, e⟩)
/-- Pipeline 1 changes no buffer but its output array `main_v43`: an input array is left as it was. -/
theorem bd4_keep (c : Dev nD) (b : Ref sig .tc) (h : b ≠ main_v43) :
    bd4 m c (Proc.devRef .tc b) = bd3 m c (Proc.devRef .tc b) := by
  by_cases h0 : b = main_v40
  · subst h0; exact (bd4_arr m c 0).trans (((dat1 (rd3 m) c).arrAt_in 0 rfl _).trans (A_eq1 (rd3 m) c 0))
  by_cases h1 : b = main_v27
  · subst h1; exact (bd4_arr m c 1).trans (((dat1 (rd3 m) c).arrAt_in 1 rfl _).trans (A_eq1 (rd3 m) c 1))
  by_cases h2 : b = main_v41
  · subst h2; exact (bd4_arr m c 2).trans (((dat1 (rd3 m) c).arrAt_in 2 rfl _).trans (A_eq1 (rd3 m) c 2))
  by_cases h3 : b = main_v42
  · subst h3; exact (bd4_arr m c 3).trans (((dat1 (rd3 m) c).arrAt_in 3 rfl _).trans (A_eq1 (rd3 m) c 3))
  refine bd4_of_ne m c b fun w => ?_
  fin_cases w
  · exact fun e => h0 e.symm
  · exact fun e => h1 e.symm
  · exact fun e => h2 e.symm
  · exact fun e => h3 e.symm
  · exact fun e => h e.symm
/-- After pipeline 2: its arrays at what the pipeline leaves, every other buffer as it was. -/
def bd5 (c : Dev nD) : Valuation τ sig (Elt F) :=
  Pipeline.withArrays spec2 c (bd4 m c) fun w => (dat2 (rd4 m) c).arrAt w cfg2.N
theorem bd5_arr (c : Dev nD) (w : Fin cfg2.W) :
    bd5 m c (Proc.devRef .tc (Pipeline.arrRef spec2 w)) = (dat2 (rd4 m) c).arrAt w cfg2.N := by
  unfold bd5; exact Pipeline.withArrays_arr spec2 launch2.win.arr_inj c _ _ w
theorem bd5_of_ne (c : Dev nD) (b : Ref sig .tc) (hb : ∀ w, Pipeline.arrRef spec2 w ≠ b) :
    bd5 m c (Proc.devRef .tc b) = bd4 m c (Proc.devRef .tc b) := by
  unfold bd5; exact Pipeline.withArrays_of_ne spec2 c _ _ b hb
/-- The same, read at the TensorCore's references. -/
abbrev rd5 : (c : Dev nD) → (b : Ref sig .tc) → Buf (Elt F) ((c : Thread nD τ).loc b) := fun c b => bd5 m c b
theorem hF2 (c : Dev nD) (w : Fin cfg2.W) : (dat2 (rd4 m) c).arrAt w cfg2.N = rd5 m c (Pipeline.arrRef spec2 w) :=
  (bd5_arr m c w).symm
theorem hrest2 (c : Dev nD) : ∀ b, b ∉ Finset.univ.image (Pipeline.arrRef spec2) → rd5 m c b = rd4 m c b :=
  fun b hb => bd5_of_ne m c b fun w e => hb (Finset.mem_image.mpr ⟨w, Finset.mem_univ _, e⟩)
/-- Pipeline 2 changes no buffer but its output array `main_v44`: an input array is left as it was. -/
theorem bd5_keep (c : Dev nD) (b : Ref sig .tc) (h : b ≠ main_v44) :
    bd5 m c (Proc.devRef .tc b) = bd4 m c (Proc.devRef .tc b) := by
  by_cases h0 : b = main_v43
  · subst h0; exact (bd5_arr m c 0).trans (((dat2 (rd4 m) c).arrAt_in 0 rfl _).trans (A_eq2 (rd4 m) c 0))
  by_cases h1 : b = main_arg5
  · subst h1; exact (bd5_arr m c 1).trans (((dat2 (rd4 m) c).arrAt_in 1 rfl _).trans (A_eq2 (rd4 m) c 1))
  refine bd5_of_ne m c b fun w => ?_
  fin_cases w
  · exact fun e => h0 e.symm
  · exact fun e => h1 e.symm
  · exact fun e => h e.symm
/-- After the host operations `hostOps3`. -/
abbrev bd6 : Dev nD → Valuation τ sig (Elt F) := fun c => StableHlo.after hostOps3 (bd5 m c)
/-- The same, read at the TensorCore's references. -/
abbrev rd6 : (c : Dev nD) → (b : Ref sig .tc) → Buf (Elt F) ((c : Thread nD τ).loc b) := fun c b => bd6 m c b
/-- After pipeline 3: its arrays at what the pipeline leaves, every other buffer as it was. -/
def bd7 (c : Dev nD) : Valuation τ sig (Elt F) :=
  Pipeline.withArrays spec3 c (bd6 m c) fun w => (dat3 (rd6 m) c).arrAt w cfg3.N
theorem bd7_arr (c : Dev nD) (w : Fin cfg3.W) :
    bd7 m c (Proc.devRef .tc (Pipeline.arrRef spec3 w)) = (dat3 (rd6 m) c).arrAt w cfg3.N := by
  unfold bd7; exact Pipeline.withArrays_arr spec3 launch3.win.arr_inj c _ _ w
theorem bd7_of_ne (c : Dev nD) (b : Ref sig .tc) (hb : ∀ w, Pipeline.arrRef spec3 w ≠ b) :
    bd7 m c (Proc.devRef .tc b) = bd6 m c (Proc.devRef .tc b) := by
  unfold bd7; exact Pipeline.withArrays_of_ne spec3 c _ _ b hb
/-- The same, read at the TensorCore's references. -/
abbrev rd7 : (c : Dev nD) → (b : Ref sig .tc) → Buf (Elt F) ((c : Thread nD τ).loc b) := fun c b => bd7 m c b
theorem hF3 (c : Dev nD) (w : Fin cfg3.W) : (dat3 (rd6 m) c).arrAt w cfg3.N = rd7 m c (Pipeline.arrRef spec3 w) :=
  (bd7_arr m c w).symm
theorem hrest3 (c : Dev nD) : ∀ b, b ∉ Finset.univ.image (Pipeline.arrRef spec3) → rd7 m c b = rd6 m c b :=
  fun b hb => bd7_of_ne m c b fun w e => hb (Finset.mem_image.mpr ⟨w, Finset.mem_univ _, e⟩)
/-- Pipeline 3 changes no buffer but its output array `main_v60`: an input array is left as it was. -/
theorem bd7_keep (c : Dev nD) (b : Ref sig .tc) (h : b ≠ main_v60) :
    bd7 m c (Proc.devRef .tc b) = bd6 m c (Proc.devRef .tc b) := by
  by_cases h0 : b = main_v57
  · subst h0; exact (bd7_arr m c 0).trans (((dat3 (rd6 m) c).arrAt_in 0 rfl _).trans (A_eq3 (rd6 m) c 0))
  by_cases h1 : b = main_v44
  · subst h1; exact (bd7_arr m c 1).trans (((dat3 (rd6 m) c).arrAt_in 1 rfl _).trans (A_eq3 (rd6 m) c 1))
  by_cases h2 : b = main_v58
  · subst h2; exact (bd7_arr m c 2).trans (((dat3 (rd6 m) c).arrAt_in 2 rfl _).trans (A_eq3 (rd6 m) c 2))
  by_cases h3 : b = main_v59
  · subst h3; exact (bd7_arr m c 3).trans (((dat3 (rd6 m) c).arrAt_in 3 rfl _).trans (A_eq3 (rd6 m) c 3))
  refine bd7_of_ne m c b fun w => ?_
  fin_cases w
  · exact fun e => h0 e.symm
  · exact fun e => h1 e.symm
  · exact fun e => h2 e.symm
  · exact fun e => h3 e.symm
  · exact fun e => h e.symm
/-- After pipeline 4: its arrays at what the pipeline leaves, every other buffer as it was. -/
def bd8 (c : Dev nD) : Valuation τ sig (Elt F) :=
  Pipeline.withArrays spec4 c (bd7 m c) fun w => (dat4 (rd7 m) c).arrAt w cfg4.N
theorem bd8_arr (c : Dev nD) (w : Fin cfg4.W) :
    bd8 m c (Proc.devRef .tc (Pipeline.arrRef spec4 w)) = (dat4 (rd7 m) c).arrAt w cfg4.N := by
  unfold bd8; exact Pipeline.withArrays_arr spec4 launch4.win.arr_inj c _ _ w
theorem bd8_of_ne (c : Dev nD) (b : Ref sig .tc) (hb : ∀ w, Pipeline.arrRef spec4 w ≠ b) :
    bd8 m c (Proc.devRef .tc b) = bd7 m c (Proc.devRef .tc b) := by
  unfold bd8; exact Pipeline.withArrays_of_ne spec4 c _ _ b hb
/-- The same, read at the TensorCore's references. -/
abbrev rd8 : (c : Dev nD) → (b : Ref sig .tc) → Buf (Elt F) ((c : Thread nD τ).loc b) := fun c b => bd8 m c b
theorem hF4 (c : Dev nD) (w : Fin cfg4.W) : (dat4 (rd7 m) c).arrAt w cfg4.N = rd8 m c (Pipeline.arrRef spec4 w) :=
  (bd8_arr m c w).symm
theorem hrest4 (c : Dev nD) : ∀ b, b ∉ Finset.univ.image (Pipeline.arrRef spec4) → rd8 m c b = rd7 m c b :=
  fun b hb => bd8_of_ne m c b fun w e => hb (Finset.mem_image.mpr ⟨w, Finset.mem_univ _, e⟩)
/-- Pipeline 4 changes no buffer but its output array `main_v61`: an input array is left as it was. -/
theorem bd8_keep (c : Dev nD) (b : Ref sig .tc) (h : b ≠ main_v61) :
    bd8 m c (Proc.devRef .tc b) = bd7 m c (Proc.devRef .tc b) := by
  by_cases h0 : b = main_v60
  · subst h0; exact (bd8_arr m c 0).trans (((dat4 (rd7 m) c).arrAt_in 0 rfl _).trans (A_eq4 (rd7 m) c 0))
  by_cases h1 : b = main_arg7
  · subst h1; exact (bd8_arr m c 1).trans (((dat4 (rd7 m) c).arrAt_in 1 rfl _).trans (A_eq4 (rd7 m) c 1))
  refine bd8_of_ne m c b fun w => ?_
  fin_cases w
  · exact fun e => h0 e.symm
  · exact fun e => h1 e.symm
  · exact fun e => h e.symm
/-- After the host operations `hostOps5`. -/
abbrev bd9 : Dev nD → Valuation τ sig (Elt F) := fun c => StableHlo.after hostOps5 (bd8 m c)
/-- The same, read at the TensorCore's references. -/
abbrev rd9 : (c : Dev nD) → (b : Ref sig .tc) → Buf (Elt F) ((c : Thread nD τ).loc b) := fun c b => bd9 m c b
/-- After pipeline 5: its arrays at what the pipeline leaves, every other buffer as it was. -/
def bd10 (c : Dev nD) : Valuation τ sig (Elt F) :=
  Pipeline.withArrays spec5 c (bd9 m c) fun w => (dat5 (rd9 m) c).arrAt w cfg5.N
theorem bd10_arr (c : Dev nD) (w : Fin cfg5.W) :
    bd10 m c (Proc.devRef .tc (Pipeline.arrRef spec5 w)) = (dat5 (rd9 m) c).arrAt w cfg5.N := by
  unfold bd10; exact Pipeline.withArrays_arr spec5 launch5.win.arr_inj c _ _ w
theorem bd10_of_ne (c : Dev nD) (b : Ref sig .tc) (hb : ∀ w, Pipeline.arrRef spec5 w ≠ b) :
    bd10 m c (Proc.devRef .tc b) = bd9 m c (Proc.devRef .tc b) := by
  unfold bd10; exact Pipeline.withArrays_of_ne spec5 c _ _ b hb
/-- The same, read at the TensorCore's references. -/
abbrev rd10 : (c : Dev nD) → (b : Ref sig .tc) → Buf (Elt F) ((c : Thread nD τ).loc b) := fun c b => bd10 m c b
theorem hF5 (c : Dev nD) (w : Fin cfg5.W) : (dat5 (rd9 m) c).arrAt w cfg5.N = rd10 m c (Pipeline.arrRef spec5 w) :=
  (bd10_arr m c w).symm
theorem hrest5 (c : Dev nD) : ∀ b, b ∉ Finset.univ.image (Pipeline.arrRef spec5) → rd10 m c b = rd9 m c b :=
  fun b hb => bd10_of_ne m c b fun w e => hb (Finset.mem_image.mpr ⟨w, Finset.mem_univ _, e⟩)
/-- Pipeline 5 changes no buffer but its output array `main_v76`: an input array is left as it was. -/
theorem bd10_keep (c : Dev nD) (b : Ref sig .tc) (h : b ≠ main_v76) :
    bd10 m c (Proc.devRef .tc b) = bd9 m c (Proc.devRef .tc b) := by
  by_cases h0 : b = main_v73
  · subst h0; exact (bd10_arr m c 0).trans (((dat5 (rd9 m) c).arrAt_in 0 rfl _).trans (A_eq5 (rd9 m) c 0))
  by_cases h1 : b = main_v61
  · subst h1; exact (bd10_arr m c 1).trans (((dat5 (rd9 m) c).arrAt_in 1 rfl _).trans (A_eq5 (rd9 m) c 1))
  by_cases h2 : b = main_v74
  · subst h2; exact (bd10_arr m c 2).trans (((dat5 (rd9 m) c).arrAt_in 2 rfl _).trans (A_eq5 (rd9 m) c 2))
  by_cases h3 : b = main_v75
  · subst h3; exact (bd10_arr m c 3).trans (((dat5 (rd9 m) c).arrAt_in 3 rfl _).trans (A_eq5 (rd9 m) c 3))
  refine bd10_of_ne m c b fun w => ?_
  fin_cases w
  · exact fun e => h0 e.symm
  · exact fun e => h1 e.symm
  · exact fun e => h2 e.symm
  · exact fun e => h3 e.symm
  · exact fun e => h e.symm
/-- After the host operations `hostOps6`. -/
abbrev bd11 : Dev nD → Valuation τ sig (Elt F) := fun c => StableHlo.after hostOps6 (bd10 m c)
/-- The same, read at the TensorCore's references. -/
abbrev rd11 : (c : Dev nD) → (b : Ref sig .tc) → Buf (Elt F) ((c : Thread nD τ).loc b) := fun c b => bd11 m c b
/-- After the host operations `hostOps6_1`. -/
abbrev bd12 : Dev nD → Valuation τ sig (Elt F) := fun c => StableHlo.after hostOps6_1 (bd11 m c)
/-- The same, read at the TensorCore's references. -/
abbrev rd12 : (c : Dev nD) → (b : Ref sig .tc) → Buf (Elt F) ((c : Thread nD τ).loc b) := fun c b => bd12 m c b
/-- After the host operations `hostOps6_2`. -/
abbrev bd13 : Dev nD → Valuation τ sig (Elt F) := fun c => StableHlo.after hostOps6_2 (bd12 m c)
/-- The same, read at the TensorCore's references. -/
abbrev rd13 : (c : Dev nD) → (b : Ref sig .tc) → Buf (Elt F) ((c : Thread nD τ).loc b) := fun c b => bd13 m c b
theorem bd1_keep (c : Dev nD) (b : Ref sig .tc) (h : b ∉ hostOps0_W) : bd1 m c b = bd0 m c b :=
  StableHlo.after_of_writes_sub hostOps0 _ hostOps0_writes h
theorem bd3_keep (c : Dev nD) (b : Ref sig .tc) (h : b ∉ hostOps1_W) : bd3 m c b = bd2 m c b :=
  StableHlo.after_of_writes_sub hostOps1 _ hostOps1_writes h
theorem bd6_keep (c : Dev nD) (b : Ref sig .tc) (h : b ∉ hostOps3_W) : bd6 m c b = bd5 m c b :=
  StableHlo.after_of_writes_sub hostOps3 _ hostOps3_writes h
theorem bd9_keep (c : Dev nD) (b : Ref sig .tc) (h : b ∉ hostOps5_W) : bd9 m c b = bd8 m c b :=
  StableHlo.after_of_writes_sub hostOps5 _ hostOps5_writes h
theorem bd11_keep (c : Dev nD) (b : Ref sig .tc) (h : b ∉ hostOps6_W) : bd11 m c b = bd10 m c b :=
  StableHlo.after_of_writes_sub hostOps6 _ hostOps6_writes h
theorem bd12_keep (c : Dev nD) (b : Ref sig .tc) (h : b ∉ hostOps6_1_W) : bd12 m c b = bd11 m c b :=
  StableHlo.after_of_writes_sub hostOps6_1 _ hostOps6_1_writes h
theorem bd13_keep (c : Dev nD) (b : Ref sig .tc) (h : b ∉ hostOps6_2_W) : bd13 m c b = bd12 m c b :=
  StableHlo.after_of_writes_sub hostOps6_2 _ hostOps6_2_writes h

/-! ## No item changes an argument array -/

theorem bd13_main_arg0 (c : Dev nD) : bd13 m c main_arg0 = m ((c : Thread nD τ).loc main_arg0) :=
  (bd13_keep m c main_arg0 (by decide)).trans <| (bd12_keep m c main_arg0 (by decide)).trans <| (bd11_keep m c main_arg0 (by decide)).trans <| (bd10_keep m c main_arg0 (by decide)).trans <| (bd9_keep m c main_arg0 (by decide)).trans <| (bd8_keep m c main_arg0 (by decide)).trans <| (bd7_keep m c main_arg0 (by decide)).trans <| (bd6_keep m c main_arg0 (by decide)).trans <| (bd5_keep m c main_arg0 (by decide)).trans <| (bd4_keep m c main_arg0 (by decide)).trans <| (bd3_keep m c main_arg0 (by decide)).trans <| (bd2_keep m c main_arg0 (by decide)).trans <| (bd1_keep m c main_arg0 (by decide)).trans rfl
theorem bd13_main_arg1 (c : Dev nD) : bd13 m c main_arg1 = m ((c : Thread nD τ).loc main_arg1) :=
  (bd13_keep m c main_arg1 (by decide)).trans <| (bd12_keep m c main_arg1 (by decide)).trans <| (bd11_keep m c main_arg1 (by decide)).trans <| (bd10_keep m c main_arg1 (by decide)).trans <| (bd9_keep m c main_arg1 (by decide)).trans <| (bd8_keep m c main_arg1 (by decide)).trans <| (bd7_keep m c main_arg1 (by decide)).trans <| (bd6_keep m c main_arg1 (by decide)).trans <| (bd5_keep m c main_arg1 (by decide)).trans <| (bd4_keep m c main_arg1 (by decide)).trans <| (bd3_keep m c main_arg1 (by decide)).trans <| (bd2_keep m c main_arg1 (by decide)).trans <| (bd1_keep m c main_arg1 (by decide)).trans rfl
theorem bd13_main_arg2 (c : Dev nD) : bd13 m c main_arg2 = m ((c : Thread nD τ).loc main_arg2) :=
  (bd13_keep m c main_arg2 (by decide)).trans <| (bd12_keep m c main_arg2 (by decide)).trans <| (bd11_keep m c main_arg2 (by decide)).trans <| (bd10_keep m c main_arg2 (by decide)).trans <| (bd9_keep m c main_arg2 (by decide)).trans <| (bd8_keep m c main_arg2 (by decide)).trans <| (bd7_keep m c main_arg2 (by decide)).trans <| (bd6_keep m c main_arg2 (by decide)).trans <| (bd5_keep m c main_arg2 (by decide)).trans <| (bd4_keep m c main_arg2 (by decide)).trans <| (bd3_keep m c main_arg2 (by decide)).trans <| (bd2_keep m c main_arg2 (by decide)).trans <| (bd1_keep m c main_arg2 (by decide)).trans rfl
theorem bd13_main_arg3 (c : Dev nD) : bd13 m c main_arg3 = m ((c : Thread nD τ).loc main_arg3) :=
  (bd13_keep m c main_arg3 (by decide)).trans <| (bd12_keep m c main_arg3 (by decide)).trans <| (bd11_keep m c main_arg3 (by decide)).trans <| (bd10_keep m c main_arg3 (by decide)).trans <| (bd9_keep m c main_arg3 (by decide)).trans <| (bd8_keep m c main_arg3 (by decide)).trans <| (bd7_keep m c main_arg3 (by decide)).trans <| (bd6_keep m c main_arg3 (by decide)).trans <| (bd5_keep m c main_arg3 (by decide)).trans <| (bd4_keep m c main_arg3 (by decide)).trans <| (bd3_keep m c main_arg3 (by decide)).trans <| (bd2_keep m c main_arg3 (by decide)).trans <| (bd1_keep m c main_arg3 (by decide)).trans rfl
theorem bd13_main_arg4 (c : Dev nD) : bd13 m c main_arg4 = m ((c : Thread nD τ).loc main_arg4) :=
  (bd13_keep m c main_arg4 (by decide)).trans <| (bd12_keep m c main_arg4 (by decide)).trans <| (bd11_keep m c main_arg4 (by decide)).trans <| (bd10_keep m c main_arg4 (by decide)).trans <| (bd9_keep m c main_arg4 (by decide)).trans <| (bd8_keep m c main_arg4 (by decide)).trans <| (bd7_keep m c main_arg4 (by decide)).trans <| (bd6_keep m c main_arg4 (by decide)).trans <| (bd5_keep m c main_arg4 (by decide)).trans <| (bd4_keep m c main_arg4 (by decide)).trans <| (bd3_keep m c main_arg4 (by decide)).trans <| (bd2_keep m c main_arg4 (by decide)).trans <| (bd1_keep m c main_arg4 (by decide)).trans rfl
theorem bd13_main_arg5 (c : Dev nD) : bd13 m c main_arg5 = m ((c : Thread nD τ).loc main_arg5) :=
  (bd13_keep m c main_arg5 (by decide)).trans <| (bd12_keep m c main_arg5 (by decide)).trans <| (bd11_keep m c main_arg5 (by decide)).trans <| (bd10_keep m c main_arg5 (by decide)).trans <| (bd9_keep m c main_arg5 (by decide)).trans <| (bd8_keep m c main_arg5 (by decide)).trans <| (bd7_keep m c main_arg5 (by decide)).trans <| (bd6_keep m c main_arg5 (by decide)).trans <| (bd5_keep m c main_arg5 (by decide)).trans <| (bd4_keep m c main_arg5 (by decide)).trans <| (bd3_keep m c main_arg5 (by decide)).trans <| (bd2_keep m c main_arg5 (by decide)).trans <| (bd1_keep m c main_arg5 (by decide)).trans rfl
theorem bd13_main_arg6 (c : Dev nD) : bd13 m c main_arg6 = m ((c : Thread nD τ).loc main_arg6) :=
  (bd13_keep m c main_arg6 (by decide)).trans <| (bd12_keep m c main_arg6 (by decide)).trans <| (bd11_keep m c main_arg6 (by decide)).trans <| (bd10_keep m c main_arg6 (by decide)).trans <| (bd9_keep m c main_arg6 (by decide)).trans <| (bd8_keep m c main_arg6 (by decide)).trans <| (bd7_keep m c main_arg6 (by decide)).trans <| (bd6_keep m c main_arg6 (by decide)).trans <| (bd5_keep m c main_arg6 (by decide)).trans <| (bd4_keep m c main_arg6 (by decide)).trans <| (bd3_keep m c main_arg6 (by decide)).trans <| (bd2_keep m c main_arg6 (by decide)).trans <| (bd1_keep m c main_arg6 (by decide)).trans rfl
theorem bd13_main_arg7 (c : Dev nD) : bd13 m c main_arg7 = m ((c : Thread nD τ).loc main_arg7) :=
  (bd13_keep m c main_arg7 (by decide)).trans <| (bd12_keep m c main_arg7 (by decide)).trans <| (bd11_keep m c main_arg7 (by decide)).trans <| (bd10_keep m c main_arg7 (by decide)).trans <| (bd9_keep m c main_arg7 (by decide)).trans <| (bd8_keep m c main_arg7 (by decide)).trans <| (bd7_keep m c main_arg7 (by decide)).trans <| (bd6_keep m c main_arg7 (by decide)).trans <| (bd5_keep m c main_arg7 (by decide)).trans <| (bd4_keep m c main_arg7 (by decide)).trans <| (bd3_keep m c main_arg7 (by decide)).trans <| (bd2_keep m c main_arg7 (by decide)).trans <| (bd1_keep m c main_arg7 (by decide)).trans rfl
theorem bd13_main_arg8 (c : Dev nD) : bd13 m c main_arg8 = m ((c : Thread nD τ).loc main_arg8) :=
  (bd13_keep m c main_arg8 (by decide)).trans <| (bd12_keep m c main_arg8 (by decide)).trans <| (bd11_keep m c main_arg8 (by decide)).trans <| (bd10_keep m c main_arg8 (by decide)).trans <| (bd9_keep m c main_arg8 (by decide)).trans <| (bd8_keep m c main_arg8 (by decide)).trans <| (bd7_keep m c main_arg8 (by decide)).trans <| (bd6_keep m c main_arg8 (by decide)).trans <| (bd5_keep m c main_arg8 (by decide)).trans <| (bd4_keep m c main_arg8 (by decide)).trans <| (bd3_keep m c main_arg8 (by decide)).trans <| (bd2_keep m c main_arg8 (by decide)).trans <| (bd1_keep m c main_arg8 (by decide)).trans rfl
theorem bd13_main_arg9 (c : Dev nD) : bd13 m c main_arg9 = m ((c : Thread nD τ).loc main_arg9) :=
  (bd13_keep m c main_arg9 (by decide)).trans <| (bd12_keep m c main_arg9 (by decide)).trans <| (bd11_keep m c main_arg9 (by decide)).trans <| (bd10_keep m c main_arg9 (by decide)).trans <| (bd9_keep m c main_arg9 (by decide)).trans <| (bd8_keep m c main_arg9 (by decide)).trans <| (bd7_keep m c main_arg9 (by decide)).trans <| (bd6_keep m c main_arg9 (by decide)).trans <| (bd5_keep m c main_arg9 (by decide)).trans <| (bd4_keep m c main_arg9 (by decide)).trans <| (bd3_keep m c main_arg9 (by decide)).trans <| (bd2_keep m c main_arg9 (by decide)).trans <| (bd1_keep m c main_arg9 (by decide)).trans rfl
theorem bd13_main_arg10 (c : Dev nD) : bd13 m c main_arg10 = m ((c : Thread nD τ).loc main_arg10) :=
  (bd13_keep m c main_arg10 (by decide)).trans <| (bd12_keep m c main_arg10 (by decide)).trans <| (bd11_keep m c main_arg10 (by decide)).trans <| (bd10_keep m c main_arg10 (by decide)).trans <| (bd9_keep m c main_arg10 (by decide)).trans <| (bd8_keep m c main_arg10 (by decide)).trans <| (bd7_keep m c main_arg10 (by decide)).trans <| (bd6_keep m c main_arg10 (by decide)).trans <| (bd5_keep m c main_arg10 (by decide)).trans <| (bd4_keep m c main_arg10 (by decide)).trans <| (bd3_keep m c main_arg10 (by decide)).trans <| (bd2_keep m c main_arg10 (by decide)).trans <| (bd1_keep m c main_arg10 (by decide)).trans rfl
theorem bd13_main_arg11 (c : Dev nD) : bd13 m c main_arg11 = m ((c : Thread nD τ).loc main_arg11) :=
  (bd13_keep m c main_arg11 (by decide)).trans <| (bd12_keep m c main_arg11 (by decide)).trans <| (bd11_keep m c main_arg11 (by decide)).trans <| (bd10_keep m c main_arg11 (by decide)).trans <| (bd9_keep m c main_arg11 (by decide)).trans <| (bd8_keep m c main_arg11 (by decide)).trans <| (bd7_keep m c main_arg11 (by decide)).trans <| (bd6_keep m c main_arg11 (by decide)).trans <| (bd5_keep m c main_arg11 (by decide)).trans <| (bd4_keep m c main_arg11 (by decide)).trans <| (bd3_keep m c main_arg11 (by decide)).trans <| (bd2_keep m c main_arg11 (by decide)).trans <| (bd1_keep m c main_arg11 (by decide)).trans rfl
theorem bd13_main_arg12 (c : Dev nD) : bd13 m c main_arg12 = m ((c : Thread nD τ).loc main_arg12) :=
  (bd13_keep m c main_arg12 (by decide)).trans <| (bd12_keep m c main_arg12 (by decide)).trans <| (bd11_keep m c main_arg12 (by decide)).trans <| (bd10_keep m c main_arg12 (by decide)).trans <| (bd9_keep m c main_arg12 (by decide)).trans <| (bd8_keep m c main_arg12 (by decide)).trans <| (bd7_keep m c main_arg12 (by decide)).trans <| (bd6_keep m c main_arg12 (by decide)).trans <| (bd5_keep m c main_arg12 (by decide)).trans <| (bd4_keep m c main_arg12 (by decide)).trans <| (bd3_keep m c main_arg12 (by decide)).trans <| (bd2_keep m c main_arg12 (by decide)).trans <| (bd1_keep m c main_arg12 (by decide)).trans rfl

/-! ## The proof data family and the thread state -/

/-- Every pipeline's proof data, each at the contents its call is entered from. -/
def pdats : (p : Fin 6) → (c : Dev nD) → Dat τ (Elt F) Unit ℕ (UR sig nD τ) ℕ (Pipeline.pin (pcfgs (F := F)) adm p) c
  | ⟨0, _⟩ => fun c => dat0 (rd1 m) c
  | ⟨1, _⟩ => fun c => dat1 (rd3 m) c
  | ⟨2, _⟩ => fun c => dat2 (rd4 m) c
  | ⟨3, _⟩ => fun c => dat3 (rd6 m) c
  | ⟨4, _⟩ => fun c => dat4 (rd7 m) c
  | ⟨5, _⟩ => fun c => dat5 (rd9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (bd13 m c) ∗ ∃ r, prngReg c r)

/-! ## The pipelines as segments -/

set_option backward.isDefEq.respectTransparency.types false in
/-- Pipeline 0 over the thread state: entered from every unscoped buffer at boundary 1's contents, left at boundary
    2's. Its arrays are split out of the unscoped buffers and put back at what the pipeline leaves; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd1 m) c).loose
  hwaits := Pipeline.hwaits_of_owed_zero _ _ _ _ L lv 0 fun _ _ => rfl
  pre c := iprop(StableHlo.held (c : Thread nD τ) (Pipeline.ucRefs τ sig) (bd1 m c) ∗ R c)
  post c := iprop(StableHlo.held (c : Thread nD τ) (Pipeline.ucRefs τ sig) (bd2 m c) ∗ R c)
  X c := iprop(∃ r, prngReg c r)
  Y c := iprop(∃ r, prngReg c r)
  Z c := Pipeline.unscopedRest (Ix := Unit) (Name := ℕ) (U := UR sig nD τ) (Lvl := ℕ) spec0 c (rd1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd1 m c) (rd2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at boundary 3's contents, left at boundary
    4's. Its arrays are split out of the unscoped buffers and put back at what the pipeline leaves; the generator
    register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd3 m) c).loose
  hwaits := Pipeline.hwaits_of_owed_zero _ _ _ _ L lv 1 fun _ _ => rfl
  pre c := iprop(StableHlo.held (c : Thread nD τ) (Pipeline.ucRefs τ sig) (bd3 m c) ∗ R c)
  post c := iprop(StableHlo.held (c : Thread nD τ) (Pipeline.ucRefs τ sig) (bd4 m c) ∗ R c)
  X c := iprop(∃ r, prngReg c r)
  Y c := iprop(∃ r, prngReg c r)
  Z c := Pipeline.unscopedRest (Ix := Unit) (Name := ℕ) (U := UR sig nD τ) (Lvl := ℕ) spec1 c (rd3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd3 m c) (rd4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at boundary 4's contents, left at boundary
    5's. Its arrays are split out of the unscoped buffers and put back at what the pipeline leaves; the generator
    register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd4 m) c).loose
  hwaits := Pipeline.hwaits_of_owed_zero _ _ _ _ L lv 2 fun _ _ => rfl
  pre c := iprop(StableHlo.held (c : Thread nD τ) (Pipeline.ucRefs τ sig) (bd4 m c) ∗ R c)
  post c := iprop(StableHlo.held (c : Thread nD τ) (Pipeline.ucRefs τ sig) (bd5 m c) ∗ R c)
  X c := iprop(∃ r, prngReg c r)
  Y c := iprop(∃ r, prngReg c r)
  Z c := Pipeline.unscopedRest (Ix := Unit) (Name := ℕ) (U := UR sig nD τ) (Lvl := ℕ) spec2 c (rd4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd4 m c) (rd5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at boundary 6's contents, left at boundary
    7's. Its arrays are split out of the unscoped buffers and put back at what the pipeline leaves; the generator
    register goes into the invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd6 m) c).loose
  hwaits := Pipeline.hwaits_of_owed_zero _ _ _ _ L lv 3 fun _ _ => rfl
  pre c := iprop(StableHlo.held (c : Thread nD τ) (Pipeline.ucRefs τ sig) (bd6 m c) ∗ R c)
  post c := iprop(StableHlo.held (c : Thread nD τ) (Pipeline.ucRefs τ sig) (bd7 m c) ∗ R c)
  X c := iprop(∃ r, prngReg c r)
  Y c := iprop(∃ r, prngReg c r)
  Z c := Pipeline.unscopedRest (Ix := Unit) (Name := ℕ) (U := UR sig nD τ) (Lvl := ℕ) spec3 c (rd6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd6 m c) (rd7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 over the thread state: entered from every unscoped buffer at boundary 7's contents, left at boundary
    8's. Its arrays are split out of the unscoped buffers and put back at what the pipeline leaves; the generator
    register goes into the invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd7 m) c).loose
  hwaits := Pipeline.hwaits_of_owed_zero _ _ _ _ L lv 4 fun _ _ => rfl
  pre c := iprop(StableHlo.held (c : Thread nD τ) (Pipeline.ucRefs τ sig) (bd7 m c) ∗ R c)
  post c := iprop(StableHlo.held (c : Thread nD τ) (Pipeline.ucRefs τ sig) (bd8 m c) ∗ R c)
  X c := iprop(∃ r, prngReg c r)
  Y c := iprop(∃ r, prngReg c r)
  Z c := Pipeline.unscopedRest (Ix := Unit) (Name := ℕ) (U := UR sig nD τ) (Lvl := ℕ) spec4 c (rd7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd7 m c) (rd8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 5 over the thread state: entered from every unscoped buffer at boundary 9's contents, left at boundary
    10's. Its arrays are split out of the unscoped buffers and put back at what the pipeline leaves; the generator
    register goes into the invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd9 m) c).loose
  hwaits := Pipeline.hwaits_of_owed_zero _ _ _ _ L lv 5 fun _ _ => rfl
  pre c := iprop(StableHlo.held (c : Thread nD τ) (Pipeline.ucRefs τ sig) (bd9 m c) ∗ R c)
  post c := iprop(StableHlo.held (c : Thread nD τ) (Pipeline.ucRefs τ sig) (bd10 m c) ∗ R c)
  X c := iprop(∃ r, prngReg c r)
  Y c := iprop(∃ r, prngReg c r)
  Z c := Pipeline.unscopedRest (Ix := Unit) (Name := ℕ) (U := UR sig nD τ) (Lvl := ℕ) spec5 c (rd9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd9 m c) (rd10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The thirteen items in order. -/
abbrev items : List (Pipeline.Seg (pcfgs (F := F)) adm (pdats m) () defs₀ 𝒱₀ L lv) :=
  [ .host (hseg hostOps0 hostOps0_sub hostOps0_fresh (bd0 m)),
    .region (reg0 m),
    .host (hseg hostOps1 hostOps1_sub hostOps1_fresh (bd2 m)),
    .region (reg1 m),
    .region (reg2 m),
    .host (hseg hostOps3 hostOps3_sub hostOps3_fresh (bd5 m)),
    .region (reg3 m),
    .region (reg4 m),
    .host (hseg hostOps5 hostOps5_sub hostOps5_fresh (bd8 m)),
    .region (reg5 m),
    .host (hseg hostOps6 hostOps6_sub hostOps6_fresh (bd10 m)),
    .host (hseg hostOps6_1 hostOps6_1_sub hostOps6_1_fresh (bd11 m)),
    .host (hseg hostOps6_2 hostOps6_2_sub hostOps6_2_fresh (bd12 m)) ]

set_option backward.isDefEq.respectTransparency.types false in
/-- Every weakly fair execution from memory `m` with all counters at zero terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = bd13 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          StableHlo.seq hostOps6_1,
          StableHlo.seq hostOps6_2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (bd13 m c) ∗ R c)
        ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bd0 m c)
        from Pipeline.unscopedBufs_held c (bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd13 m c b)
    (hfin := fun c s' => by
      iintro ⟨⟨Hh, -⟩, HSI⟩
      unfold StableHlo.held
      imodintro
      iapply (pointsTo_read_all (Pipeline.ucRefs τ sig) (fun b => (((c : Thread nD τ)).1, b)) (bd13 m c) s')
      isplitl [Hh] <;> iassumption)
    (hQ := fun s h c => h c)

/-- The frame: every weakly fair execution terminates, nothing faulting, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (bd13_main_arg0 m c),
     (h c _ (mem_uc main_arg1 (by decide))).trans (bd13_main_arg1 m c),
     (h c _ (mem_uc main_arg2 (by decide))).trans (bd13_main_arg2 m c),
     (h c _ (mem_uc main_arg3 (by decide))).trans (bd13_main_arg3 m c),
     (h c _ (mem_uc main_arg4 (by decide))).trans (bd13_main_arg4 m c),
     (h c _ (mem_uc main_arg5 (by decide))).trans (bd13_main_arg5 m c),
     (h c _ (mem_uc main_arg6 (by decide))).trans (bd13_main_arg6 m c),
     (h c _ (mem_uc main_arg7 (by decide))).trans (bd13_main_arg7 m c),
     (h c _ (mem_uc main_arg8 (by decide))).trans (bd13_main_arg8 m c),
     (h c _ (mem_uc main_arg9 (by decide))).trans (bd13_main_arg9 m c),
     (h c _ (mem_uc main_arg10 (by decide))).trans (bd13_main_arg10 m c),
     (h c _ (mem_uc main_arg11 (by decide))).trans (bd13_main_arg11 m c),
     (h c _ (mem_uc main_arg12 (by decide))).trans (bd13_main_arg12 m c)⟩)
    (run_all m ρ)

end Cert.Kernel.Frame

end
-- ==== Proof.IdealFrame.Region0.lean ====
/-
  Pipeline 0 of the program, one grid point at a time, for any contents `V` of the arrays when the call is entered.
  Every window's block divides its array evenly, so a block at a point is the array read through the block's rectangle.
  The body reads each input block whole, writes the output block whole, and what it writes is one pure function of
  the input blocks (`out0_2`). From that: the proof data of the pipeline (each input's buffer keeps its block, the
  output's buffer holds that function of the input blocks) and the obligation that the body meets them at every point.
-/
import proofs.«109645_j46763603919526_2_alg».proof.Proof.Gen.KernelIdeal.Launch
import proofs.«109645_j46763603919526_2_alg».proof.Proof.Gen.KernelIdeal.Skeleton
import proofs.«109645_j46763603919526_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros0 : (![0, 0] : Fin 2 → Nat) = fun _ => 0 := by funext a; fin_cases a <;> rfl

/-- Window `w`'s block at point `t`: the array, as the call finds it, read through the block's rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, whether or not the block was fetched there (an unfetched
    block has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, whether or not the block was fetched there (an unfetched
    block has not moved), for any proof data over these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-block rectangles, and what it writes -/

abbrev r0_0 : Rect S4096x128 := Rect.unit (s := S4096x128) ![0, 0] S4096x128.size inb_S4096x128_S4096x128_0_0
abbrev r0_1 : Rect S128x8 := Rect.unit (s := S128x8) ![0, 0] S128x8.size inb_S128x8_S128x8_0_0
abbrev r0_2 : Rect S4096x8 := Rect.unit (s := S4096x8) ![0, 0] S4096x8.size inb_S4096x8_S4096x8_0_0

/-- The output buffer after the body, as a function of the input blocks: its one whole-block store. -/
def out0_2 (x0 : Vec F S4096x128 .f32) (x1 : Vec F S128x8 .f32) : Vec F S4096x8 .f32 :=
  View.canon [⟨r0_2, k0_pay1 (View.ld x0 r0_0) (View.ld x1 r0_1)⟩]

/-- That store covers the buffer. -/
theorem cover0_2 (p0 : Vec F S4096x8 .f32) (y : S4096x8.Idx) :
    ∃ pc ∈ ([⟨r0_2, p0⟩] : List (View.Piece (Elt F) S4096x8 .f32)), y ∈ pc.1.set :=
  ⟨_, List.mem_singleton_self _, View.mem_set_unit_zero zeros0 inb_S4096x8_S4096x8_0_0 y⟩

/-! ## The body's triple -/

set_option maxHeartbeats 1000000 in
/-- From the input buffers at read contents `x_w` and the output buffer at anything, the body runs to its return with the
    inputs as they were and the output at `out0_2` of the inputs. -/
theorem sound_kernel0 (c : Dev nD) (E : Set ℕ) (i : grid0.Coords)
    (arg0 : Memref sig .tc .vmem S4096x128 .f32) (harg0 : arg0.IsWhole) (arg1 : Memref sig .tc .vmem S128x8 .f32) (harg1 : arg1.IsWhole) (arg2 : Memref sig .tc .vmem S4096x8 .f32) (harg2 : arg2.IsWhole)
    (x0 : Vec F S4096x128 .f32) (x1 : Vec F S128x8 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the call finds them; after the body at point `t` each input's buffer at its block and the output's at
    `out0_2` of the input blocks; the invariant: the scoped buffers no window stages and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at any point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.IdealFrame.Region1.lean ====
/-
  Pipeline 1 of the program, one grid point at a time, for any contents `V` of the arrays when the call is entered.
  Every window's block divides its array evenly, so a block at a point is the array read through the block's rectangle.
  The body reads each input block whole, writes the output block whole, and what it writes is one pure function of
  the input blocks (`out1_4`). From that: the proof data of the pipeline (each input's buffer keeps its block, the
  output's buffer holds that function of the input blocks) and the obligation that the body meets them at every point.
-/
import proofs.«109645_j46763603919526_2_alg».proof.Proof.Gen.KernelIdeal.Launch
import proofs.«109645_j46763603919526_2_alg».proof.Proof.Gen.KernelIdeal.Skeleton
import proofs.«109645_j46763603919526_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros1 : (![0, 0] : Fin 2 → Nat) = fun _ => 0 := by funext a; fin_cases a <;> rfl

/-- Window `w`'s block at point `t`: the array, as the call finds it, read through the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, whether or not the block was fetched there (an unfetched
    block has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, whether or not the block was fetched there (an unfetched
    block has not moved), for any proof data over these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, whether or not the block was fetched there (an unfetched
    block has not moved), for any proof data over these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, whether or not the block was fetched there (an unfetched
    block has not moved), for any proof data over these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-block rectangles, and what it writes -/

abbrev r1_0 : Rect S2048x8 := Rect.unit (s := S2048x8) ![0, 0] S2048x8.size inb_S2048x8_S2048x8_0_0
abbrev r1_1 : Rect S2048x8 := Rect.unit (s := S2048x8) ![0, 0] S2048x8.size inb_S2048x8_S2048x8_0_0
abbrev r1_2 : Rect S2048x1 := Rect.unit (s := S2048x1) ![0, 0] S2048x1.size inb_S2048x1_S2048x1_0_0
abbrev r1_3 : Rect S1x8 := Rect.unit (s := S1x8) ![0, 0] S1x8.size inb_S1x8_S1x8_0_0
abbrev r1_4 : Rect S2048x8 := Rect.unit (s := S2048x8) ![0, 0] S2048x8.size inb_S2048x8_S2048x8_0_0

/-- The output buffer after the body, as a function of the input blocks: its one whole-block store. -/
def out1_4 (x0 : Vec F S2048x8 .f32) (x1 : Vec F S2048x8 .f32) (x2 : Vec F S2048x1 .f32) (x3 : Vec F S1x8 .f32) : Vec F S2048x8 .f32 :=
  View.canon [⟨r1_4, k1_pay1 (View.ld x0 r1_0) (View.ld x1 r1_1) (View.ld x2 r1_2) (View.ld x3 r1_3)⟩]

/-- That store covers the buffer. -/
theorem cover1_4 (p0 : Vec F S2048x8 .f32) (y : S2048x8.Idx) :
    ∃ pc ∈ ([⟨r1_4, p0⟩] : List (View.Piece (Elt F) S2048x8 .f32)), y ∈ pc.1.set :=
  ⟨_, List.mem_singleton_self _, View.mem_set_unit_zero zeros1 inb_S2048x8_S2048x8_0_0 y⟩

/-! ## The body's triple -/

set_option maxHeartbeats 1000000 in
/-- From the input buffers at read contents `x_w` and the output buffer at anything, the body runs to its return with the
    inputs as they were and the output at `out1_4` of the inputs. -/
theorem sound_kernel1 (c : Dev nD) (E : Set ℕ) (i : grid1.Coords)
    (arg0 : Memref sig .tc .vmem S2048x8 .f32) (harg0 : arg0.IsWhole) (arg1 : Memref sig .tc .vmem S2048x8 .f32) (harg1 : arg1.IsWhole) (arg2 : Memref sig .tc .vmem S2048x1 .f32) (harg2 : arg2.IsWhole) (arg3 : Memref sig .tc .vmem S1x8 .f32) (harg3 : arg3.IsWhole) (arg4 : Memref sig .tc .vmem S2048x8 .f32) (harg4 : arg4.IsWhole)
    (x0 : Vec F S2048x8 .f32) (x1 : Vec F S2048x8 .f32) (x2 : Vec F S2048x1 .f32) (x3 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__combine_kernel i arg0 harg0 arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The arrays as the call finds them; after the body at point `t` each input's buffer at its block and the output's at
    `out1_4` of the input blocks; the invariant: the scoped buffers no window stages and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at any point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.IdealFrame.Region2.lean ====
/-
  Pipeline 2 of the program, one grid point at a time, for any contents `V` of the arrays when the call is entered.
  Every window's block divides its array evenly, so a block at a point is the array read through the block's rectangle.
  The body reads each input block whole, writes the output block whole, and what it writes is one pure function of
  the input blocks (`out2_2`). From that: the proof data of the pipeline (each input's buffer keeps its block, the
  output's buffer holds that function of the input blocks) and the obligation that the body meets them at every point.
-/
import proofs.«109645_j46763603919526_2_alg».proof.Proof.Gen.KernelIdeal.Launch
import proofs.«109645_j46763603919526_2_alg».proof.Proof.Gen.KernelIdeal.Skeleton
import proofs.«109645_j46763603919526_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros2 : (![0, 0] : Fin 2 → Nat) = fun _ => 0 := by funext a; fin_cases a <;> rfl

/-- Window `w`'s block at point `t`: the array, as the call finds it, read through the block's rectangle. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, whether or not the block was fetched there (an unfetched
    block has not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's buffer holds its block at every point, whether or not the block was fetched there (an unfetched
    block has not moved), for any proof data over these arrays whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's whole-block rectangles, and what it writes -/

abbrev r2_0 : Rect S16384x8 := Rect.unit (s := S16384x8) ![0, 0] S16384x8.size inb_S16384x8_S16384x8_0_0
abbrev r2_1 : Rect S8x8 := Rect.unit (s := S8x8) ![0, 0] S8x8.size inb_S8x8_S8x8_0_0
abbrev r2_2 : Rect S16384x8 := Rect.unit (s := S16384x8) ![0, 0] S16384x8.size inb_S16384x8_S16384x8_0_0

/-- The output buffer after the body, as a function of the input blocks: its one whole-block store. -/
def out2_2 (x0 : Vec F S16384x8 .f32) (x1 : Vec F S8x8 .f32) : Vec F S16384x8 .f32 :=
  View.canon [⟨r2_2, k2_pay1 (View.ld x0 r2_0) (View.ld x1 r2_1)⟩]

/-- That store covers the buffer. -/
theorem cover2_2 (p0 : Vec F S16384x8 .f32) (y : S16384x8.Idx) :
    ∃ pc ∈ ([⟨r2_2, p0⟩] : List (View.Piece (Elt F) S16384x8 .f32)), y ∈ pc.1.set :=
  ⟨_, List.mem_singleton_self _, View.mem_set_unit_zero zeros2 inb_S16384x8_S16384x8_0_0 y⟩

/-! ## The body's triple -/

set_option maxHeartbeats 1000000 in
/-- From the input buffers at read contents `x_w` and the output buffer at anything, the body runs to its return with the
    inputs as they were and the output at `out2_2` of the inputs. -/
theorem sound_kernel2 (c : Dev nD) (E : Set ℕ) (i : grid2.Coords)
    (arg0 : Memref sig .tc .vmem S16384x8 .f32) (harg0 : arg0.IsWhole) (arg1 : Memref sig .tc .vmem S8x8 .f32) (harg1 : arg1.IsWhole) (arg2 : Memref sig .tc .vmem S16384x8 .f32) (harg2 : arg2.IsWhole)
    (x0 : Vec F S16384x8 .f32) (x1 : Vec F S8x8 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the call finds them; after the body at point `t` each input's buffer at its block and the output's at
    `out2_2` of the input blocks; the invariant: the scoped buffers no window stages and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at any point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.IdealFrame.Region3.lean ====
/-
  Pipeline 3 of the program, one grid point at a time, for any contents `V` of the arrays when the call is entered.
  Every window's block divides its array evenly, so a block at a point is the array read through the block's rectangle.
  The body reads each input block whole, writes the output block whole, and what it writes is one pure function of
  the input blocks (`out3_4`). From that: the proof data of the pipeline (each input's buffer keeps its block, the
  output's buffer holds that function of the input blocks) and the obligation that the body meets them at every point.
-/
import proofs.«109645_j46763603919526_2_alg».proof.Proof.Gen.KernelIdeal.Launch
import proofs.«109645_j46763603919526_2_alg».proof.Proof.Gen.KernelIdeal.Skeleton
import proofs.«109645_j46763603919526_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros3 : (![0, 0] : Fin 2 → Nat) = fun _ => 0 := by funext a; fin_cases a <;> rfl

/-- Window `w`'s block at point `t`: the array, as the call finds it, read through the block's rectangle. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, whether or not the block was fetched there (an unfetched
    block has not moved), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's buffer holds its block at every point, whether or not the block was fetched there (an unfetched
    block has not moved), for any proof data over these arrays whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's buffer holds its block at every point, whether or not the block was fetched there (an unfetched
    block has not moved), for any proof data over these arrays whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's buffer holds its block at every point, whether or not the block was fetched there (an unfetched
    block has not moved), for any proof data over these arrays whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's whole-block rectangles, and what it writes -/

abbrev r3_0 : Rect S2048x8 := Rect.unit (s := S2048x8) ![0, 0] S2048x8.size inb_S2048x8_S2048x8_0_0
abbrev r3_1 : Rect S2048x8 := Rect.unit (s := S2048x8) ![0, 0] S2048x8.size inb_S2048x8_S2048x8_0_0
abbrev r3_2 : Rect S2048x1 := Rect.unit (s := S2048x1) ![0, 0] S2048x1.size inb_S2048x1_S2048x1_0_0
abbrev r3_3 : Rect S1x8 := Rect.unit (s := S1x8) ![0, 0] S1x8.size inb_S1x8_S1x8_0_0
abbrev r3_4 : Rect S2048x8 := Rect.unit (s := S2048x8) ![0, 0] S2048x8.size inb_S2048x8_S2048x8_0_0

/-- The output buffer after the body, as a function of the input blocks: its one whole-block store. -/
def out3_4 (x0 : Vec F S2048x8 .f32) (x1 : Vec F S2048x8 .f32) (x2 : Vec F S2048x1 .f32) (x3 : Vec F S1x8 .f32) : Vec F S2048x8 .f32 :=
  View.canon [⟨r3_4, k3_pay1 (View.ld x0 r3_0) (View.ld x1 r3_1) (View.ld x2 r3_2) (View.ld x3 r3_3)⟩]

/-- That store covers the buffer. -/
theorem cover3_4 (p0 : Vec F S2048x8 .f32) (y : S2048x8.Idx) :
    ∃ pc ∈ ([⟨r3_4, p0⟩] : List (View.Piece (Elt F) S2048x8 .f32)), y ∈ pc.1.set :=
  ⟨_, List.mem_singleton_self _, View.mem_set_unit_zero zeros3 inb_S2048x8_S2048x8_0_0 y⟩

/-! ## The body's triple -/

set_option maxHeartbeats 1000000 in
/-- From the input buffers at read contents `x_w` and the output buffer at anything, the body runs to its return with the
    inputs as they were and the output at `out3_4` of the inputs. -/
theorem sound_kernel3 (c : Dev nD) (E : Set ℕ) (i : grid3.Coords)
    (arg0 : Memref sig .tc .vmem S2048x8 .f32) (harg0 : arg0.IsWhole) (arg1 : Memref sig .tc .vmem S2048x8 .f32) (harg1 : arg1.IsWhole) (arg2 : Memref sig .tc .vmem S2048x1 .f32) (harg2 : arg2.IsWhole) (arg3 : Memref sig .tc .vmem S1x8 .f32) (harg3 : arg3.IsWhole) (arg4 : Memref sig .tc .vmem S2048x8 .f32) (harg4 : arg4.IsWhole)
    (x0 : Vec F S2048x8 .f32) (x1 : Vec F S2048x8 .f32) (x2 : Vec F S2048x1 .f32) (x3 : Vec F S1x8 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__combine_kernel i arg0 harg0 arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The arrays as the call finds them; after the body at point `t` each input's buffer at its block and the output's at
    `out3_4` of the input blocks; the invariant: the scoped buffers no window stages and the generator register,
    untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at any point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's proof data, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.IdealFrame.Region4.lean ====
/-
  Pipeline 4 of the program, one grid point at a time, for any contents `V` of the arrays when the call is entered.
  Every window's block divides its array evenly, so a block at a point is the array read through the block's rectangle.
  The body reads each input block whole, writes the output block whole, and what it writes is one pure function of
  the input blocks (`out4_2`). From that: the proof data of the pipeline (each input's buffer keeps its block, the
  output's buffer holds that function of the input blocks) and the obligation that the body meets them at every point.
-/
import proofs.«109645_j46763603919526_2_alg».proof.Proof.Gen.KernelIdeal.Launch
import proofs.«109645_j46763603919526_2_alg».proof.Proof.Gen.KernelIdeal.Skeleton
import proofs.«109645_j46763603919526_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros4 : (![0, 0] : Fin 2 → Nat) = fun _ => 0 := by funext a; fin_cases a <;> rfl

/-- Window `w`'s block at point `t`: the array, as the call finds it, read through the block's rectangle. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's buffer holds its block at every point, whether or not the block was fetched there (an unfetched
    block has not moved), for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's buffer holds its block at every point, whether or not the block was fetched there (an unfetched
    block has not moved), for any proof data over these arrays whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's whole-block rectangles, and what it writes -/

abbrev r4_0 : Rect S16384x8 := Rect.unit (s := S16384x8) ![0, 0] S16384x8.size inb_S16384x8_S16384x8_0_0
abbrev r4_1 : Rect S8x1 := Rect.unit (s := S8x1) ![0, 0] S8x1.size inb_S8x1_S8x1_0_0
abbrev r4_2 : Rect S16384x1 := Rect.unit (s := S16384x1) ![0, 0] S16384x1.size inb_S16384x1_S16384x1_0_0

/-- The output buffer after the body, as a function of the input blocks: its one whole-block store. -/
def out4_2 (x0 : Vec F S16384x8 .f32) (x1 : Vec F S8x1 .f32) : Vec F S16384x1 .f32 :=
  View.canon [⟨r4_2, k4_pay1 (View.ld x0 r4_0) (View.ld x1 r4_1)⟩]

/-- That store covers the buffer. -/
theorem cover4_2 (p0 : Vec F S16384x1 .f32) (y : S16384x1.Idx) :
    ∃ pc ∈ ([⟨r4_2, p0⟩] : List (View.Piece (Elt F) S16384x1 .f32)), y ∈ pc.1.set :=
  ⟨_, List.mem_singleton_self _, View.mem_set_unit_zero zeros4 inb_S16384x1_S16384x1_0_0 y⟩

/-! ## The body's triple -/

set_option maxHeartbeats 1000000 in
/-- From the input buffers at read contents `x_w` and the output buffer at anything, the body runs to its return with the
    inputs as they were and the output at `out4_2` of the inputs. -/
theorem sound_kernel4 (c : Dev nD) (E : Set ℕ) (i : grid4.Coords)
    (arg0 : Memref sig .tc .vmem S16384x8 .f32) (harg0 : arg0.IsWhole) (arg1 : Memref sig .tc .vmem S8x1 .f32) (harg1 : arg1.IsWhole) (arg2 : Memref sig .tc .vmem S16384x1 .f32) (harg2 : arg2.IsWhole)
    (x0 : Vec F S16384x8 .f32) (x1 : Vec F S8x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__matmul_kernel i arg0 harg0 arg1 harg1 arg2 harg2) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The arrays as the call finds them; after the body at point `t` each input's buffer at its block and the output's at
    `out4_2` of the input blocks; the invariant: the scoped buffers no window stages and the generator register,
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at any point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.IdealFrame.Region5.lean ====
/-
  Pipeline 5 of the program, one grid point at a time, for any contents `V` of the arrays when the call is entered.
  Every window's block divides its array evenly, so a block at a point is the array read through the block's rectangle.
  The body reads each input block whole, writes the output block whole, and what it writes is one pure function of
  the input blocks (`out5_4`). From that: the proof data of the pipeline (each input's buffer keeps its block, the
  output's buffer holds that function of the input blocks) and the obligation that the body meets them at every point.
-/
import proofs.«109645_j46763603919526_2_alg».proof.Proof.Gen.KernelIdeal.Launch
import proofs.«109645_j46763603919526_2_alg».proof.Proof.Gen.KernelIdeal.Skeleton
import proofs.«109645_j46763603919526_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-block rectangle are zero. -/
theorem zeros5 : (![0, 0] : Fin 2 → Nat) = fun _ => 0 := by funext a; fin_cases a <;> rfl

/-- Window `w`'s block at point `t`: the array, as the call finds it, read through the block's rectangle. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's buffer holds its block at every point, whether or not the block was fetched there (an unfetched
    block has not moved), for any proof data over these arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's buffer holds its block at every point, whether or not the block was fetched there (an unfetched
    block has not moved), for any proof data over these arrays whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's buffer holds its block at every point, whether or not the block was fetched there (an unfetched
    block has not moved), for any proof data over these arrays whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's buffer holds its block at every point, whether or not the block was fetched there (an unfetched
    block has not moved), for any proof data over these arrays whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's whole-block rectangles, and what it writes -/

abbrev r5_0 : Rect S2048x1 := Rect.unit (s := S2048x1) ![0, 0] S2048x1.size inb_S2048x1_S2048x1_0_0
abbrev r5_1 : Rect S2048x1 := Rect.unit (s := S2048x1) ![0, 0] S2048x1.size inb_S2048x1_S2048x1_0_0
abbrev r5_2 : Rect S2048x1 := Rect.unit (s := S2048x1) ![0, 0] S2048x1.size inb_S2048x1_S2048x1_0_0
abbrev r5_3 : Rect S1x1 := Rect.unit (s := S1x1) ![0, 0] S1x1.size inb_S1x1_S1x1_0_0
abbrev r5_4 : Rect S2048x1 := Rect.unit (s := S2048x1) ![0, 0] S2048x1.size inb_S2048x1_S2048x1_0_0

/-- The output buffer after the body, as a function of the input blocks: its one whole-block store. -/
def out5_4 (x0 : Vec F S2048x1 .f32) (x1 : Vec F S2048x1 .f32) (x2 : Vec F S2048x1 .f32) (x3 : Vec F S1x1 .f32) : Vec F S2048x1 .f32 :=
  View.canon [⟨r5_4, k5_pay1 (View.ld x0 r5_0) (View.ld x1 r5_1) (View.ld x2 r5_2) (View.ld x3 r5_3)⟩]

/-- That store covers the buffer. -/
theorem cover5_4 (p0 : Vec F S2048x1 .f32) (y : S2048x1.Idx) :
    ∃ pc ∈ ([⟨r5_4, p0⟩] : List (View.Piece (Elt F) S2048x1 .f32)), y ∈ pc.1.set :=
  ⟨_, List.mem_singleton_self _, View.mem_set_unit_zero zeros5 inb_S2048x1_S2048x1_0_0 y⟩

/-! ## The body's triple -/

set_option maxHeartbeats 1000000 in
/-- From the input buffers at read contents `x_w` and the output buffer at anything, the body runs to its return with the
    inputs as they were and the output at `out5_4` of the inputs. -/
theorem sound_kernel5 (c : Dev nD) (E : Set ℕ) (i : grid5.Coords)
    (arg0 : Memref sig .tc .vmem S2048x1 .f32) (harg0 : arg0.IsWhole) (arg1 : Memref sig .tc .vmem S2048x1 .f32) (harg1 : arg1.IsWhole) (arg2 : Memref sig .tc .vmem S2048x1 .f32) (harg2 : arg2.IsWhole) (arg3 : Memref sig .tc .vmem S1x1 .f32) (harg3 : arg3.IsWhole) (arg4 : Memref sig .tc .vmem S2048x1 .f32) (harg4 : arg4.IsWhole)
    (x0 : Vec F S2048x1 .f32) (x1 : Vec F S2048x1 .f32) (x2 : Vec F S2048x1 .f32) (x3 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3)) -∗ K ⟨⟩))
      ⊢ wp frame (wpE (defs₀ (F := F)) Variants.none c none) E (cc5__combine_kernel i arg0 harg0 arg1 harg1 arg2 harg2 arg3 harg3 arg4 harg4) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The arrays as the call finds them; after the body at point `t` each input's buffer at its block and the output's at
    `out5_4` of the input blocks; the invariant: the scoped buffers no window stages and the generator register,
    untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at any point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's proof data, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.IdealFrame.Run.lean ====
/-
  The whole program as thirteen items in order — seven stretches of host operations and the six pipelines — with the
  contents of every unscoped buffer named at each of the fourteen boundaries between them: a stretch of host operations
  applies its operations to the contents it starts from; a pipeline leaves each of its arrays at what its write-backs
  leave (an input array as it was) and every other buffer alone. From that: every weakly fair execution terminates and
  each unscoped buffer ends at the last boundary's contents (`run_all`), and no item changes an argument array.
-/
import proofs.«109645_j46763603919526_2_alg».proof.Proof.IdealFrame.Region0
import proofs.«109645_j46763603919526_2_alg».proof.Proof.IdealFrame.Region1
import proofs.«109645_j46763603919526_2_alg».proof.Proof.IdealFrame.Region2
import proofs.«109645_j46763603919526_2_alg».proof.Proof.IdealFrame.Region3
import proofs.«109645_j46763603919526_2_alg».proof.Proof.IdealFrame.Region4
import proofs.«109645_j46763603919526_2_alg».proof.Proof.IdealFrame.Region5
import proofs.«109645_j46763603919526_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev bd0 : Dev nD → Valuation τ sig (Elt F) := fun c b => m (c, b)
/-- After the host operations `hostOps0`. -/
abbrev bd1 : Dev nD → Valuation τ sig (Elt F) := fun c => StableHlo.after hostOps0 (bd0 m c)
/-- The same, read at the TensorCore's references. -/
abbrev rd1 : (c : Dev nD) → (b : Ref sig .tc) → Buf (Elt F) ((c : Thread nD τ).loc b) := fun c b => bd1 m c b
/-- After pipeline 0: its arrays at what the pipeline leaves, every other buffer as it was. -/
def bd2 (c : Dev nD) : Valuation τ sig (Elt F) :=
  Pipeline.withArrays spec0 c (bd1 m c) fun w => (dat0 (rd1 m) c).arrAt w cfg0.N
theorem bd2_arr (c : Dev nD) (w : Fin cfg0.W) :
    bd2 m c (Proc.devRef .tc (Pipeline.arrRef spec0 w)) = (dat0 (rd1 m) c).arrAt w cfg0.N := by
  unfold bd2; exact Pipeline.withArrays_arr spec0 launch0.win.arr_inj c _ _ w
theorem bd2_of_ne (c : Dev nD) (b : Ref sig .tc) (hb : ∀ w, Pipeline.arrRef spec0 w ≠ b) :
    bd2 m c (Proc.devRef .tc b) = bd1 m c (Proc.devRef .tc b) := by
  unfold bd2; exact Pipeline.withArrays_of_ne spec0 c _ _ b hb
/-- The same, read at the TensorCore's references. -/
abbrev rd2 : (c : Dev nD) → (b : Ref sig .tc) → Buf (Elt F) ((c : Thread nD τ).loc b) := fun c b => bd2 m c b
theorem hF0 (c : Dev nD) (w : Fin cfg0.W) : (dat0 (rd1 m) c).arrAt w cfg0.N = rd2 m c (Pipeline.arrRef spec0 w) :=
  (bd2_arr m c w).symm
theorem hrest0 (c : Dev nD) : ∀ b, b ∉ Finset.univ.image (Pipeline.arrRef spec0) → rd2 m c b = rd1 m c b :=
  fun b hb => bd2_of_ne m c b fun w e => hb (Finset.mem_image.mpr ⟨w, Finset.mem_univ _, e⟩)
/-- Pipeline 0 changes no buffer but its output array `main_v27`: an input array is left as it was. -/
theorem bd2_keep (c : Dev nD) (b : Ref sig .tc) (h : b ≠ main_v27) :
    bd2 m c (Proc.devRef .tc b) = bd1 m c (Proc.devRef .tc b) := by
  by_cases h0 : b = main_arg0
  · subst h0; exact (bd2_arr m c 0).trans (((dat0 (rd1 m) c).arrAt_in 0 rfl _).trans (A_eq0 (rd1 m) c 0))
  by_cases h1 : b = main_arg3
  · subst h1; exact (bd2_arr m c 1).trans (((dat0 (rd1 m) c).arrAt_in 1 rfl _).trans (A_eq0 (rd1 m) c 1))
  refine bd2_of_ne m c b fun w => ?_
  fin_cases w
  · exact fun e => h0 e.symm
  · exact fun e => h1 e.symm
  · exact fun e => h e.symm
/-- After the host operations `hostOps1`. -/
abbrev bd3 : Dev nD → Valuation τ sig (Elt F) := fun c => StableHlo.after hostOps1 (bd2 m c)
/-- The same, read at the TensorCore's references. -/
abbrev rd3 : (c : Dev nD) → (b : Ref sig .tc) → Buf (Elt F) ((c : Thread nD τ).loc b) := fun c b => bd3 m c b
/-- After pipeline 1: its arrays at what the pipeline leaves, every other buffer as it was. -/
def bd4 (c : Dev nD) : Valuation τ sig (Elt F) :=
  Pipeline.withArrays spec1 c (bd3 m c) fun w => (dat1 (rd3 m) c).arrAt w cfg1.N
theorem bd4_arr (c : Dev nD) (w : Fin cfg1.W) :
    bd4 m c (Proc.devRef .tc (Pipeline.arrRef spec1 w)) = (dat1 (rd3 m) c).arrAt w cfg1.N := by
  unfold bd4; exact Pipeline.withArrays_arr spec1 launch1.win.arr_inj c _ _ w
theorem bd4_of_ne (c : Dev nD) (b : Ref sig .tc) (hb : ∀ w, Pipeline.arrRef spec1 w ≠ b) :
    bd4 m c (Proc.devRef .tc b) = bd3 m c (Proc.devRef .tc b) := by
  unfold bd4; exact Pipeline.withArrays_of_ne spec1 c _ _ b hb
/-- The same, read at the TensorCore's references. -/
abbrev rd4 : (c : Dev nD) → (b : Ref sig .tc) → Buf (Elt F) ((c : Thread nD τ).loc b) := fun c b => bd4 m c b
theorem hF1 (c : Dev nD) (w : Fin cfg1.W) : (dat1 (rd3 m) c).arrAt w cfg1.N = rd4 m c (Pipeline.arrRef spec1 w) :=
  (bd4_arr m c w).symm
theorem hrest1 (c : Dev nD) : ∀ b, b ∉ Finset.univ.image (Pipeline.arrRef spec1) → rd4 m c b = rd3 m c b :=
  fun b hb => bd4_of_ne m c b fun w e => hb (Finset.mem_image.mpr ⟨w, Finset.mem_univ _, e⟩)
/-- Pipeline 1 changes no buffer but its output array `main_v43`: an input array is left as it was. -/
theorem bd4_keep (c : Dev nD) (b : Ref sig .tc) (h : b ≠ main_v43) :
    bd4 m c (Proc.devRef .tc b) = bd3 m c (Proc.devRef .tc b) := by
  by_cases h0 : b = main_v40
  · subst h0; exact (bd4_arr m c 0).trans (((dat1 (rd3 m) c).arrAt_in 0 rfl _).trans (A_eq1 (rd3 m) c 0))
  by_cases h1 : b = main_v27
  · subst h1; exact (bd4_arr m c 1).trans (((dat1 (rd3 m) c).arrAt_in 1 rfl _).trans (A_eq1 (rd3 m) c 1))
  by_cases h2 : b = main_v41
  · subst h2; exact (bd4_arr m c 2).trans (((dat1 (rd3 m) c).arrAt_in 2 rfl _).trans (A_eq1 (rd3 m) c 2))
  by_cases h3 : b = main_v42
  · subst h3; exact (bd4_arr m c 3).trans (((dat1 (rd3 m) c).arrAt_in 3 rfl _).trans (A_eq1 (rd3 m) c 3))
  refine bd4_of_ne m c b fun w => ?_
  fin_cases w
  · exact fun e => h0 e.symm
  · exact fun e => h1 e.symm
  · exact fun e => h2 e.symm
  · exact fun e => h3 e.symm
  · exact fun e => h e.symm
/-- After pipeline 2: its arrays at what the pipeline leaves, every other buffer as it was. -/
def bd5 (c : Dev nD) : Valuation τ sig (Elt F) :=
  Pipeline.withArrays spec2 c (bd4 m c) fun w => (dat2 (rd4 m) c).arrAt w cfg2.N
theorem bd5_arr (c : Dev nD) (w : Fin cfg2.W) :
    bd5 m c (Proc.devRef .tc (Pipeline.arrRef spec2 w)) = (dat2 (rd4 m) c).arrAt w cfg2.N := by
  unfold bd5; exact Pipeline.withArrays_arr spec2 launch2.win.arr_inj c _ _ w
theorem bd5_of_ne (c : Dev nD) (b : Ref sig .tc) (hb : ∀ w, Pipeline.arrRef spec2 w ≠ b) :
    bd5 m c (Proc.devRef .tc b) = bd4 m c (Proc.devRef .tc b) := by
  unfold bd5; exact Pipeline.withArrays_of_ne spec2 c _ _ b hb
/-- The same, read at the TensorCore's references. -/
abbrev rd5 : (c : Dev nD) → (b : Ref sig .tc) → Buf (Elt F) ((c : Thread nD τ).loc b) := fun c b => bd5 m c b
theorem hF2 (c : Dev nD) (w : Fin cfg2.W) : (dat2 (rd4 m) c).arrAt w cfg2.N = rd5 m c (Pipeline.arrRef spec2 w) :=
  (bd5_arr m c w).symm
theorem hrest2 (c : Dev nD) : ∀ b, b ∉ Finset.univ.image (Pipeline.arrRef spec2) → rd5 m c b = rd4 m c b :=
  fun b hb => bd5_of_ne m c b fun w e => hb (Finset.mem_image.mpr ⟨w, Finset.mem_univ _, e⟩)
/-- Pipeline 2 changes no buffer but its output array `main_v44`: an input array is left as it was. -/
theorem bd5_keep (c : Dev nD) (b : Ref sig .tc) (h : b ≠ main_v44) :
    bd5 m c (Proc.devRef .tc b) = bd4 m c (Proc.devRef .tc b) := by
  by_cases h0 : b = main_v43
  · subst h0; exact (bd5_arr m c 0).trans (((dat2 (rd4 m) c).arrAt_in 0 rfl _).trans (A_eq2 (rd4 m) c 0))
  by_cases h1 : b = main_arg5
  · subst h1; exact (bd5_arr m c 1).trans (((dat2 (rd4 m) c).arrAt_in 1 rfl _).trans (A_eq2 (rd4 m) c 1))
  refine bd5_of_ne m c b fun w => ?_
  fin_cases w
  · exact fun e => h0 e.symm
  · exact fun e => h1 e.symm
  · exact fun e => h e.symm
/-- After the host operations `hostOps3`. -/
abbrev bd6 : Dev nD → Valuation τ sig (Elt F) := fun c => StableHlo.after hostOps3 (bd5 m c)
/-- The same, read at the TensorCore's references. -/
abbrev rd6 : (c : Dev nD) → (b : Ref sig .tc) → Buf (Elt F) ((c : Thread nD τ).loc b) := fun c b => bd6 m c b
/-- After pipeline 3: its arrays at what the pipeline leaves, every other buffer as it was. -/
def bd7 (c : Dev nD) : Valuation τ sig (Elt F) :=
  Pipeline.withArrays spec3 c (bd6 m c) fun w => (dat3 (rd6 m) c).arrAt w cfg3.N
theorem bd7_arr (c : Dev nD) (w : Fin cfg3.W) :
    bd7 m c (Proc.devRef .tc (Pipeline.arrRef spec3 w)) = (dat3 (rd6 m) c).arrAt w cfg3.N := by
  unfold bd7; exact Pipeline.withArrays_arr spec3 launch3.win.arr_inj c _ _ w
theorem bd7_of_ne (c : Dev nD) (b : Ref sig .tc) (hb : ∀ w, Pipeline.arrRef spec3 w ≠ b) :
    bd7 m c (Proc.devRef .tc b) = bd6 m c (Proc.devRef .tc b) := by
  unfold bd7; exact Pipeline.withArrays_of_ne spec3 c _ _ b hb
/-- The same, read at the TensorCore's references. -/
abbrev rd7 : (c : Dev nD) → (b : Ref sig .tc) → Buf (Elt F) ((c : Thread nD τ).loc b) := fun c b => bd7 m c b
theorem hF3 (c : Dev nD) (w : Fin cfg3.W) : (dat3 (rd6 m) c).arrAt w cfg3.N = rd7 m c (Pipeline.arrRef spec3 w) :=
  (bd7_arr m c w).symm
theorem hrest3 (c : Dev nD) : ∀ b, b ∉ Finset.univ.image (Pipeline.arrRef spec3) → rd7 m c b = rd6 m c b :=
  fun b hb => bd7_of_ne m c b fun w e => hb (Finset.mem_image.mpr ⟨w, Finset.mem_univ _, e⟩)
/-- Pipeline 3 changes no buffer but its output array `main_v60`: an input array is left as it was. -/
theorem bd7_keep (c : Dev nD) (b : Ref sig .tc) (h : b ≠ main_v60) :
    bd7 m c (Proc.devRef .tc b) = bd6 m c (Proc.devRef .tc b) := by
  by_cases h0 : b = main_v57
  · subst h0; exact (bd7_arr m c 0).trans (((dat3 (rd6 m) c).arrAt_in 0 rfl _).trans (A_eq3 (rd6 m) c 0))
  by_cases h1 : b = main_v44
  · subst h1; exact (bd7_arr m c 1).trans (((dat3 (rd6 m) c).arrAt_in 1 rfl _).trans (A_eq3 (rd6 m) c 1))
  by_cases h2 : b = main_v58
  · subst h2; exact (bd7_arr m c 2).trans (((dat3 (rd6 m) c).arrAt_in 2 rfl _).trans (A_eq3 (rd6 m) c 2))
  by_cases h3 : b = main_v59
  · subst h3; exact (bd7_arr m c 3).trans (((dat3 (rd6 m) c).arrAt_in 3 rfl _).trans (A_eq3 (rd6 m) c 3))
  refine bd7_of_ne m c b fun w => ?_
  fin_cases w
  · exact fun e => h0 e.symm
  · exact fun e => h1 e.symm
  · exact fun e => h2 e.symm
  · exact fun e => h3 e.symm
  · exact fun e => h e.symm
/-- After pipeline 4: its arrays at what the pipeline leaves, every other buffer as it was. -/
def bd8 (c : Dev nD) : Valuation τ sig (Elt F) :=
  Pipeline.withArrays spec4 c (bd7 m c) fun w => (dat4 (rd7 m) c).arrAt w cfg4.N
theorem bd8_arr (c : Dev nD) (w : Fin cfg4.W) :
    bd8 m c (Proc.devRef .tc (Pipeline.arrRef spec4 w)) = (dat4 (rd7 m) c).arrAt w cfg4.N := by
  unfold bd8; exact Pipeline.withArrays_arr spec4 launch4.win.arr_inj c _ _ w
theorem bd8_of_ne (c : Dev nD) (b : Ref sig .tc) (hb : ∀ w, Pipeline.arrRef spec4 w ≠ b) :
    bd8 m c (Proc.devRef .tc b) = bd7 m c (Proc.devRef .tc b) := by
  unfold bd8; exact Pipeline.withArrays_of_ne spec4 c _ _ b hb
/-- The same, read at the TensorCore's references. -/
abbrev rd8 : (c : Dev nD) → (b : Ref sig .tc) → Buf (Elt F) ((c : Thread nD τ).loc b) := fun c b => bd8 m c b
theorem hF4 (c : Dev nD) (w : Fin cfg4.W) : (dat4 (rd7 m) c).arrAt w cfg4.N = rd8 m c (Pipeline.arrRef spec4 w) :=
  (bd8_arr m c w).symm
theorem hrest4 (c : Dev nD) : ∀ b, b ∉ Finset.univ.image (Pipeline.arrRef spec4) → rd8 m c b = rd7 m c b :=
  fun b hb => bd8_of_ne m c b fun w e => hb (Finset.mem_image.mpr ⟨w, Finset.mem_univ _, e⟩)
/-- Pipeline 4 changes no buffer but its output array `main_v61`: an input array is left as it was. -/
theorem bd8_keep (c : Dev nD) (b : Ref sig .tc) (h : b ≠ main_v61) :
    bd8 m c (Proc.devRef .tc b) = bd7 m c (Proc.devRef .tc b) := by
  by_cases h0 : b = main_v60
  · subst h0; exact (bd8_arr m c 0).trans (((dat4 (rd7 m) c).arrAt_in 0 rfl _).trans (A_eq4 (rd7 m) c 0))
  by_cases h1 : b = main_arg7
  · subst h1; exact (bd8_arr m c 1).trans (((dat4 (rd7 m) c).arrAt_in 1 rfl _).trans (A_eq4 (rd7 m) c 1))
  refine bd8_of_ne m c b fun w => ?_
  fin_cases w
  · exact fun e => h0 e.symm
  · exact fun e => h1 e.symm
  · exact fun e => h e.symm
/-- After the host operations `hostOps5`. -/
abbrev bd9 : Dev nD → Valuation τ sig (Elt F) := fun c => StableHlo.after hostOps5 (bd8 m c)
/-- The same, read at the TensorCore's references. -/
abbrev rd9 : (c : Dev nD) → (b : Ref sig .tc) → Buf (Elt F) ((c : Thread nD τ).loc b) := fun c b => bd9 m c b
/-- After pipeline 5: its arrays at what the pipeline leaves, every other buffer as it was. -/
def bd10 (c : Dev nD) : Valuation τ sig (Elt F) :=
  Pipeline.withArrays spec5 c (bd9 m c) fun w => (dat5 (rd9 m) c).arrAt w cfg5.N
theorem bd10_arr (c : Dev nD) (w : Fin cfg5.W) :
    bd10 m c (Proc.devRef .tc (Pipeline.arrRef spec5 w)) = (dat5 (rd9 m) c).arrAt w cfg5.N := by
  unfold bd10; exact Pipeline.withArrays_arr spec5 launch5.win.arr_inj c _ _ w
theorem bd10_of_ne (c : Dev nD) (b : Ref sig .tc) (hb : ∀ w, Pipeline.arrRef spec5 w ≠ b) :
    bd10 m c (Proc.devRef .tc b) = bd9 m c (Proc.devRef .tc b) := by
  unfold bd10; exact Pipeline.withArrays_of_ne spec5 c _ _ b hb
/-- The same, read at the TensorCore's references. -/
abbrev rd10 : (c : Dev nD) → (b : Ref sig .tc) → Buf (Elt F) ((c : Thread nD τ).loc b) := fun c b => bd10 m c b
theorem hF5 (c : Dev nD) (w : Fin cfg5.W) : (dat5 (rd9 m) c).arrAt w cfg5.N = rd10 m c (Pipeline.arrRef spec5 w) :=
  (bd10_arr m c w).symm
theorem hrest5 (c : Dev nD) : ∀ b, b ∉ Finset.univ.image (Pipeline.arrRef spec5) → rd10 m c b = rd9 m c b :=
  fun b hb => bd10_of_ne m c b fun w e => hb (Finset.mem_image.mpr ⟨w, Finset.mem_univ _, e⟩)
/-- Pipeline 5 changes no buffer but its output array `main_v76`: an input array is left as it was. -/
theorem bd10_keep (c : Dev nD) (b : Ref sig .tc) (h : b ≠ main_v76) :
    bd10 m c (Proc.devRef .tc b) = bd9 m c (Proc.devRef .tc b) := by
  by_cases h0 : b = main_v73
  · subst h0; exact (bd10_arr m c 0).trans (((dat5 (rd9 m) c).arrAt_in 0 rfl _).trans (A_eq5 (rd9 m) c 0))
  by_cases h1 : b = main_v61
  · subst h1; exact (bd10_arr m c 1).trans (((dat5 (rd9 m) c).arrAt_in 1 rfl _).trans (A_eq5 (rd9 m) c 1))
  by_cases h2 : b = main_v74
  · subst h2; exact (bd10_arr m c 2).trans (((dat5 (rd9 m) c).arrAt_in 2 rfl _).trans (A_eq5 (rd9 m) c 2))
  by_cases h3 : b = main_v75
  · subst h3; exact (bd10_arr m c 3).trans (((dat5 (rd9 m) c).arrAt_in 3 rfl _).trans (A_eq5 (rd9 m) c 3))
  refine bd10_of_ne m c b fun w => ?_
  fin_cases w
  · exact fun e => h0 e.symm
  · exact fun e => h1 e.symm
  · exact fun e => h2 e.symm
  · exact fun e => h3 e.symm
  · exact fun e => h e.symm
/-- After the host operations `hostOps6`. -/
abbrev bd11 : Dev nD → Valuation τ sig (Elt F) := fun c => StableHlo.after hostOps6 (bd10 m c)
/-- The same, read at the TensorCore's references. -/
abbrev rd11 : (c : Dev nD) → (b : Ref sig .tc) → Buf (Elt F) ((c : Thread nD τ).loc b) := fun c b => bd11 m c b
/-- After the host operations `hostOps6_1`. -/
abbrev bd12 : Dev nD → Valuation τ sig (Elt F) := fun c => StableHlo.after hostOps6_1 (bd11 m c)
/-- The same, read at the TensorCore's references. -/
abbrev rd12 : (c : Dev nD) → (b : Ref sig .tc) → Buf (Elt F) ((c : Thread nD τ).loc b) := fun c b => bd12 m c b
/-- After the host operations `hostOps6_2`. -/
abbrev bd13 : Dev nD → Valuation τ sig (Elt F) := fun c => StableHlo.after hostOps6_2 (bd12 m c)
/-- The same, read at the TensorCore's references. -/
abbrev rd13 : (c : Dev nD) → (b : Ref sig .tc) → Buf (Elt F) ((c : Thread nD τ).loc b) := fun c b => bd13 m c b
theorem bd1_keep (c : Dev nD) (b : Ref sig .tc) (h : b ∉ hostOps0_W) : bd1 m c b = bd0 m c b :=
  StableHlo.after_of_writes_sub hostOps0 _ hostOps0_writes h
theorem bd3_keep (c : Dev nD) (b : Ref sig .tc) (h : b ∉ hostOps1_W) : bd3 m c b = bd2 m c b :=
  StableHlo.after_of_writes_sub hostOps1 _ hostOps1_writes h
theorem bd6_keep (c : Dev nD) (b : Ref sig .tc) (h : b ∉ hostOps3_W) : bd6 m c b = bd5 m c b :=
  StableHlo.after_of_writes_sub hostOps3 _ hostOps3_writes h
theorem bd9_keep (c : Dev nD) (b : Ref sig .tc) (h : b ∉ hostOps5_W) : bd9 m c b = bd8 m c b :=
  StableHlo.after_of_writes_sub hostOps5 _ hostOps5_writes h
theorem bd11_keep (c : Dev nD) (b : Ref sig .tc) (h : b ∉ hostOps6_W) : bd11 m c b = bd10 m c b :=
  StableHlo.after_of_writes_sub hostOps6 _ hostOps6_writes h
theorem bd12_keep (c : Dev nD) (b : Ref sig .tc) (h : b ∉ hostOps6_1_W) : bd12 m c b = bd11 m c b :=
  StableHlo.after_of_writes_sub hostOps6_1 _ hostOps6_1_writes h
theorem bd13_keep (c : Dev nD) (b : Ref sig .tc) (h : b ∉ hostOps6_2_W) : bd13 m c b = bd12 m c b :=
  StableHlo.after_of_writes_sub hostOps6_2 _ hostOps6_2_writes h

/-! ## No item changes an argument array -/

theorem bd13_main_arg0 (c : Dev nD) : bd13 m c main_arg0 = m ((c : Thread nD τ).loc main_arg0) :=
  (bd13_keep m c main_arg0 (by decide)).trans <| (bd12_keep m c main_arg0 (by decide)).trans <| (bd11_keep m c main_arg0 (by decide)).trans <| (bd10_keep m c main_arg0 (by decide)).trans <| (bd9_keep m c main_arg0 (by decide)).trans <| (bd8_keep m c main_arg0 (by decide)).trans <| (bd7_keep m c main_arg0 (by decide)).trans <| (bd6_keep m c main_arg0 (by decide)).trans <| (bd5_keep m c main_arg0 (by decide)).trans <| (bd4_keep m c main_arg0 (by decide)).trans <| (bd3_keep m c main_arg0 (by decide)).trans <| (bd2_keep m c main_arg0 (by decide)).trans <| (bd1_keep m c main_arg0 (by decide)).trans rfl
theorem bd13_main_arg1 (c : Dev nD) : bd13 m c main_arg1 = m ((c : Thread nD τ).loc main_arg1) :=
  (bd13_keep m c main_arg1 (by decide)).trans <| (bd12_keep m c main_arg1 (by decide)).trans <| (bd11_keep m c main_arg1 (by decide)).trans <| (bd10_keep m c main_arg1 (by decide)).trans <| (bd9_keep m c main_arg1 (by decide)).trans <| (bd8_keep m c main_arg1 (by decide)).trans <| (bd7_keep m c main_arg1 (by decide)).trans <| (bd6_keep m c main_arg1 (by decide)).trans <| (bd5_keep m c main_arg1 (by decide)).trans <| (bd4_keep m c main_arg1 (by decide)).trans <| (bd3_keep m c main_arg1 (by decide)).trans <| (bd2_keep m c main_arg1 (by decide)).trans <| (bd1_keep m c main_arg1 (by decide)).trans rfl
theorem bd13_main_arg2 (c : Dev nD) : bd13 m c main_arg2 = m ((c : Thread nD τ).loc main_arg2) :=
  (bd13_keep m c main_arg2 (by decide)).trans <| (bd12_keep m c main_arg2 (by decide)).trans <| (bd11_keep m c main_arg2 (by decide)).trans <| (bd10_keep m c main_arg2 (by decide)).trans <| (bd9_keep m c main_arg2 (by decide)).trans <| (bd8_keep m c main_arg2 (by decide)).trans <| (bd7_keep m c main_arg2 (by decide)).trans <| (bd6_keep m c main_arg2 (by decide)).trans <| (bd5_keep m c main_arg2 (by decide)).trans <| (bd4_keep m c main_arg2 (by decide)).trans <| (bd3_keep m c main_arg2 (by decide)).trans <| (bd2_keep m c main_arg2 (by decide)).trans <| (bd1_keep m c main_arg2 (by decide)).trans rfl
theorem bd13_main_arg3 (c : Dev nD) : bd13 m c main_arg3 = m ((c : Thread nD τ).loc main_arg3) :=
  (bd13_keep m c main_arg3 (by decide)).trans <| (bd12_keep m c main_arg3 (by decide)).trans <| (bd11_keep m c main_arg3 (by decide)).trans <| (bd10_keep m c main_arg3 (by decide)).trans <| (bd9_keep m c main_arg3 (by decide)).trans <| (bd8_keep m c main_arg3 (by decide)).trans <| (bd7_keep m c main_arg3 (by decide)).trans <| (bd6_keep m c main_arg3 (by decide)).trans <| (bd5_keep m c main_arg3 (by decide)).trans <| (bd4_keep m c main_arg3 (by decide)).trans <| (bd3_keep m c main_arg3 (by decide)).trans <| (bd2_keep m c main_arg3 (by decide)).trans <| (bd1_keep m c main_arg3 (by decide)).trans rfl
theorem bd13_main_arg4 (c : Dev nD) : bd13 m c main_arg4 = m ((c : Thread nD τ).loc main_arg4) :=
  (bd13_keep m c main_arg4 (by decide)).trans <| (bd12_keep m c main_arg4 (by decide)).trans <| (bd11_keep m c main_arg4 (by decide)).trans <| (bd10_keep m c main_arg4 (by decide)).trans <| (bd9_keep m c main_arg4 (by decide)).trans <| (bd8_keep m c main_arg4 (by decide)).trans <| (bd7_keep m c main_arg4 (by decide)).trans <| (bd6_keep m c main_arg4 (by decide)).trans <| (bd5_keep m c main_arg4 (by decide)).trans <| (bd4_keep m c main_arg4 (by decide)).trans <| (bd3_keep m c main_arg4 (by decide)).trans <| (bd2_keep m c main_arg4 (by decide)).trans <| (bd1_keep m c main_arg4 (by decide)).trans rfl
theorem bd13_main_arg5 (c : Dev nD) : bd13 m c main_arg5 = m ((c : Thread nD τ).loc main_arg5) :=
  (bd13_keep m c main_arg5 (by decide)).trans <| (bd12_keep m c main_arg5 (by decide)).trans <| (bd11_keep m c main_arg5 (by decide)).trans <| (bd10_keep m c main_arg5 (by decide)).trans <| (bd9_keep m c main_arg5 (by decide)).trans <| (bd8_keep m c main_arg5 (by decide)).trans <| (bd7_keep m c main_arg5 (by decide)).trans <| (bd6_keep m c main_arg5 (by decide)).trans <| (bd5_keep m c main_arg5 (by decide)).trans <| (bd4_keep m c main_arg5 (by decide)).trans <| (bd3_keep m c main_arg5 (by decide)).trans <| (bd2_keep m c main_arg5 (by decide)).trans <| (bd1_keep m c main_arg5 (by decide)).trans rfl
theorem bd13_main_arg6 (c : Dev nD) : bd13 m c main_arg6 = m ((c : Thread nD τ).loc main_arg6) :=
  (bd13_keep m c main_arg6 (by decide)).trans <| (bd12_keep m c main_arg6 (by decide)).trans <| (bd11_keep m c main_arg6 (by decide)).trans <| (bd10_keep m c main_arg6 (by decide)).trans <| (bd9_keep m c main_arg6 (by decide)).trans <| (bd8_keep m c main_arg6 (by decide)).trans <| (bd7_keep m c main_arg6 (by decide)).trans <| (bd6_keep m c main_arg6 (by decide)).trans <| (bd5_keep m c main_arg6 (by decide)).trans <| (bd4_keep m c main_arg6 (by decide)).trans <| (bd3_keep m c main_arg6 (by decide)).trans <| (bd2_keep m c main_arg6 (by decide)).trans <| (bd1_keep m c main_arg6 (by decide)).trans rfl
theorem bd13_main_arg7 (c : Dev nD) : bd13 m c main_arg7 = m ((c : Thread nD τ).loc main_arg7) :=
  (bd13_keep m c main_arg7 (by decide)).trans <| (bd12_keep m c main_arg7 (by decide)).trans <| (bd11_keep m c main_arg7 (by decide)).trans <| (bd10_keep m c main_arg7 (by decide)).trans <| (bd9_keep m c main_arg7 (by decide)).trans <| (bd8_keep m c main_arg7 (by decide)).trans <| (bd7_keep m c main_arg7 (by decide)).trans <| (bd6_keep m c main_arg7 (by decide)).trans <| (bd5_keep m c main_arg7 (by decide)).trans <| (bd4_keep m c main_arg7 (by decide)).trans <| (bd3_keep m c main_arg7 (by decide)).trans <| (bd2_keep m c main_arg7 (by decide)).trans <| (bd1_keep m c main_arg7 (by decide)).trans rfl
theorem bd13_main_arg8 (c : Dev nD) : bd13 m c main_arg8 = m ((c : Thread nD τ).loc main_arg8) :=
  (bd13_keep m c main_arg8 (by decide)).trans <| (bd12_keep m c main_arg8 (by decide)).trans <| (bd11_keep m c main_arg8 (by decide)).trans <| (bd10_keep m c main_arg8 (by decide)).trans <| (bd9_keep m c main_arg8 (by decide)).trans <| (bd8_keep m c main_arg8 (by decide)).trans <| (bd7_keep m c main_arg8 (by decide)).trans <| (bd6_keep m c main_arg8 (by decide)).trans <| (bd5_keep m c main_arg8 (by decide)).trans <| (bd4_keep m c main_arg8 (by decide)).trans <| (bd3_keep m c main_arg8 (by decide)).trans <| (bd2_keep m c main_arg8 (by decide)).trans <| (bd1_keep m c main_arg8 (by decide)).trans rfl
theorem bd13_main_arg9 (c : Dev nD) : bd13 m c main_arg9 = m ((c : Thread nD τ).loc main_arg9) :=
  (bd13_keep m c main_arg9 (by decide)).trans <| (bd12_keep m c main_arg9 (by decide)).trans <| (bd11_keep m c main_arg9 (by decide)).trans <| (bd10_keep m c main_arg9 (by decide)).trans <| (bd9_keep m c main_arg9 (by decide)).trans <| (bd8_keep m c main_arg9 (by decide)).trans <| (bd7_keep m c main_arg9 (by decide)).trans <| (bd6_keep m c main_arg9 (by decide)).trans <| (bd5_keep m c main_arg9 (by decide)).trans <| (bd4_keep m c main_arg9 (by decide)).trans <| (bd3_keep m c main_arg9 (by decide)).trans <| (bd2_keep m c main_arg9 (by decide)).trans <| (bd1_keep m c main_arg9 (by decide)).trans rfl
theorem bd13_main_arg10 (c : Dev nD) : bd13 m c main_arg10 = m ((c : Thread nD τ).loc main_arg10) :=
  (bd13_keep m c main_arg10 (by decide)).trans <| (bd12_keep m c main_arg10 (by decide)).trans <| (bd11_keep m c main_arg10 (by decide)).trans <| (bd10_keep m c main_arg10 (by decide)).trans <| (bd9_keep m c main_arg10 (by decide)).trans <| (bd8_keep m c main_arg10 (by decide)).trans <| (bd7_keep m c main_arg10 (by decide)).trans <| (bd6_keep m c main_arg10 (by decide)).trans <| (bd5_keep m c main_arg10 (by decide)).trans <| (bd4_keep m c main_arg10 (by decide)).trans <| (bd3_keep m c main_arg10 (by decide)).trans <| (bd2_keep m c main_arg10 (by decide)).trans <| (bd1_keep m c main_arg10 (by decide)).trans rfl
theorem bd13_main_arg11 (c : Dev nD) : bd13 m c main_arg11 = m ((c : Thread nD τ).loc main_arg11) :=
  (bd13_keep m c main_arg11 (by decide)).trans <| (bd12_keep m c main_arg11 (by decide)).trans <| (bd11_keep m c main_arg11 (by decide)).trans <| (bd10_keep m c main_arg11 (by decide)).trans <| (bd9_keep m c main_arg11 (by decide)).trans <| (bd8_keep m c main_arg11 (by decide)).trans <| (bd7_keep m c main_arg11 (by decide)).trans <| (bd6_keep m c main_arg11 (by decide)).trans <| (bd5_keep m c main_arg11 (by decide)).trans <| (bd4_keep m c main_arg11 (by decide)).trans <| (bd3_keep m c main_arg11 (by decide)).trans <| (bd2_keep m c main_arg11 (by decide)).trans <| (bd1_keep m c main_arg11 (by decide)).trans rfl
theorem bd13_main_arg12 (c : Dev nD) : bd13 m c main_arg12 = m ((c : Thread nD τ).loc main_arg12) :=
  (bd13_keep m c main_arg12 (by decide)).trans <| (bd12_keep m c main_arg12 (by decide)).trans <| (bd11_keep m c main_arg12 (by decide)).trans <| (bd10_keep m c main_arg12 (by decide)).trans <| (bd9_keep m c main_arg12 (by decide)).trans <| (bd8_keep m c main_arg12 (by decide)).trans <| (bd7_keep m c main_arg12 (by decide)).trans <| (bd6_keep m c main_arg12 (by decide)).trans <| (bd5_keep m c main_arg12 (by decide)).trans <| (bd4_keep m c main_arg12 (by decide)).trans <| (bd3_keep m c main_arg12 (by decide)).trans <| (bd2_keep m c main_arg12 (by decide)).trans <| (bd1_keep m c main_arg12 (by decide)).trans rfl

/-! ## The proof data family and the thread state -/

/-- Every pipeline's proof data, each at the contents its call is entered from. -/
def pdats : (p : Fin 6) → (c : Dev nD) → Dat τ (Elt F) Unit ℕ (UR sig nD τ) ℕ (Pipeline.pin (pcfgs (F := F)) adm p) c
  | ⟨0, _⟩ => fun c => dat0 (rd1 m) c
  | ⟨1, _⟩ => fun c => dat1 (rd3 m) c
  | ⟨2, _⟩ => fun c => dat2 (rd4 m) c
  | ⟨3, _⟩ => fun c => dat3 (rd6 m) c
  | ⟨4, _⟩ => fun c => dat4 (rd7 m) c
  | ⟨5, _⟩ => fun c => dat5 (rd9 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (bd13 m c) ∗ ∃ r, prngReg c r)

/-! ## The pipelines as segments -/

set_option backward.isDefEq.respectTransparency.types false in
/-- Pipeline 0 over the thread state: entered from every unscoped buffer at boundary 1's contents, left at boundary
    2's. Its arrays are split out of the unscoped buffers and put back at what the pipeline leaves; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd1 m) c).loose
  hwaits := Pipeline.hwaits_of_owed_zero _ _ _ _ L lv 0 fun _ _ => rfl
  pre c := iprop(StableHlo.held (c : Thread nD τ) (Pipeline.ucRefs τ sig) (bd1 m c) ∗ R c)
  post c := iprop(StableHlo.held (c : Thread nD τ) (Pipeline.ucRefs τ sig) (bd2 m c) ∗ R c)
  X c := iprop(∃ r, prngReg c r)
  Y c := iprop(∃ r, prngReg c r)
  Z c := Pipeline.unscopedRest (Ix := Unit) (Name := ℕ) (U := UR sig nD τ) (Lvl := ℕ) spec0 c (rd1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd1 m c) (rd2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at boundary 3's contents, left at boundary
    4's. Its arrays are split out of the unscoped buffers and put back at what the pipeline leaves; the generator
    register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd3 m) c).loose
  hwaits := Pipeline.hwaits_of_owed_zero _ _ _ _ L lv 1 fun _ _ => rfl
  pre c := iprop(StableHlo.held (c : Thread nD τ) (Pipeline.ucRefs τ sig) (bd3 m c) ∗ R c)
  post c := iprop(StableHlo.held (c : Thread nD τ) (Pipeline.ucRefs τ sig) (bd4 m c) ∗ R c)
  X c := iprop(∃ r, prngReg c r)
  Y c := iprop(∃ r, prngReg c r)
  Z c := Pipeline.unscopedRest (Ix := Unit) (Name := ℕ) (U := UR sig nD τ) (Lvl := ℕ) spec1 c (rd3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd3 m c) (rd4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at boundary 4's contents, left at boundary
    5's. Its arrays are split out of the unscoped buffers and put back at what the pipeline leaves; the generator
    register goes into the invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd4 m) c).loose
  hwaits := Pipeline.hwaits_of_owed_zero _ _ _ _ L lv 2 fun _ _ => rfl
  pre c := iprop(StableHlo.held (c : Thread nD τ) (Pipeline.ucRefs τ sig) (bd4 m c) ∗ R c)
  post c := iprop(StableHlo.held (c : Thread nD τ) (Pipeline.ucRefs τ sig) (bd5 m c) ∗ R c)
  X c := iprop(∃ r, prngReg c r)
  Y c := iprop(∃ r, prngReg c r)
  Z c := Pipeline.unscopedRest (Ix := Unit) (Name := ℕ) (U := UR sig nD τ) (Lvl := ℕ) spec2 c (rd4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd4 m c) (rd5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at boundary 6's contents, left at boundary
    7's. Its arrays are split out of the unscoped buffers and put back at what the pipeline leaves; the generator
    register goes into the invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd6 m) c).loose
  hwaits := Pipeline.hwaits_of_owed_zero _ _ _ _ L lv 3 fun _ _ => rfl
  pre c := iprop(StableHlo.held (c : Thread nD τ) (Pipeline.ucRefs τ sig) (bd6 m c) ∗ R c)
  post c := iprop(StableHlo.held (c : Thread nD τ) (Pipeline.ucRefs τ sig) (bd7 m c) ∗ R c)
  X c := iprop(∃ r, prngReg c r)
  Y c := iprop(∃ r, prngReg c r)
  Z c := Pipeline.unscopedRest (Ix := Unit) (Name := ℕ) (U := UR sig nD τ) (Lvl := ℕ) spec3 c (rd6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd6 m c) (rd7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 4 over the thread state: entered from every unscoped buffer at boundary 7's contents, left at boundary
    8's. Its arrays are split out of the unscoped buffers and put back at what the pipeline leaves; the generator
    register goes into the invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd7 m) c).loose
  hwaits := Pipeline.hwaits_of_owed_zero _ _ _ _ L lv 4 fun _ _ => rfl
  pre c := iprop(StableHlo.held (c : Thread nD τ) (Pipeline.ucRefs τ sig) (bd7 m c) ∗ R c)
  post c := iprop(StableHlo.held (c : Thread nD τ) (Pipeline.ucRefs τ sig) (bd8 m c) ∗ R c)
  X c := iprop(∃ r, prngReg c r)
  Y c := iprop(∃ r, prngReg c r)
  Z c := Pipeline.unscopedRest (Ix := Unit) (Name := ℕ) (U := UR sig nD τ) (Lvl := ℕ) spec4 c (rd7 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd7 m c) (rd8 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 5 over the thread state: entered from every unscoped buffer at boundary 9's contents, left at boundary
    10's. Its arrays are split out of the unscoped buffers and put back at what the pipeline leaves; the generator
    register goes into the invariant and comes out; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd9 m) c).loose
  hwaits := Pipeline.hwaits_of_owed_zero _ _ _ _ L lv 5 fun _ _ => rfl
  pre c := iprop(StableHlo.held (c : Thread nD τ) (Pipeline.ucRefs τ sig) (bd9 m c) ∗ R c)
  post c := iprop(StableHlo.held (c : Thread nD τ) (Pipeline.ucRefs τ sig) (bd10 m c) ∗ R c)
  X c := iprop(∃ r, prngReg c r)
  Y c := iprop(∃ r, prngReg c r)
  Z c := Pipeline.unscopedRest (Ix := Unit) (Name := ℕ) (U := UR sig nD τ) (Lvl := ℕ) spec5 c (rd9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd9 m c) (rd10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The thirteen items in order. -/
abbrev items : List (Pipeline.Seg (pcfgs (F := F)) adm (pdats m) () defs₀ 𝒱₀ L lv) :=
  [ .host (hseg hostOps0 hostOps0_sub hostOps0_fresh (bd0 m)),
    .region (reg0 m),
    .host (hseg hostOps1 hostOps1_sub hostOps1_fresh (bd2 m)),
    .region (reg1 m),
    .region (reg2 m),
    .host (hseg hostOps3 hostOps3_sub hostOps3_fresh (bd5 m)),
    .region (reg3 m),
    .region (reg4 m),
    .host (hseg hostOps5 hostOps5_sub hostOps5_fresh (bd8 m)),
    .region (reg5 m),
    .host (hseg hostOps6 hostOps6_sub hostOps6_fresh (bd10 m)),
    .host (hseg hostOps6_1 hostOps6_1_sub hostOps6_1_fresh (bd11 m)),
    .host (hseg hostOps6_2 hostOps6_2_sub hostOps6_2_fresh (bd12 m)) ]

set_option backward.isDefEq.respectTransparency.types false in
/-- Every weakly fair execution from memory `m` with all counters at zero terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = bd13 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          StableHlo.seq hostOps6_1,
          StableHlo.seq hostOps6_2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bd0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (bd13 m c) ∗ R c)
        ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (bd0 m c)
        from Pipeline.unscopedBufs_held c (bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bd13 m c b)
    (hfin := fun c s' => by
      iintro ⟨⟨Hh, -⟩, HSI⟩
      unfold StableHlo.held
      imodintro
      iapply (pointsTo_read_all (Pipeline.ucRefs τ sig) (fun b => (((c : Thread nD τ)).1, b)) (bd13 m c) s')
      isplitl [Hh] <;> iassumption)
    (hQ := fun s h c => h c)

/-- The frame: every weakly fair execution terminates, nothing faulting, and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (bd13_main_arg0 m c),
     (h c _ (mem_uc main_arg1 (by decide))).trans (bd13_main_arg1 m c),
     (h c _ (mem_uc main_arg2 (by decide))).trans (bd13_main_arg2 m c),
     (h c _ (mem_uc main_arg3 (by decide))).trans (bd13_main_arg3 m c),
     (h c _ (mem_uc main_arg4 (by decide))).trans (bd13_main_arg4 m c),
     (h c _ (mem_uc main_arg5 (by decide))).trans (bd13_main_arg5 m c),
     (h c _ (mem_uc main_arg6 (by decide))).trans (bd13_main_arg6 m c),
     (h c _ (mem_uc main_arg7 (by decide))).trans (bd13_main_arg7 m c),
     (h c _ (mem_uc main_arg8 (by decide))).trans (bd13_main_arg8 m c),
     (h c _ (mem_uc main_arg9 (by decide))).trans (bd13_main_arg9 m c),
     (h c _ (mem_uc main_arg10 (by decide))).trans (bd13_main_arg10 m c),
     (h c _ (mem_uc main_arg11 (by decide))).trans (bd13_main_arg11 m c),
     (h c _ (mem_uc main_arg12 (by decide))).trans (bd13_main_arg12 m c)⟩)
    (run_all m ρ)

end Cert.KernelIdeal.Frame

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«109645_j46763603919526_2_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.Bridge.Out0.lean ====
/-
  What pipeline 0 leaves in its output array `main_v27`: the matrix product of its two input arrays as the call finds
  them. Block `t` of the left array is rows 4096·t … 4096·t + 4095; the right array is one block; the body's value is the
  product of its two blocks (narrowing to bf16 is the identity on exact values, the accumulator starts at zero), which
  is that band of rows of the whole product; and the blocks of the output cover it.
-/
import proofs.«109645_j46763603919526_2_alg».proof.Proof.IdealFrame.Region0
import proofs.«109645_j46763603919526_2_alg».proof.Proof.LibMatProd

set_option maxRecDepth 16384

noncomputable section

namespace Cert.KernelIdeal.Bridge

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.LibMatProd

/-- The body's value is the matrix product of its two loaded blocks. -/
theorem pay0_eq (x : Vec Ideal S4096x128 .f32) (w : Vec Ideal S128x8 .f32) : k0_pay1 x w = matProd x w := by
  unfold k0_pay1
  exact matmul_eq dot_S4096x128_S128x8_S4096x8_1_0_0_1_n_n rfl rfl rfl rfl rfl rfl x w bitsLt_bf16_f32

/-- The index maps, decided over the grid: point `t` stages block (t, 0) of the left array and of the output, and
    block (0, 0) of the right array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays. -/
theorem flushed0_eq (c : Dev nD) (t : Fin cfg0.N) :
    (dat0 V c).flushed 2 t = ((cfg0.win 2).blk t).view.read (Elt Ideal) (matProd (M := 524288) (K := 128) (N := 8) (V c main_arg0) (V c main_arg3)) := by
  show (cfg0.win 2).cut (grid0.coords t) ((dat0 V c).after 2 t) = _
  rw [after0_2]
  unfold out0_2
  rw [View.canon_unit_zero zeros0]
  simp only [View.ld_unit_zero (S := S4096x128) zeros0, View.ld_unit_zero (S := S128x8) zeros0]
  rw [pay0_eq]
  obtain ⟨e0, e1, e2, e3, e4, e5⟩ := idx_facts0 t
  funext j
  show matProd (M := 4096) (K := 128) (N := 8) (iblk0 V c 0 t) (iblk0 V c 1 t) j
    = matProd (M := 524288) (K := 128) (N := 8) (V c main_arg0) (V c main_arg3) (((cfg0.win 2).blk t).view.emb j)
  refine matProd_rows (M := 524288) (K := 128) (N := 8) (T := 4096) (V c main_arg0) (V c main_arg3) (iblk0 V c 0 t) (iblk0 V c 1 t) (t.val * 4096) ?_ ?_ j _ ?_ ?_
  · intro p k hp
    show V c main_arg0 (((cfg0.win 0).blk t).view.emb (ix2 p k)) = V c main_arg0 (ix2 ⟨t.val * 4096 + p.val, hp⟩ k)
    refine congrArg (V c main_arg0) (funext fun a => Fin.ext ?_)
    match a with
    | ⟨0, _⟩ => show win0_0.index t (0 : Fin 2) * 4096 + 1 * p.val = t.val * 4096 + p.val; omega
    | ⟨1, _⟩ => show win0_0.index t (1 : Fin 2) * 128 + 1 * k.val = k.val; omega
  · intro z
    show V c main_arg3 (((cfg0.win 1).blk t).view.emb z) = V c main_arg3 z
    refine congrArg (V c main_arg3) (funext fun a => Fin.ext ?_)
    match a with
    | ⟨0, _⟩ => show win0_1.index t (0 : Fin 2) * 128 + 1 * (z 0).val = (z 0).val; omega
    | ⟨1, _⟩ => show win0_1.index t (1 : Fin 2) * 8 + 1 * (z 1).val = (z 1).val; omega
  · show win0_2.index t (0 : Fin 2) * 4096 + 1 * (j 0).val = t.val * 4096 + (j 0).val; omega
  · show win0_2.index t (1 : Fin 2) * 8 + 1 * (j 1).val = (j 1).val; omega

/-- An index of the output array is in point `t`'s block iff each coordinate is in the block's range on its axis. -/
theorem mem_blk0 (t : Fin cfg0.N) (i : S524288x8.Idx) :
    i ∈ ((cfg0.win 2).blk t).view.set ↔ ∀ a : Fin 2, win0_2.index t a * S4096x8.size a ≤ (i a).val ∧ (i a).val < win0_2.index t a * S4096x8.size a + S4096x8.size a := by
  show i ∈ ((View.whole main_v27).slice (win0_2.rect t)).set ↔ _
  rw [View.set_slice_whole, Rect.mem_set_unit]
  exact Iff.rfl

/-- Every row of the output array lies in the block of the point numbered by the row divided by 4096. -/
theorem cover0 (i : S524288x8.Idx) : ∃ t : Fin cfg0.N, (cfg0.win 2).flush t = true ∧ i ∈ ((cfg0.win 2).blk t).view.set := by
  have hi0 : (i 0).val < 524288 := (i 0).isLt
  have hi1 : (i 1).val < 8 := (i 1).isLt
  have ht : (i 0).val / 4096 < cfg0.N := by show _ < grid0.N; rw [N_0]; omega
  refine ⟨⟨(i 0).val / 4096, ht⟩, flush0_2 _, ?_⟩
  rw [mem_blk0]
  have e := idx_facts0 ⟨(i 0).val / 4096, ht⟩
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    have e0 : win0_2.index ⟨(i 0).val / 4096, ht⟩ (0 : Fin 2) = (i 0).val / 4096 := e.2.2.2.2.1
    omega
  | ⟨1, _⟩ =>
    show win0_2.index ⟨(i 0).val / 4096, ht⟩ (1 : Fin 2) * 8 ≤ (i 1).val ∧ (i 1).val < win0_2.index ⟨(i 0).val / 4096, ht⟩ (1 : Fin 2) * 8 + 8
    have e1 : win0_2.index ⟨(i 0).val / 4096, ht⟩ (1 : Fin 2) = 0 := e.2.2.2.2.2
    omega

/-- The output array after the pipeline: the product of the two input arrays. -/
theorem final0 (c : Dev nD) : (dat0 V c).arrAt 2 cfg0.N = matProd (M := 524288) (K := 128) (N := 8) (V c main_arg0) (V c main_arg3) :=
  (dat0 V c).arrAt_eq_of_cover 2 (matProd (M := 524288) (K := 128) (N := 8) (V c main_arg0) (V c main_arg3)) (fun t _ => flushed0_eq V c t) cover0

end Cert.KernelIdeal.Bridge

end
-- ==== Proof.LibRowScale.lean ====
/-
  A matrix scaled row by row: entry (p, q) of `rowScale x s` is x (p, q) · s (p, 0), where s is a one-column matrix.
  Two spellings of it: a vector unit's product of x with the column repeated along the rows, and a host product of x
  with the column broadcast along the rows. A band of consecutive rows of a row-scaled matrix is the band of x scaled
  by the band of s. Also: a vector viewed as one column by a reshape is the vector broadcast into one column, and a
  vector viewed as one row by a reshape is the vector broadcast into one row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowScale

open Idealize.ShloMosaic Idealize.ShloMosaic.ValueIdx

/-- Entry (p, q) of x scaled row by row by the one-column s: x (p, q) · s (p, 0). -/
def rowScale {M N : ℕ} (x : FVec Ideal ⟨2, ![M, N]⟩ .f32) (s : FVec Ideal ⟨2, ![M, 1]⟩ .f32) : FVec Ideal ⟨2, ![M, N]⟩ .f32 :=
  fun i => x i * s (ix2 (n0 := M) (n1 := 1) (i 0) (0 : Fin 1))

theorem rowScale_apply {M N : ℕ} (x : FVec Ideal ⟨2, ![M, N]⟩ .f32) (s : FVec Ideal ⟨2, ![M, 1]⟩ .f32) (p : Fin M) (q : Fin N) :
    rowScale x s (ix2 p q) = x (ix2 p q) * s (ix2 p (0 : Fin 1)) := rfl

/-- A one-column matrix repeated along the rows reads, at (p, c), its entry (p, 0). -/
theorem broadcastTo_col_apply {M N : ℕ} (v : FVec Ideal ⟨2, ![M, 1]⟩ .f32) (h : (⟨2, ![M, 1]⟩ : Shape).Broadcasts ⟨2, ![M, N]⟩)
    (p : Fin M) (c : Fin N) : broadcastTo ⟨2, ![M, N]⟩ v h (ix2 p c) = v (ix2 p (0 : Fin 1)) := by
  refine broadcastTo_apply v h (ix2 p c) (ix2 p (0 : Fin 1)) fun ax => ?_
  match ax with
  | ⟨0, _⟩ =>
    show p.val = if M = 1 then 0 else p.val
    split
    · have := p.isLt; omega
    · rfl
  | ⟨1, _⟩ => rfl

/-- A one-column matrix broadcast along the rows by the host reads, at (p, c), its entry (p, 0). -/
theorem broadcastInDim_col_apply {M N : ℕ} (v : FVec Ideal ⟨2, ![M, 1]⟩ .f32)
    (h : (⟨2, ![M, 1]⟩ : Shape).BroadcastsInDim ⟨2, ![M, N]⟩ ![0, 1]) (p : Fin M) (c : Fin N) :
    broadcastInDim ⟨2, ![M, N]⟩ ![0, 1] h v (ix2 p c) = v (ix2 p (0 : Fin 1)) :=
  broadcastInDim_apply _ h v _ (ix2 p (0 : Fin 1)) (fun ax => match ax with
    | ⟨0, _⟩ => by
      show p.val = if M = 1 then 0 else p.val
      split
      · have := p.isLt; omega
      · rfl
    | ⟨1, _⟩ => by
      show (0 : ℕ) = if (1 : ℕ) = 1 then 0 else c.val
      rw [if_pos rfl])

/-- The vector unit's spelling: x and s each through an identity re-lay, s repeated along the rows, the product. -/
theorem mul_broadcastTo_eq {M N : ℕ} (x : FVec Ideal ⟨2, ![M, N]⟩ .f32) (s : FVec Ideal ⟨2, ![M, 1]⟩ .f32)
    (h1 : (⟨2, ![M, N]⟩ : Shape).ShapeCasts ⟨2, ![M, N]⟩) (h2 : (⟨2, ![M, 1]⟩ : Shape).ShapeCasts ⟨2, ![M, 1]⟩)
    (hb : (⟨2, ![M, 1]⟩ : Shape).Broadcasts ⟨2, ![M, N]⟩) :
    mulf (shapeCast ⟨2, ![M, N]⟩ x h1) (broadcastTo ⟨2, ![M, N]⟩ (shapeCast ⟨2, ![M, 1]⟩ s h2) hb) = rowScale x s := by
  funext j
  obtain ⟨p, q, rfl⟩ : ∃ (p : Fin M) (q : Fin N), j = ix2 p q := ⟨j 0, j 1, eq_ix2 j⟩
  rw [shapeCast_self, shapeCast_self, mulf_apply, broadcastTo_col_apply, rowScale_apply]

/-- The host's spelling: the product of x with s broadcast along the rows. -/
theorem mul_broadcastInDim_eq {M N : ℕ} (x : FVec Ideal ⟨2, ![M, N]⟩ .f32) (s : FVec Ideal ⟨2, ![M, 1]⟩ .f32)
    (hb : (⟨2, ![M, 1]⟩ : Shape).BroadcastsInDim ⟨2, ![M, N]⟩ ![0, 1]) :
    mulf x (broadcastInDim ⟨2, ![M, N]⟩ ![0, 1] hb s) = rowScale x s := by
  funext j
  obtain ⟨p, q, rfl⟩ : ∃ (p : Fin M) (q : Fin N), j = ix2 p q := ⟨j 0, j 1, eq_ix2 j⟩
  rw [mulf_apply, broadcastInDim_col_apply, rowScale_apply]

/-- Rows r, …, r + T − 1 of a row-scaled matrix: when x holds those rows of X and s those rows of S, the entry of
    `rowScale x s` at y is the entry of `rowScale X S` at the index whose row is r plus y's row and whose column is y's. -/
theorem rowScale_rows {M N T : ℕ} (X : FVec Ideal ⟨2, ![M, N]⟩ .f32) (S : FVec Ideal ⟨2, ![M, 1]⟩ .f32)
    (x : FVec Ideal ⟨2, ![T, N]⟩ .f32) (s : FVec Ideal ⟨2, ![T, 1]⟩ .f32) (r : ℕ)
    (hx : ∀ (p : Fin T) (q : Fin N) (hp : r + p.val < M), x (ix2 p q) = X (ix2 ⟨r + p.val, hp⟩ q))
    (hs : ∀ (p : Fin T) (hp : r + p.val < M), s (ix2 p (0 : Fin 1)) = S (ix2 ⟨r + p.val, hp⟩ (0 : Fin 1)))
    (y : (⟨2, ![T, N]⟩ : Shape).Idx) (i : (⟨2, ![M, N]⟩ : Shape).Idx)
    (hi0 : (i 0).val = r + (y 0).val) (hi1 : (i 1).val = (y 1).val) :
    rowScale x s y = rowScale X S i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [rowScale_apply, rowScale_apply, hx p q' (h0 ▸ p'.isLt), hs p (h0 ▸ p'.isLt), ← hp']

/-- A vector re-laid as one column is the vector broadcast into one column. -/
theorem col_cast_eq_bcast {a : ℕ} {α : Type} (v : (⟨1, ![a]⟩ : Shape).Idx → α) (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨i, u, rfl⟩ : ∃ (i : Fin a) (u : Fin 1), j = ix2 i u := ⟨j 0, j 1, eq_ix2 j⟩
  have e1 : shapeCast ⟨2, ![a, 1]⟩ v hc (ix2 i u) = v (ix1 i) :=
    shapeCast_apply v hc _ _ (by
      have hu : u.val = 0 := by omega
      rw [Shape.rowMajor_val_two, Shape.rowMajor_val_one]
      show i.val = i.val * 1 + u.val
      rw [hu, Nat.mul_one, Nat.add_zero])
  have e2 : broadcastInDim ⟨2, ![a, 1]⟩ ![0] hb v (ix2 i u) = v (ix1 i) :=
    broadcastInDim_apply _ hb v _ (ix1 i) (fun ax => match ax with
      | ⟨0, _⟩ => by
        show i.val = if a = 1 then 0 else i.val
        split
        · have := i.isLt; omega
        · rfl)
  rw [e1, e2]

/-- A vector re-laid as one row is the vector broadcast into one row. -/
theorem row_cast_eq_bcast {a : ℕ} {α : Type} (v : (⟨1, ![a]⟩ : Shape).Idx → α) (hc : (⟨1, ![a]⟩ : Shape).ShapeCasts ⟨2, ![1, a]⟩)
    (hb : (⟨1, ![a]⟩ : Shape).BroadcastsInDim ⟨2, ![1, a]⟩ ![1]) :
    shapeCast ⟨2, ![1, a]⟩ v hc = broadcastInDim ⟨2, ![1, a]⟩ ![1] hb v := by
  funext j
  obtain ⟨u, i, rfl⟩ : ∃ (u : Fin 1) (i : Fin a), j = ix2 u i := ⟨j 0, j 1, eq_ix2 j⟩
  have e1 : shapeCast ⟨2, ![1, a]⟩ v hc (ix2 u i) = v (ix1 i) :=
    shapeCast_apply v hc _ _ (by
      have hu : u.val = 0 := by omega
      rw [Shape.rowMajor_val_two, Shape.rowMajor_val_one]
      show i.val = u.val * a + i.val
      rw [hu, Nat.zero_mul, Nat.zero_add])
  have e2 : broadcastInDim ⟨2, ![1, a]⟩ ![1] hb v (ix2 u i) = v (ix1 i) :=
    broadcastInDim_apply _ hb v _ (ix1 i) (fun ax => match ax with
      | ⟨0, _⟩ => by
        show i.val = if a = 1 then 0 else i.val
        split
        · have := i.isLt; omega
        · rfl)
  rw [e1, e2]

end Cert.LibRowScale

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«109645_j46763603919526_2_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.LibGcnCombine.lean ====
/-
  One graph-convolution update of the node features: entry (p, q) of `combine A H D B` is
  max (A (p, q) + H (p, q) · D (p, 0) + B (0, q)) 0 — the aggregated messages A, plus the node's own features H scaled
  row by row by the one-column factor D, plus the one-row bias B, clamped below at zero (0 the value of the all-zero
  float word). Two spellings of it: a vector unit's (identity re-lays, the column repeated along the rows, the row
  repeated down the rows, a maximum against the splat zero) and a host's (the column and the row broadcast, a maximum
  against a broadcast scalar zero); for matrices of one column the product with D needs no repetition, and both
  spellings lose it. A band of consecutive rows of it is the same function of the bands of A, H and D.
-/
import proofs.«109645_j46763603919526_2_alg».proof.Proof.LibRowScale
import proofs.«109645_j46763603919526_2_alg».proof.Proof.LibBiasRelu

noncomputable section

namespace Cert.LibGcnCombine

open Idealize.ShloMosaic Idealize.ShloMosaic.ValueIdx Cert.LibRowScale Cert.LibBiasRelu

/-- Entry (p, q): max (A (p, q) + H (p, q) · D (p, 0) + B (0, q)) 0. -/
def combine {M N : ℕ} (A H : FVec Ideal ⟨2, ![M, N]⟩ .f32) (D : FVec Ideal ⟨2, ![M, 1]⟩ .f32) (B : FVec Ideal ⟨2, ![1, N]⟩ .f32) :
    FVec Ideal ⟨2, ![M, N]⟩ .f32 :=
  biasRelu (addf A (rowScale H D)) B

theorem combine_apply {M N : ℕ} (A H : FVec Ideal ⟨2, ![M, N]⟩ .f32) (D : FVec Ideal ⟨2, ![M, 1]⟩ .f32) (B : FVec Ideal ⟨2, ![1, N]⟩ .f32)
    (p : Fin M) (q : Fin N) :
    combine A H D B (ix2 p q)
      = max (A (ix2 p q) + H (ix2 p q) * D (ix2 p (0 : Fin 1)) + B (ix2 (0 : Fin 1) q)) (Ideal.ofBits .f32 0x00000000#32) := rfl

/-- The vector unit's spelling. -/
theorem vector_form {M N : ℕ} (A H : FVec Ideal ⟨2, ![M, N]⟩ .f32) (D : FVec Ideal ⟨2, ![M, 1]⟩ .f32) (B : FVec Ideal ⟨2, ![1, N]⟩ .f32)
    (h1 : (⟨2, ![M, N]⟩ : Shape).ShapeCasts ⟨2, ![M, N]⟩) (h2 : (⟨2, ![M, 1]⟩ : Shape).ShapeCasts ⟨2, ![M, 1]⟩)
    (h3 : (⟨2, ![1, N]⟩ : Shape).ShapeCasts ⟨2, ![1, N]⟩)
    (hd : (⟨2, ![M, 1]⟩ : Shape).Broadcasts ⟨2, ![M, N]⟩) (hb : (⟨2, ![1, N]⟩ : Shape).Broadcasts ⟨2, ![M, N]⟩) :
    maximumf (addf (addf (shapeCast ⟨2, ![M, N]⟩ A h1) (mulf (shapeCast ⟨2, ![M, N]⟩ H h1) (broadcastTo ⟨2, ![M, N]⟩ (shapeCast ⟨2, ![M, 1]⟩ D h2) hd)))
        (broadcastTo ⟨2, ![M, N]⟩ (shapeCast ⟨2, ![1, N]⟩ B h3) hb))
        (broadcast ⟨2, ![M, N]⟩ (Scalar.ofBits (F := Ideal) .f32 0x00000000#32)) = combine A H D B := by
  rw [mul_broadcastTo_eq H D h1 h2 hd, shapeCast_self A h1]
  exact (congrArg (fun z => maximumf (addf z (broadcastTo ⟨2, ![M, N]⟩ (shapeCast ⟨2, ![1, N]⟩ B h3) hb))
      (broadcast ⟨2, ![M, N]⟩ (Scalar.ofBits (F := Ideal) .f32 0x00000000#32))) (shapeCast_self (addf A (rowScale H D)) h1).symm).trans
    (Cert.LibBiasRelu.vector_form (addf A (rowScale H D)) B h1 h3 hb)

/-- The host's spelling. -/
theorem host_form {M N : ℕ} (A H : FVec Ideal ⟨2, ![M, N]⟩ .f32) (D : FVec Ideal ⟨2, ![M, 1]⟩ .f32) (B : FVec Ideal ⟨2, ![1, N]⟩ .f32)
    (hd : (⟨2, ![M, 1]⟩ : Shape).BroadcastsInDim ⟨2, ![M, N]⟩ ![0, 1])
    (hb : (⟨2, ![1, N]⟩ : Shape).BroadcastsInDim ⟨2, ![M, N]⟩ ![0, 1])
    (h0 : (⟨0, ![]⟩ : Shape).BroadcastsInDim ⟨2, ![M, N]⟩ ![]) :
    maximumf (addf (addf A (mulf H (broadcastInDim ⟨2, ![M, N]⟩ ![0, 1] hd D))) (broadcastInDim ⟨2, ![M, N]⟩ ![0, 1] hb B))
        (broadcastInDim ⟨2, ![M, N]⟩ ![] h0 (constant (F := Ideal) ⟨0, ![]⟩ .f32 0x00000000#32)) = combine A H D B := by
  rw [mul_broadcastInDim_eq H D hd]
  exact Cert.LibBiasRelu.host_form (addf A (rowScale H D)) B hb h0

/-- In a matrix of one column, scaling row by row by a one-column factor is the entrywise product. -/
theorem mulf_col_eq {M : ℕ} (H D : FVec Ideal ⟨2, ![M, 1]⟩ .f32) : mulf H D = rowScale H D := by
  funext j
  obtain ⟨p, q, rfl⟩ : ∃ (p : Fin M) (q : Fin 1), j = ix2 p q := ⟨j 0, j 1, eq_ix2 j⟩
  obtain rfl : q = 0 := Subsingleton.elim _ _
  rw [mulf_apply, rowScale_apply]

/-- The vector unit's spelling for matrices of one column. -/
theorem vector_form_col {M : ℕ} (A H D : FVec Ideal ⟨2, ![M, 1]⟩ .f32) (B : FVec Ideal ⟨2, ![1, 1]⟩ .f32)
    (h1 : (⟨2, ![M, 1]⟩ : Shape).ShapeCasts ⟨2, ![M, 1]⟩) (h3 : (⟨2, ![1, 1]⟩ : Shape).ShapeCasts ⟨2, ![1, 1]⟩)
    (hb : (⟨2, ![1, 1]⟩ : Shape).Broadcasts ⟨2, ![M, 1]⟩) :
    maximumf (addf (addf (shapeCast ⟨2, ![M, 1]⟩ A h1) (mulf (shapeCast ⟨2, ![M, 1]⟩ H h1) (shapeCast ⟨2, ![M, 1]⟩ D h1)))
        (broadcastTo ⟨2, ![M, 1]⟩ (shapeCast ⟨2, ![1, 1]⟩ B h3) hb))
        (broadcast ⟨2, ![M, 1]⟩ (Scalar.ofBits (F := Ideal) .f32 0x00000000#32)) = combine A H D B := by
  rw [shapeCast_self H h1, shapeCast_self D h1, mulf_col_eq H D, shapeCast_self A h1]
  exact (congrArg (fun z => maximumf (addf z (broadcastTo ⟨2, ![M, 1]⟩ (shapeCast ⟨2, ![1, 1]⟩ B h3) hb))
      (broadcast ⟨2, ![M, 1]⟩ (Scalar.ofBits (F := Ideal) .f32 0x00000000#32))) (shapeCast_self (addf A (rowScale H D)) h1).symm).trans
    (Cert.LibBiasRelu.vector_form (addf A (rowScale H D)) B h1 h3 hb)

/-- The host's spelling for matrices of one column. -/
theorem host_form_col {M : ℕ} (A H D : FVec Ideal ⟨2, ![M, 1]⟩ .f32) (B : FVec Ideal ⟨2, ![1, 1]⟩ .f32)
    (hb : (⟨2, ![1, 1]⟩ : Shape).BroadcastsInDim ⟨2, ![M, 1]⟩ ![0, 1])
    (h0 : (⟨0, ![]⟩ : Shape).BroadcastsInDim ⟨2, ![M, 1]⟩ ![]) :
    maximumf (addf (addf A (mulf H D)) (broadcastInDim ⟨2, ![M, 1]⟩ ![0, 1] hb B))
        (broadcastInDim ⟨2, ![M, 1]⟩ ![] h0 (constant (F := Ideal) ⟨0, ![]⟩ .f32 0x00000000#32)) = combine A H D B := by
  rw [mulf_col_eq H D]
  exact Cert.LibBiasRelu.host_form (addf A (rowScale H D)) B hb h0

/-- Rows r, …, r + T − 1: when a, h and d hold those rows of A, H and D, and b is B, the entry of `combine a h d b` at y
    is the entry of `combine A H D B` at the index whose row is r plus y's row and whose column is y's. -/
theorem combine_rows {M N T : ℕ} (A H : FVec Ideal ⟨2, ![M, N]⟩ .f32) (D : FVec Ideal ⟨2, ![M, 1]⟩ .f32) (B : FVec Ideal ⟨2, ![1, N]⟩ .f32)
    (a h : FVec Ideal ⟨2, ![T, N]⟩ .f32) (d : FVec Ideal ⟨2, ![T, 1]⟩ .f32) (b : FVec Ideal ⟨2, ![1, N]⟩ .f32) (r : ℕ)
    (ha : ∀ (p : Fin T) (q : Fin N) (hp : r + p.val < M), a (ix2 p q) = A (ix2 ⟨r + p.val, hp⟩ q))
    (hh : ∀ (p : Fin T) (q : Fin N) (hp : r + p.val < M), h (ix2 p q) = H (ix2 ⟨r + p.val, hp⟩ q))
    (hd : ∀ (p : Fin T) (hp : r + p.val < M), d (ix2 p (0 : Fin 1)) = D (ix2 ⟨r + p.val, hp⟩ (0 : Fin 1)))
    (hb : ∀ z, b z = B z)
    (y : (⟨2, ![T, N]⟩ : Shape).Idx) (i : (⟨2, ![M, N]⟩ : Shape).Idx)
    (hi0 : (i 0).val = r + (y 0).val) (hi1 : (i 1).val = (y 1).val) :
    combine a h d b y = combine A H D B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [combine_apply, combine_apply, ha p q' (h0 ▸ p'.isLt), hh p q' (h0 ▸ p'.isLt), hd p (h0 ▸ p'.isLt), hb, ← hp']

end Cert.LibGcnCombine

end
-- ==== Proof.Bridge.Out1.lean ====
/-
  What pipeline 1 leaves in its output array `main_v43`: entry (p, q) is max (A (p, q) + H (p, q) · D (p, 0) + B (0, q)) 0
  of its four input arrays as the call finds them — the aggregated messages A, the node's own features H, the one-column
  factor D and the one-row bias B. Block `t` of A, H, D and of the output is rows 2048·t … 2048·t + 2047; B is one block;
  the body's value is the same function of its blocks, which is that band of rows; and the blocks of the output cover it.
-/
import proofs.«109645_j46763603919526_2_alg».proof.Proof.IdealFrame.Region1
import proofs.«109645_j46763603919526_2_alg».proof.Proof.LibGcnCombine

set_option maxRecDepth 16384

noncomputable section

namespace Cert.KernelIdeal.Bridge

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.LibGcnCombine

/-- The body's value is the combine of its four loaded blocks. -/
theorem pay1_eq (v0 v2 : Vec Ideal S2048x8 .f32) (v4 : Vec Ideal S2048x1 .f32) (v9 : Vec Ideal S1x8 .f32) :
    k1_pay1 v0 v2 v4 v9 = combine v0 v2 v4 v9 := by
  unfold k1_pay1
  exact vector_form v0 v2 v4 v9 shapeCasts_S2048x8_S2048x8 shapeCasts_S2048x1_S2048x1 shapeCasts_S1x8_S1x8 broadcasts_S2048x1_S2048x8 broadcasts_S1x8_S2048x8

/-- The index maps, decided over the grid: point `t` stages block (t, 0) of A, H, D and of the output, and block (0, 0)
    of the bias row. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the combine of the four arrays. -/
theorem flushed1_eq (c : Dev nD) (t : Fin cfg1.N) :
    (dat1 V c).flushed 4 t = ((cfg1.win 4).blk t).view.read (Elt Ideal) (combine (M := 524288) (N := 8) (V c main_v40) (V c main_v27) (V c main_v41) (V c main_v42)) := by
  show (cfg1.win 4).cut (grid1.coords t) ((dat1 V c).after 4 t) = _
  rw [after1_4]
  unfold out1_4
  rw [View.canon_unit_zero zeros1]
  simp only [View.ld_unit_zero (S := S2048x8) zeros1, View.ld_unit_zero (S := S2048x1) zeros1, View.ld_unit_zero (S := S1x8) zeros1]
  rw [pay1_eq]
  obtain ⟨e0, e1, e2, e3, e4, e5, e6, e7, e8, e9⟩ := idx_facts1 t
  funext j
  show combine (M := 2048) (N := 8) (iblk1 V c 0 t) (iblk1 V c 1 t) (iblk1 V c 2 t) (iblk1 V c 3 t) j
    = combine (M := 524288) (N := 8) (V c main_v40) (V c main_v27) (V c main_v41) (V c main_v42) (((cfg1.win 4).blk t).view.emb j)
  refine combine_rows (M := 524288) (N := 8) (T := 2048) (V c main_v40) (V c main_v27) (V c main_v41) (V c main_v42)
    (iblk1 V c 0 t) (iblk1 V c 1 t) (iblk1 V c 2 t) (iblk1 V c 3 t) (t.val * 2048) ?_ ?_ ?_ ?_ j _ ?_ ?_
  · intro p q hp
    show V c main_v40 (((cfg1.win 0).blk t).view.emb (ix2 p q)) = V c main_v40 (ix2 ⟨t.val * 2048 + p.val, hp⟩ q)
    refine congrArg (V c main_v40) (funext fun a => Fin.ext ?_)
    match a with
    | ⟨0, _⟩ => show win1_0.index t (0 : Fin 2) * 2048 + 1 * p.val = t.val * 2048 + p.val; omega
    | ⟨1, _⟩ => show win1_0.index t (1 : Fin 2) * 8 + 1 * q.val = q.val; omega
  · intro p q hp
    show V c main_v27 (((cfg1.win 1).blk t).view.emb (ix2 p q)) = V c main_v27 (ix2 ⟨t.val * 2048 + p.val, hp⟩ q)
    refine congrArg (V c main_v27) (funext fun a => Fin.ext ?_)
    match a with
    | ⟨0, _⟩ => show win1_1.index t (0 : Fin 2) * 2048 + 1 * p.val = t.val * 2048 + p.val; omega
    | ⟨1, _⟩ => show win1_1.index t (1 : Fin 2) * 8 + 1 * q.val = q.val; omega
  · intro p hp
    show V c main_v41 (((cfg1.win 2).blk t).view.emb (ix2 p (0 : Fin 1))) = V c main_v41 (ix2 ⟨t.val * 2048 + p.val, hp⟩ (0 : Fin 1))
    refine congrArg (V c main_v41) (funext fun a => Fin.ext ?_)
    match a with
    | ⟨0, _⟩ => show win1_2.index t (0 : Fin 2) * 2048 + 1 * p.val = t.val * 2048 + p.val; omega
    | ⟨1, _⟩ => show win1_2.index t (1 : Fin 2) * 1 + 1 * (0 : Fin 1).val = (0 : Fin 1).val; omega
  · intro z
    show V c main_v42 (((cfg1.win 3).blk t).view.emb z) = V c main_v42 z
    refine congrArg (V c main_v42) (funext fun a => Fin.ext ?_)
    match a with
    | ⟨0, _⟩ => show win1_3.index t (0 : Fin 2) * 1 + 1 * (z 0).val = (z 0).val; omega
    | ⟨1, _⟩ => show win1_3.index t (1 : Fin 2) * 8 + 1 * (z 1).val = (z 1).val; omega
  · show win1_4.index t (0 : Fin 2) * 2048 + 1 * (j 0).val = t.val * 2048 + (j 0).val; omega
  · show win1_4.index t (1 : Fin 2) * 8 + 1 * (j 1).val = (j 1).val; omega

/-- An index of the output array is in point `t`'s block iff each coordinate is in the block's range on its axis. -/
theorem mem_blk1 (t : Fin cfg1.N) (i : S524288x8.Idx) :
    i ∈ ((cfg1.win 4).blk t).view.set ↔ ∀ a : Fin 2, win1_4.index t a * S2048x8.size a ≤ (i a).val ∧ (i a).val < win1_4.index t a * S2048x8.size a + S2048x8.size a := by
  show i ∈ ((View.whole main_v43).slice (win1_4.rect t)).set ↔ _
  rw [View.set_slice_whole, Rect.mem_set_unit]
  exact Iff.rfl

/-- Every row of the output array lies in the block of the point numbered by the row divided by 2048. -/
theorem cover1 (i : S524288x8.Idx) : ∃ t : Fin cfg1.N, (cfg1.win 4).flush t = true ∧ i ∈ ((cfg1.win 4).blk t).view.set := by
  have hi0 : (i 0).val < 524288 := (i 0).isLt
  have hi1 : (i 1).val < 8 := (i 1).isLt
  have ht : (i 0).val / 2048 < cfg1.N := by show _ < grid1.N; rw [N_1]; omega
  refine ⟨⟨(i 0).val / 2048, ht⟩, flush1_4 _, ?_⟩
  rw [mem_blk1]
  have e := idx_facts1 ⟨(i 0).val / 2048, ht⟩
  intro a
  match a with
  | ⟨0, _⟩ =>
    show win1_4.index ⟨(i 0).val / 2048, ht⟩ (0 : Fin 2) * 2048 ≤ (i 0).val ∧ (i 0).val < win1_4.index ⟨(i 0).val / 2048, ht⟩ (0 : Fin 2) * 2048 + 2048
    have e0 : win1_4.index ⟨(i 0).val / 2048, ht⟩ (0 : Fin 2) = (i 0).val / 2048 := e.2.2.2.2.2.2.2.2.1
    omega
  | ⟨1, _⟩ =>
    show win1_4.index ⟨(i 0).val / 2048, ht⟩ (1 : Fin 2) * 8 ≤ (i 1).val ∧ (i 1).val < win1_4.index ⟨(i 0).val / 2048, ht⟩ (1 : Fin 2) * 8 + 8
    have e1 : win1_4.index ⟨(i 0).val / 2048, ht⟩ (1 : Fin 2) = 0 := e.2.2.2.2.2.2.2.2.2
    omega

/-- The output array after the pipeline: the combine of the four input arrays. -/
theorem final1 (c : Dev nD) : (dat1 V c).arrAt 4 cfg1.N = combine (M := 524288) (N := 8) (V c main_v40) (V c main_v27) (V c main_v41) (V c main_v42) :=
  (dat1 V c).arrAt_eq_of_cover 4 (combine (M := 524288) (N := 8) (V c main_v40) (V c main_v27) (V c main_v41) (V c main_v42)) (fun t _ => flushed1_eq V c t) cover1

end Cert.KernelIdeal.Bridge

end
-- ==== Proof.Bridge.Out2.lean ====
/-
  What pipeline 2 leaves in its output array `main_v44`: the matrix product of its two input arrays as the call finds
  them. Block `t` of the left array is rows 16384·t … 16384·t + 16383; the right array is one block; the body's value is the
  product of its two blocks (narrowing to bf16 is the identity on exact values, the accumulator starts at zero), which
  is that band of rows of the whole product; and the blocks of the output cover it.
-/
import proofs.«109645_j46763603919526_2_alg».proof.Proof.IdealFrame.Region2
import proofs.«109645_j46763603919526_2_alg».proof.Proof.LibMatProd

set_option maxRecDepth 16384

noncomputable section

namespace Cert.KernelIdeal.Bridge

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.LibMatProd

/-- The body's value is the matrix product of its two loaded blocks. -/
theorem pay2_eq (x : Vec Ideal S16384x8 .f32) (w : Vec Ideal S8x8 .f32) : k2_pay1 x w = matProd x w := by
  unfold k2_pay1
  simp only [shapeCast_self]
  exact matmul_eq dot_S16384x8_S8x8_S16384x8_1_0_0_1_n_n rfl rfl rfl rfl rfl rfl x w bitsLt_bf16_f32

/-- The index maps, decided over the grid: point `t` stages block (t, 0) of the left array and of the output, and
    block (0, 0) of the right array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays. -/
theorem flushed2_eq (c : Dev nD) (t : Fin cfg2.N) :
    (dat2 V c).flushed 2 t = ((cfg2.win 2).blk t).view.read (Elt Ideal) (matProd (M := 524288) (K := 8) (N := 8) (V c main_v43) (V c main_arg5)) := by
  show (cfg2.win 2).cut (grid2.coords t) ((dat2 V c).after 2 t) = _
  rw [after2_2]
  unfold out2_2
  rw [View.canon_unit_zero zeros2]
  simp only [View.ld_unit_zero (S := S16384x8) zeros2, View.ld_unit_zero (S := S8x8) zeros2]
  rw [pay2_eq]
  obtain ⟨e0, e1, e2, e3, e4, e5⟩ := idx_facts2 t
  funext j
  show matProd (M := 16384) (K := 8) (N := 8) (iblk2 V c 0 t) (iblk2 V c 1 t) j
    = matProd (M := 524288) (K := 8) (N := 8) (V c main_v43) (V c main_arg5) (((cfg2.win 2).blk t).view.emb j)
  refine matProd_rows (M := 524288) (K := 8) (N := 8) (T := 16384) (V c main_v43) (V c main_arg5) (iblk2 V c 0 t) (iblk2 V c 1 t) (t.val * 16384) ?_ ?_ j _ ?_ ?_
  · intro p k hp
    show V c main_v43 (((cfg2.win 0).blk t).view.emb (ix2 p k)) = V c main_v43 (ix2 ⟨t.val * 16384 + p.val, hp⟩ k)
    refine congrArg (V c main_v43) (funext fun a => Fin.ext ?_)
    match a with
    | ⟨0, _⟩ => show win2_0.index t (0 : Fin 2) * 16384 + 1 * p.val = t.val * 16384 + p.val; omega
    | ⟨1, _⟩ => show win2_0.index t (1 : Fin 2) * 8 + 1 * k.val = k.val; omega
  · intro z
    show V c main_arg5 (((cfg2.win 1).blk t).view.emb z) = V c main_arg5 z
    refine congrArg (V c main_arg5) (funext fun a => Fin.ext ?_)
    match a with
    | ⟨0, _⟩ => show win2_1.index t (0 : Fin 2) * 8 + 1 * (z 0).val = (z 0).val; omega
    | ⟨1, _⟩ => show win2_1.index t (1 : Fin 2) * 8 + 1 * (z 1).val = (z 1).val; omega
  · show win2_2.index t (0 : Fin 2) * 16384 + 1 * (j 0).val = t.val * 16384 + (j 0).val; omega
  · show win2_2.index t (1 : Fin 2) * 8 + 1 * (j 1).val = (j 1).val; omega

/-- An index of the output array is in point `t`'s block iff each coordinate is in the block's range on its axis. -/
theorem mem_blk2 (t : Fin cfg2.N) (i : S524288x8.Idx) :
    i ∈ ((cfg2.win 2).blk t).view.set ↔ ∀ a : Fin 2, win2_2.index t a * S16384x8.size a ≤ (i a).val ∧ (i a).val < win2_2.index t a * S16384x8.size a + S16384x8.size a := by
  show i ∈ ((View.whole main_v44).slice (win2_2.rect t)).set ↔ _
  rw [View.set_slice_whole, Rect.mem_set_unit]
  exact Iff.rfl

/-- Every row of the output array lies in the block of the point numbered by the row divided by 16384. -/
theorem cover2 (i : S524288x8.Idx) : ∃ t : Fin cfg2.N, (cfg2.win 2).flush t = true ∧ i ∈ ((cfg2.win 2).blk t).view.set := by
  have hi0 : (i 0).val < 524288 := (i 0).isLt
  have hi1 : (i 1).val < 8 := (i 1).isLt
  have ht : (i 0).val / 16384 < cfg2.N := by show _ < grid2.N; rw [N_2]; omega
  refine ⟨⟨(i 0).val / 16384, ht⟩, flush2_2 _, ?_⟩
  rw [mem_blk2]
  have e := idx_facts2 ⟨(i 0).val / 16384, ht⟩
  intro a
  match a with
  | ⟨0, _⟩ =>
    show win2_2.index ⟨(i 0).val / 16384, ht⟩ (0 : Fin 2) * 16384 ≤ (i 0).val ∧ (i 0).val < win2_2.index ⟨(i 0).val / 16384, ht⟩ (0 : Fin 2) * 16384 + 16384
    have e0 : win2_2.index ⟨(i 0).val / 16384, ht⟩ (0 : Fin 2) = (i 0).val / 16384 := e.2.2.2.2.1
    omega
  | ⟨1, _⟩ =>
    show win2_2.index ⟨(i 0).val / 16384, ht⟩ (1 : Fin 2) * 8 ≤ (i 1).val ∧ (i 1).val < win2_2.index ⟨(i 0).val / 16384, ht⟩ (1 : Fin 2) * 8 + 8
    have e1 : win2_2.index ⟨(i 0).val / 16384, ht⟩ (1 : Fin 2) = 0 := e.2.2.2.2.2
    omega

/-- The output array after the pipeline: the product of the two input arrays. -/
theorem final2 (c : Dev nD) : (dat2 V c).arrAt 2 cfg2.N = matProd (M := 524288) (K := 8) (N := 8) (V c main_v43) (V c main_arg5) :=
  (dat2 V c).arrAt_eq_of_cover 2 (matProd (M := 524288) (K := 8) (N := 8) (V c main_v43) (V c main_arg5)) (fun t _ => flushed2_eq V c t) cover2

end Cert.KernelIdeal.Bridge

end
-- ==== Proof.Bridge.Out3.lean ====
/-
  What pipeline 3 leaves in its output array `main_v60`: entry (p, q) is max (A (p, q) + H (p, q) · D (p, 0) + B (0, q)) 0
  of its four input arrays as the call finds them — the aggregated messages A, the node's own features H, the one-column
  factor D and the one-row bias B. Block `t` of A, H, D and of the output is rows 2048·t … 2048·t + 2047; B is one block;
  the body's value is the same function of its blocks, which is that band of rows; and the blocks of the output cover it.
-/
import proofs.«109645_j46763603919526_2_alg».proof.Proof.IdealFrame.Region3
import proofs.«109645_j46763603919526_2_alg».proof.Proof.LibGcnCombine

set_option maxRecDepth 16384

noncomputable section

namespace Cert.KernelIdeal.Bridge

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.LibGcnCombine

/-- The body's value is the combine of its four loaded blocks. -/
theorem pay3_eq (v0 v2 : Vec Ideal S2048x8 .f32) (v4 : Vec Ideal S2048x1 .f32) (v9 : Vec Ideal S1x8 .f32) :
    k3_pay1 v0 v2 v4 v9 = combine v0 v2 v4 v9 := by
  unfold k3_pay1
  exact vector_form v0 v2 v4 v9 shapeCasts_S2048x8_S2048x8 shapeCasts_S2048x1_S2048x1 shapeCasts_S1x8_S1x8 broadcasts_S2048x1_S2048x8 broadcasts_S1x8_S2048x8

/-- The index maps, decided over the grid: point `t` stages block (t, 0) of A, H, D and of the output, and block (0, 0)
    of the bias row. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the combine of the four arrays. -/
theorem flushed3_eq (c : Dev nD) (t : Fin cfg3.N) :
    (dat3 V c).flushed 4 t = ((cfg3.win 4).blk t).view.read (Elt Ideal) (combine (M := 524288) (N := 8) (V c main_v57) (V c main_v44) (V c main_v58) (V c main_v59)) := by
  show (cfg3.win 4).cut (grid3.coords t) ((dat3 V c).after 4 t) = _
  rw [after3_4]
  unfold out3_4
  rw [View.canon_unit_zero zeros3]
  simp only [View.ld_unit_zero (S := S2048x8) zeros3, View.ld_unit_zero (S := S2048x1) zeros3, View.ld_unit_zero (S := S1x8) zeros3]
  rw [pay3_eq]
  obtain ⟨e0, e1, e2, e3, e4, e5, e6, e7, e8, e9⟩ := idx_facts3 t
  funext j
  show combine (M := 2048) (N := 8) (iblk3 V c 0 t) (iblk3 V c 1 t) (iblk3 V c 2 t) (iblk3 V c 3 t) j
    = combine (M := 524288) (N := 8) (V c main_v57) (V c main_v44) (V c main_v58) (V c main_v59) (((cfg3.win 4).blk t).view.emb j)
  refine combine_rows (M := 524288) (N := 8) (T := 2048) (V c main_v57) (V c main_v44) (V c main_v58) (V c main_v59)
    (iblk3 V c 0 t) (iblk3 V c 1 t) (iblk3 V c 2 t) (iblk3 V c 3 t) (t.val * 2048) ?_ ?_ ?_ ?_ j _ ?_ ?_
  · intro p q hp
    show V c main_v57 (((cfg3.win 0).blk t).view.emb (ix2 p q)) = V c main_v57 (ix2 ⟨t.val * 2048 + p.val, hp⟩ q)
    refine congrArg (V c main_v57) (funext fun a => Fin.ext ?_)
    match a with
    | ⟨0, _⟩ => show win3_0.index t (0 : Fin 2) * 2048 + 1 * p.val = t.val * 2048 + p.val; omega
    | ⟨1, _⟩ => show win3_0.index t (1 : Fin 2) * 8 + 1 * q.val = q.val; omega
  · intro p q hp
    show V c main_v44 (((cfg3.win 1).blk t).view.emb (ix2 p q)) = V c main_v44 (ix2 ⟨t.val * 2048 + p.val, hp⟩ q)
    refine congrArg (V c main_v44) (funext fun a => Fin.ext ?_)
    match a with
    | ⟨0, _⟩ => show win3_1.index t (0 : Fin 2) * 2048 + 1 * p.val = t.val * 2048 + p.val; omega
    | ⟨1, _⟩ => show win3_1.index t (1 : Fin 2) * 8 + 1 * q.val = q.val; omega
  · intro p hp
    show V c main_v58 (((cfg3.win 2).blk t).view.emb (ix2 p (0 : Fin 1))) = V c main_v58 (ix2 ⟨t.val * 2048 + p.val, hp⟩ (0 : Fin 1))
    refine congrArg (V c main_v58) (funext fun a => Fin.ext ?_)
    match a with
    | ⟨0, _⟩ => show win3_2.index t (0 : Fin 2) * 2048 + 1 * p.val = t.val * 2048 + p.val; omega
    | ⟨1, _⟩ => show win3_2.index t (1 : Fin 2) * 1 + 1 * (0 : Fin 1).val = (0 : Fin 1).val; omega
  · intro z
    show V c main_v59 (((cfg3.win 3).blk t).view.emb z) = V c main_v59 z
    refine congrArg (V c main_v59) (funext fun a => Fin.ext ?_)
    match a with
    | ⟨0, _⟩ => show win3_3.index t (0 : Fin 2) * 1 + 1 * (z 0).val = (z 0).val; omega
    | ⟨1, _⟩ => show win3_3.index t (1 : Fin 2) * 8 + 1 * (z 1).val = (z 1).val; omega
  · show win3_4.index t (0 : Fin 2) * 2048 + 1 * (j 0).val = t.val * 2048 + (j 0).val; omega
  · show win3_4.index t (1 : Fin 2) * 8 + 1 * (j 1).val = (j 1).val; omega

/-- An index of the output array is in point `t`'s block iff each coordinate is in the block's range on its axis. -/
theorem mem_blk3 (t : Fin cfg3.N) (i : S524288x8.Idx) :
    i ∈ ((cfg3.win 4).blk t).view.set ↔ ∀ a : Fin 2, win3_4.index t a * S2048x8.size a ≤ (i a).val ∧ (i a).val < win3_4.index t a * S2048x8.size a + S2048x8.size a := by
  show i ∈ ((View.whole main_v60).slice (win3_4.rect t)).set ↔ _
  rw [View.set_slice_whole, Rect.mem_set_unit]
  exact Iff.rfl

/-- Every row of the output array lies in the block of the point numbered by the row divided by 2048. -/
theorem cover3 (i : S524288x8.Idx) : ∃ t : Fin cfg3.N, (cfg3.win 4).flush t = true ∧ i ∈ ((cfg3.win 4).blk t).view.set := by
  have hi0 : (i 0).val < 524288 := (i 0).isLt
  have hi1 : (i 1).val < 8 := (i 1).isLt
  have ht : (i 0).val / 2048 < cfg3.N := by show _ < grid3.N; rw [N_3]; omega
  refine ⟨⟨(i 0).val / 2048, ht⟩, flush3_4 _, ?_⟩
  rw [mem_blk3]
  have e := idx_facts3 ⟨(i 0).val / 2048, ht⟩
  intro a
  match a with
  | ⟨0, _⟩ =>
    show win3_4.index ⟨(i 0).val / 2048, ht⟩ (0 : Fin 2) * 2048 ≤ (i 0).val ∧ (i 0).val < win3_4.index ⟨(i 0).val / 2048, ht⟩ (0 : Fin 2) * 2048 + 2048
    have e0 : win3_4.index ⟨(i 0).val / 2048, ht⟩ (0 : Fin 2) = (i 0).val / 2048 := e.2.2.2.2.2.2.2.2.1
    omega
  | ⟨1, _⟩ =>
    show win3_4.index ⟨(i 0).val / 2048, ht⟩ (1 : Fin 2) * 8 ≤ (i 1).val ∧ (i 1).val < win3_4.index ⟨(i 0).val / 2048, ht⟩ (1 : Fin 2) * 8 + 8
    have e1 : win3_4.index ⟨(i 0).val / 2048, ht⟩ (1 : Fin 2) = 0 := e.2.2.2.2.2.2.2.2.2
    omega

/-- The output array after the pipeline: the combine of the four input arrays. -/
theorem final3 (c : Dev nD) : (dat3 V c).arrAt 4 cfg3.N = combine (M := 524288) (N := 8) (V c main_v57) (V c main_v44) (V c main_v58) (V c main_v59) :=
  (dat3 V c).arrAt_eq_of_cover 4 (combine (M := 524288) (N := 8) (V c main_v57) (V c main_v44) (V c main_v58) (V c main_v59)) (fun t _ => flushed3_eq V c t) cover3

end Cert.KernelIdeal.Bridge

end
-- ==== Proof.Bridge.Out4.lean ====
/-
  What pipeline 4 leaves in its output array `main_v61`: the matrix product of its two input arrays as the call finds
  them. Block `t` of the left array is rows 16384·t … 16384·t + 16383; the right array is one block; the body's value is the
  product of its two blocks (narrowing to bf16 is the identity on exact values, the accumulator starts at zero), which
  is that band of rows of the whole product; and the blocks of the output cover it.
-/
import proofs.«109645_j46763603919526_2_alg».proof.Proof.IdealFrame.Region4
import proofs.«109645_j46763603919526_2_alg».proof.Proof.LibMatProd

set_option maxRecDepth 16384

noncomputable section

namespace Cert.KernelIdeal.Bridge

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.LibMatProd

/-- The body's value is the matrix product of its two loaded blocks. -/
theorem pay4_eq (x : Vec Ideal S16384x8 .f32) (w : Vec Ideal S8x1 .f32) : k4_pay1 x w = matProd x w := by
  unfold k4_pay1
  simp only [shapeCast_self]
  exact matmul_eq dot_S16384x8_S8x1_S16384x1_1_0_0_1_n_n rfl rfl rfl rfl rfl rfl x w bitsLt_bf16_f32

/-- The index maps, decided over the grid: point `t` stages block (t, 0) of the left array and of the output, and
    block (0, 0) of the right array. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays. -/
theorem flushed4_eq (c : Dev nD) (t : Fin cfg4.N) :
    (dat4 V c).flushed 2 t = ((cfg4.win 2).blk t).view.read (Elt Ideal) (matProd (M := 524288) (K := 8) (N := 1) (V c main_v60) (V c main_arg7)) := by
  show (cfg4.win 2).cut (grid4.coords t) ((dat4 V c).after 2 t) = _
  rw [after4_2]
  unfold out4_2
  rw [View.canon_unit_zero zeros4]
  simp only [View.ld_unit_zero (S := S16384x8) zeros4, View.ld_unit_zero (S := S8x1) zeros4]
  rw [pay4_eq]
  obtain ⟨e0, e1, e2, e3, e4, e5⟩ := idx_facts4 t
  funext j
  show matProd (M := 16384) (K := 8) (N := 1) (iblk4 V c 0 t) (iblk4 V c 1 t) j
    = matProd (M := 524288) (K := 8) (N := 1) (V c main_v60) (V c main_arg7) (((cfg4.win 2).blk t).view.emb j)
  refine matProd_rows (M := 524288) (K := 8) (N := 1) (T := 16384) (V c main_v60) (V c main_arg7) (iblk4 V c 0 t) (iblk4 V c 1 t) (t.val * 16384) ?_ ?_ j _ ?_ ?_
  · intro p k hp
    show V c main_v60 (((cfg4.win 0).blk t).view.emb (ix2 p k)) = V c main_v60 (ix2 ⟨t.val * 16384 + p.val, hp⟩ k)
    refine congrArg (V c main_v60) (funext fun a => Fin.ext ?_)
    match a with
    | ⟨0, _⟩ => show win4_0.index t (0 : Fin 2) * 16384 + 1 * p.val = t.val * 16384 + p.val; omega
    | ⟨1, _⟩ => show win4_0.index t (1 : Fin 2) * 8 + 1 * k.val = k.val; omega
  · intro z
    show V c main_arg7 (((cfg4.win 1).blk t).view.emb z) = V c main_arg7 z
    refine congrArg (V c main_arg7) (funext fun a => Fin.ext ?_)
    match a with
    | ⟨0, _⟩ => show win4_1.index t (0 : Fin 2) * 8 + 1 * (z 0).val = (z 0).val; omega
    | ⟨1, _⟩ => show win4_1.index t (1 : Fin 2) * 1 + 1 * (z 1).val = (z 1).val; omega
  · show win4_2.index t (0 : Fin 2) * 16384 + 1 * (j 0).val = t.val * 16384 + (j 0).val; omega
  · show win4_2.index t (1 : Fin 2) * 1 + 1 * (j 1).val = (j 1).val; omega

/-- An index of the output array is in point `t`'s block iff each coordinate is in the block's range on its axis. -/
theorem mem_blk4 (t : Fin cfg4.N) (i : S524288x1.Idx) :
    i ∈ ((cfg4.win 2).blk t).view.set ↔ ∀ a : Fin 2, win4_2.index t a * S16384x1.size a ≤ (i a).val ∧ (i a).val < win4_2.index t a * S16384x1.size a + S16384x1.size a := by
  show i ∈ ((View.whole main_v61).slice (win4_2.rect t)).set ↔ _
  rw [View.set_slice_whole, Rect.mem_set_unit]
  exact Iff.rfl

/-- Every row of the output array lies in the block of the point numbered by the row divided by 16384. -/
theorem cover4 (i : S524288x1.Idx) : ∃ t : Fin cfg4.N, (cfg4.win 2).flush t = true ∧ i ∈ ((cfg4.win 2).blk t).view.set := by
  have hi0 : (i 0).val < 524288 := (i 0).isLt
  have hi1 : (i 1).val < 1 := (i 1).isLt
  have ht : (i 0).val / 16384 < cfg4.N := by show _ < grid4.N; rw [N_4]; omega
  refine ⟨⟨(i 0).val / 16384, ht⟩, flush4_2 _, ?_⟩
  rw [mem_blk4]
  have e := idx_facts4 ⟨(i 0).val / 16384, ht⟩
  intro a
  match a with
  | ⟨0, _⟩ =>
    show win4_2.index ⟨(i 0).val / 16384, ht⟩ (0 : Fin 2) * 16384 ≤ (i 0).val ∧ (i 0).val < win4_2.index ⟨(i 0).val / 16384, ht⟩ (0 : Fin 2) * 16384 + 16384
    have e0 : win4_2.index ⟨(i 0).val / 16384, ht⟩ (0 : Fin 2) = (i 0).val / 16384 := e.2.2.2.2.1
    omega
  | ⟨1, _⟩ =>
    show win4_2.index ⟨(i 0).val / 16384, ht⟩ (1 : Fin 2) * 1 ≤ (i 1).val ∧ (i 1).val < win4_2.index ⟨(i 0).val / 16384, ht⟩ (1 : Fin 2) * 1 + 1
    have e1 : win4_2.index ⟨(i 0).val / 16384, ht⟩ (1 : Fin 2) = 0 := e.2.2.2.2.2
    omega

/-- The output array after the pipeline: the product of the two input arrays. -/
theorem final4 (c : Dev nD) : (dat4 V c).arrAt 2 cfg4.N = matProd (M := 524288) (K := 8) (N := 1) (V c main_v60) (V c main_arg7) :=
  (dat4 V c).arrAt_eq_of_cover 2 (matProd (M := 524288) (K := 8) (N := 1) (V c main_v60) (V c main_arg7)) (fun t _ => flushed4_eq V c t) cover4

end Cert.KernelIdeal.Bridge

end
-- ==== Proof.Bridge.Out5.lean ====
/-
  What pipeline 5 leaves in its output array `main_v76`: entry (p, q) is max (A (p, q) + H (p, q) · D (p, 0) + B (0, q)) 0
  of its four input arrays as the call finds them — the aggregated messages A, the node's own features H, the one-column
  factor D and the one-row bias B. Block `t` of A, H, D and of the output is rows 2048·t … 2048·t + 2047; B is one block;
  the body's value is the same function of its blocks, which is that band of rows; and the blocks of the output cover it.
-/
import proofs.«109645_j46763603919526_2_alg».proof.Proof.IdealFrame.Region5
import proofs.«109645_j46763603919526_2_alg».proof.Proof.LibGcnCombine

set_option maxRecDepth 16384

noncomputable section

namespace Cert.KernelIdeal.Bridge

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.LibGcnCombine

/-- The body's value is the combine of its four loaded blocks. -/
theorem pay5_eq (v0 v2 : Vec Ideal S2048x1 .f32) (v4 : Vec Ideal S2048x1 .f32) (v9 : Vec Ideal S1x1 .f32) :
    k5_pay1 v0 v2 v4 v9 = combine v0 v2 v4 v9 := by
  unfold k5_pay1
  exact vector_form_col v0 v2 v4 v9 shapeCasts_S2048x1_S2048x1 shapeCasts_S1x1_S1x1 broadcasts_S1x1_S2048x1

/-- The index maps, decided over the grid: point `t` stages block (t, 0) of A, H, D and of the output, and block (0, 0)
    of the bias row. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the combine of the four arrays. -/
theorem flushed5_eq (c : Dev nD) (t : Fin cfg5.N) :
    (dat5 V c).flushed 4 t = ((cfg5.win 4).blk t).view.read (Elt Ideal) (combine (M := 524288) (N := 1) (V c main_v73) (V c main_v61) (V c main_v74) (V c main_v75)) := by
  show (cfg5.win 4).cut (grid5.coords t) ((dat5 V c).after 4 t) = _
  rw [after5_4]
  unfold out5_4
  rw [View.canon_unit_zero zeros5]
  simp only [View.ld_unit_zero (S := S2048x1) zeros5, View.ld_unit_zero (S := S2048x1) zeros5, View.ld_unit_zero (S := S1x1) zeros5]
  rw [pay5_eq]
  obtain ⟨e0, e1, e2, e3, e4, e5, e6, e7, e8, e9⟩ := idx_facts5 t
  funext j
  show combine (M := 2048) (N := 1) (iblk5 V c 0 t) (iblk5 V c 1 t) (iblk5 V c 2 t) (iblk5 V c 3 t) j
    = combine (M := 524288) (N := 1) (V c main_v73) (V c main_v61) (V c main_v74) (V c main_v75) (((cfg5.win 4).blk t).view.emb j)
  refine combine_rows (M := 524288) (N := 1) (T := 2048) (V c main_v73) (V c main_v61) (V c main_v74) (V c main_v75)
    (iblk5 V c 0 t) (iblk5 V c 1 t) (iblk5 V c 2 t) (iblk5 V c 3 t) (t.val * 2048) ?_ ?_ ?_ ?_ j _ ?_ ?_
  · intro p q hp
    show V c main_v73 (((cfg5.win 0).blk t).view.emb (ix2 p q)) = V c main_v73 (ix2 ⟨t.val * 2048 + p.val, hp⟩ q)
    refine congrArg (V c main_v73) (funext fun a => Fin.ext ?_)
    match a with
    | ⟨0, _⟩ => show win5_0.index t (0 : Fin 2) * 2048 + 1 * p.val = t.val * 2048 + p.val; omega
    | ⟨1, _⟩ => show win5_0.index t (1 : Fin 2) * 1 + 1 * q.val = q.val; omega
  · intro p q hp
    show V c main_v61 (((cfg5.win 1).blk t).view.emb (ix2 p q)) = V c main_v61 (ix2 ⟨t.val * 2048 + p.val, hp⟩ q)
    refine congrArg (V c main_v61) (funext fun a => Fin.ext ?_)
    match a with
    | ⟨0, _⟩ => show win5_1.index t (0 : Fin 2) * 2048 + 1 * p.val = t.val * 2048 + p.val; omega
    | ⟨1, _⟩ => show win5_1.index t (1 : Fin 2) * 1 + 1 * q.val = q.val; omega
  · intro p hp
    show V c main_v74 (((cfg5.win 2).blk t).view.emb (ix2 p (0 : Fin 1))) = V c main_v74 (ix2 ⟨t.val * 2048 + p.val, hp⟩ (0 : Fin 1))
    refine congrArg (V c main_v74) (funext fun a => Fin.ext ?_)
    match a with
    | ⟨0, _⟩ => show win5_2.index t (0 : Fin 2) * 2048 + 1 * p.val = t.val * 2048 + p.val; omega
    | ⟨1, _⟩ => show win5_2.index t (1 : Fin 2) * 1 + 1 * (0 : Fin 1).val = (0 : Fin 1).val; omega
  · intro z
    show V c main_v75 (((cfg5.win 3).blk t).view.emb z) = V c main_v75 z
    refine congrArg (V c main_v75) (funext fun a => Fin.ext ?_)
    match a with
    | ⟨0, _⟩ => show win5_3.index t (0 : Fin 2) * 1 + 1 * (z 0).val = (z 0).val; omega
    | ⟨1, _⟩ => show win5_3.index t (1 : Fin 2) * 1 + 1 * (z 1).val = (z 1).val; omega
  · show win5_4.index t (0 : Fin 2) * 2048 + 1 * (j 0).val = t.val * 2048 + (j 0).val; omega
  · show win5_4.index t (1 : Fin 2) * 1 + 1 * (j 1).val = (j 1).val; omega

/-- An index of the output array is in point `t`'s block iff each coordinate is in the block's range on its axis. -/
theorem mem_blk5 (t : Fin cfg5.N) (i : S524288x1.Idx) :
    i ∈ ((cfg5.win 4).blk t).view.set ↔ ∀ a : Fin 2, win5_4.index t a * S2048x1.size a ≤ (i a).val ∧ (i a).val < win5_4.index t a * S2048x1.size a + S2048x1.size a := by
  show i ∈ ((View.whole main_v76).slice (win5_4.rect t)).set ↔ _
  rw [View.set_slice_whole, Rect.mem_set_unit]
  exact Iff.rfl

/-- Every row of the output array lies in the block of the point numbered by the row divided by 2048. -/
theorem cover5 (i : S524288x1.Idx) : ∃ t : Fin cfg5.N, (cfg5.win 4).flush t = true ∧ i ∈ ((cfg5.win 4).blk t).view.set := by
  have hi0 : (i 0).val < 524288 := (i 0).isLt
  have hi1 : (i 1).val < 1 := (i 1).isLt
  have ht : (i 0).val / 2048 < cfg5.N := by show _ < grid5.N; rw [N_5]; omega
  refine ⟨⟨(i 0).val / 2048, ht⟩, flush5_4 _, ?_⟩
  rw [mem_blk5]
  have e := idx_facts5 ⟨(i 0).val / 2048, ht⟩
  intro a
  match a with
  | ⟨0, _⟩ =>
    show win5_4.index ⟨(i 0).val / 2048, ht⟩ (0 : Fin 2) * 2048 ≤ (i 0).val ∧ (i 0).val < win5_4.index ⟨(i 0).val / 2048, ht⟩ (0 : Fin 2) * 2048 + 2048
    have e0 : win5_4.index ⟨(i 0).val / 2048, ht⟩ (0 : Fin 2) = (i 0).val / 2048 := e.2.2.2.2.2.2.2.2.1
    omega
  | ⟨1, _⟩ =>
    show win5_4.index ⟨(i 0).val / 2048, ht⟩ (1 : Fin 2) * 1 ≤ (i 1).val ∧ (i 1).val < win5_4.index ⟨(i 0).val / 2048, ht⟩ (1 : Fin 2) * 1 + 1
    have e1 : win5_4.index ⟨(i 0).val / 2048, ht⟩ (1 : Fin 2) = 0 := e.2.2.2.2.2.2.2.2.2
    omega

/-- The output array after the pipeline: the combine of the four input arrays. -/
theorem final5 (c : Dev nD) : (dat5 V c).arrAt 4 cfg5.N = combine (M := 524288) (N := 1) (V c main_v73) (V c main_v61) (V c main_v74) (V c main_v75) :=
  (dat5 V c).arrAt_eq_of_cover 4 (combine (M := 524288) (N := 1) (V c main_v73) (V c main_v61) (V c main_v74) (V c main_v75)) (fun t _ => flushed5_eq V c t) cover5

end Cert.KernelIdeal.Bridge

end
-- ==== Proof.Bridge.Layers.lean ====
/-
  The idealized kernel's result is the reference's. Both programs run the same host operations on the same arguments;
  where the reference contracts a feature matrix with a weight matrix the kernel runs a matrix-product pipeline, and
  where the reference adds the scaled features and the bias to the aggregated messages and clamps at zero the kernel
  runs a combine pipeline. Stage by stage: the edge-derived arrays (source and target indices, the per-edge coefficient,
  the squared inverse root degree) are the same functions of the edge list; each matrix-product pipeline leaves the
  reference's contraction; each scatter of gathered, scaled rows is then the same term; a vector re-laid as a column or
  a row is that vector broadcast; each combine pipeline leaves the reference's clamped sum; and the closing operations
  (joining the three feature matrices, gathering the target rows, the two dense layers) are the same again.
-/
import proofs.«109645_j46763603919526_2_alg».proof.Proof.IdealFrame.Run
import proofs.«109645_j46763603919526_2_alg».proof.Proof.Bridge.Out0
import proofs.«109645_j46763603919526_2_alg».proof.Proof.Bridge.Out1
import proofs.«109645_j46763603919526_2_alg».proof.Proof.Bridge.Out2
import proofs.«109645_j46763603919526_2_alg».proof.Proof.Bridge.Out3
import proofs.«109645_j46763603919526_2_alg».proof.Proof.Bridge.Out4
import proofs.«109645_j46763603919526_2_alg».proof.Proof.Bridge.Out5
import proofs.«109645_j46763603919526_2_alg».proof.Proof.Gen.ReferenceIdeal.Read
import proofs.«109645_j46763603919526_2_alg».proof.Proof.LibRowScale

set_option maxRecDepth 16384
set_option maxHeartbeats 4000000

noncomputable section

namespace Cert.KernelIdeal.Bridge

open Cert.KernelIdeal Cert.KernelIdeal.Gen Cert.KernelIdeal.Frame
open Idealize.ShloMosaic Idealize.ShloMosaic.TcCoe Idealize.SL.Sem Idealize.ShloMosaic.ValueIdx Idealize.ShloMosaic.StableHlo
open Cert.LibMatProd Cert.LibGcnCombine Cert.LibRowScale

variable (m : (ℓ : Loc nD τ sig) → Buf (Elt Ideal) ℓ)

/-! ## The arguments, as launched -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)
abbrev a11 (c : Dev nD) := m ((c : Thread nD τ).loc main_arg11)
abbrev a12 (c : Dev nD) := m ((c : Thread nD τ).loc main_arg12)

/-! ## The arrays computed from the edge list alone -/

/-- The source index of every edge. -/
theorem edge_v1 (c : Dev nD) : bd1 m c (Proc.devRef .tc main_v1) = Cert.ReferenceIdeal.Read.val_main_v1 (a1 m c) := by
  show StableHlo.after hostOps0 (bd0 m c) (Proc.devRef .tc main_v1) = _
  after_results_simp
  rfl

/-- The target index of every edge. -/
theorem edge_v3 (c : Dev nD) : bd1 m c (Proc.devRef .tc main_v3) = Cert.ReferenceIdeal.Read.val_main_v3 (a1 m c) := by
  show StableHlo.after hostOps0 (bd0 m c) (Proc.devRef .tc main_v3) = _
  after_results_simp
  rfl

/-- The coefficient of every edge: the product of the inverse root degrees of its two ends. -/
theorem edge_v25 (c : Dev nD) : bd1 m c (Proc.devRef .tc main_v25) = Cert.ReferenceIdeal.Read.val_main_v25 (a1 m c) := by
  show StableHlo.after hostOps0 (bd0 m c) (Proc.devRef .tc main_v25) = _
  after_results_simp
  rfl

/-- The squared inverse root degree of every node. -/
theorem edge_v26 (c : Dev nD) : bd1 m c (Proc.devRef .tc main_v26) = Cert.ReferenceIdeal.Read.val_main_v40 (a1 m c) := by
  show StableHlo.after hostOps0 (bd0 m c) (Proc.devRef .tc main_v26) = _
  after_results_simp
  rfl

/-! ## Layer 1 -/

/-- The matrix-product pipeline leaves the reference's contraction of the layer's input features with its weights. -/
theorem h1_eq (c : Dev nD) : bd2 m c (Proc.devRef .tc main_v27) = Cert.ReferenceIdeal.Read.val_main_v26 (a0 m c) (a3 m c) :=
  (bd2_arr m c 2).trans <| (final0 (rd1 m) c).trans <|
    (congrArg₂ (matProd (M := 524288) (K := 128) (N := 8)) ((bd1_keep m c main_arg0 (by decide))) ((bd1_keep m c main_arg3 (by decide)))).trans
      (host_dot_eq Cert.ReferenceIdeal.dot_S524288x128_S128x8_S524288x8_1_0_0_1_n_n rfl rfl rfl rfl rfl rfl _ _).symm

/-- The aggregated messages: the same scatter of the same gathered, scaled rows. -/
theorem agg1_eq (c : Dev nD) : bd3 m c (Proc.devRef .tc main_v40) = Cert.ReferenceIdeal.Read.val_main_v39 (a0 m c) (a1 m c) (a3 m c) := by
  show StableHlo.after hostOps1 (bd2 m c) (Proc.devRef .tc main_v40) = _
  generalize hF : bd2 m c = F
  after_results_simp
  subst hF
  rw [show bd2 m c (Proc.devRef .tc main_v27) = Cert.ReferenceIdeal.Read.val_main_v26 (a0 m c) (a3 m c) from h1_eq m c,
    show bd2 m c (Proc.devRef .tc main_v3) = Cert.ReferenceIdeal.Read.val_main_v3 (a1 m c) from ((bd2_keep m c main_v3 (by decide))).trans (edge_v3 m c),
    show bd2 m c (Proc.devRef .tc main_v1) = Cert.ReferenceIdeal.Read.val_main_v1 (a1 m c) from ((bd2_keep m c main_v1 (by decide))).trans (edge_v1 m c),
    show bd2 m c (Proc.devRef .tc main_v25) = Cert.ReferenceIdeal.Read.val_main_v25 (a1 m c) from ((bd2_keep m c main_v25 (by decide))).trans (edge_v25 m c)]
  rfl

/-- The squared inverse root degrees re-laid as one column are those values broadcast into one column. -/
theorem d1_eq (c : Dev nD) : bd3 m c (Proc.devRef .tc main_v41) = Cert.ReferenceIdeal.Read.val_main_v41 (a1 m c) := by
  show StableHlo.after hostOps1 (bd2 m c) (Proc.devRef .tc main_v41) = _
  generalize hF : bd2 m c = F
  after_results_simp
  subst hF
  rw [show bd2 m c (Proc.devRef .tc main_v26) = Cert.ReferenceIdeal.Read.val_main_v40 (a1 m c) from ((bd2_keep m c main_v26 (by decide))).trans (edge_v26 m c)]
  exact col_cast_eq_bcast (Cert.ReferenceIdeal.Read.val_main_v40 (a1 m c)) _ _

/-- The bias re-laid as one row is the bias broadcast into one row. -/
theorem b1_eq (c : Dev nD) : bd3 m c (Proc.devRef .tc main_v42) = Cert.ReferenceIdeal.Read.val_main_v45 (a4 m c) := by
  show StableHlo.after hostOps1 (bd2 m c) (Proc.devRef .tc main_v42) = _
  generalize hF : bd2 m c = F
  after_results_simp
  subst hF
  rw [show bd2 m c (Proc.devRef .tc main_arg4) = a4 m c from ((bd2_keep m c main_arg4 (by decide)).trans <| (bd1_keep m c main_arg4 (by decide)))]
  exact row_cast_eq_bcast (a4 m c) _ _

/-- The combine pipeline leaves the reference's clamped sum: the layer's output features. -/
theorem x1_eq (c : Dev nD) : bd4 m c (Proc.devRef .tc main_v43) = Cert.ReferenceIdeal.Read.val_main_v48 (a0 m c) (a1 m c) (a3 m c) (a4 m c) :=
  (bd4_arr m c 4).trans <| (final1 (rd3 m) c).trans <| by
    have hA : rd3 m c main_v40 = Cert.ReferenceIdeal.Read.val_main_v39 (a0 m c) (a1 m c) (a3 m c) := agg1_eq m c
    have hH : rd3 m c main_v27 = Cert.ReferenceIdeal.Read.val_main_v26 (a0 m c) (a3 m c) := ((bd3_keep m c main_v27 (by decide))).trans (h1_eq m c)
    have hD : rd3 m c main_v41 = Cert.ReferenceIdeal.Read.val_main_v41 (a1 m c) := d1_eq m c
    have hB : rd3 m c main_v42 = Cert.ReferenceIdeal.Read.val_main_v45 (a4 m c) := b1_eq m c
    rw [hA, hH, hD, hB]
    exact (host_form _ _ _ _ _ _ _).symm

/-! ## Layer 2 -/

/-- The matrix-product pipeline leaves the reference's contraction of the layer's input features with its weights. -/
theorem h2_eq (c : Dev nD) : bd5 m c (Proc.devRef .tc main_v44) = Cert.ReferenceIdeal.Read.val_main_v49 (a0 m c) (a1 m c) (a3 m c) (a4 m c) (a5 m c) :=
  (bd5_arr m c 2).trans <| (final2 (rd4 m) c).trans <|
    (congrArg₂ (matProd (M := 524288) (K := 8) (N := 8)) (x1_eq m c) ((bd4_keep m c main_arg5 (by decide)).trans <| (bd3_keep m c main_arg5 (by decide)).trans <| (bd2_keep m c main_arg5 (by decide)).trans <| (bd1_keep m c main_arg5 (by decide)))).trans
      (host_dot_eq Cert.ReferenceIdeal.dot_S524288x8_S8x8_S524288x8_1_0_0_1_n_n rfl rfl rfl rfl rfl rfl _ _).symm

/-- The aggregated messages: the same scatter of the same gathered, scaled rows. -/
theorem agg2_eq (c : Dev nD) : bd6 m c (Proc.devRef .tc main_v57) = Cert.ReferenceIdeal.Read.val_main_v62 (a0 m c) (a1 m c) (a3 m c) (a4 m c) (a5 m c) := by
  show StableHlo.after hostOps3 (bd5 m c) (Proc.devRef .tc main_v57) = _
  generalize hF : bd5 m c = F
  after_results_simp
  subst hF
  rw [show bd5 m c (Proc.devRef .tc main_v44) = Cert.ReferenceIdeal.Read.val_main_v49 (a0 m c) (a1 m c) (a3 m c) (a4 m c) (a5 m c) from h2_eq m c,
    show bd5 m c (Proc.devRef .tc main_v3) = Cert.ReferenceIdeal.Read.val_main_v3 (a1 m c) from ((bd5_keep m c main_v3 (by decide)).trans <| (bd4_keep m c main_v3 (by decide)).trans <| (bd3_keep m c main_v3 (by decide)).trans <| (bd2_keep m c main_v3 (by decide))).trans (edge_v3 m c),
    show bd5 m c (Proc.devRef .tc main_v1) = Cert.ReferenceIdeal.Read.val_main_v1 (a1 m c) from ((bd5_keep m c main_v1 (by decide)).trans <| (bd4_keep m c main_v1 (by decide)).trans <| (bd3_keep m c main_v1 (by decide)).trans <| (bd2_keep m c main_v1 (by decide))).trans (edge_v1 m c),
    show bd5 m c (Proc.devRef .tc main_v25) = Cert.ReferenceIdeal.Read.val_main_v25 (a1 m c) from ((bd5_keep m c main_v25 (by decide)).trans <| (bd4_keep m c main_v25 (by decide)).trans <| (bd3_keep m c main_v25 (by decide)).trans <| (bd2_keep m c main_v25 (by decide))).trans (edge_v25 m c)]
  rfl

/-- The squared inverse root degrees re-laid as one column are those values broadcast into one column. -/
theorem d2_eq (c : Dev nD) : bd6 m c (Proc.devRef .tc main_v58) = Cert.ReferenceIdeal.Read.val_main_v64 (a1 m c) := by
  show StableHlo.after hostOps3 (bd5 m c) (Proc.devRef .tc main_v58) = _
  generalize hF : bd5 m c = F
  after_results_simp
  subst hF
  rw [show bd5 m c (Proc.devRef .tc main_v26) = Cert.ReferenceIdeal.Read.val_main_v40 (a1 m c) from ((bd5_keep m c main_v26 (by decide)).trans <| (bd4_keep m c main_v26 (by decide)).trans <| (bd3_keep m c main_v26 (by decide)).trans <| (bd2_keep m c main_v26 (by decide))).trans (edge_v26 m c)]
  exact col_cast_eq_bcast (Cert.ReferenceIdeal.Read.val_main_v40 (a1 m c)) _ _

/-- The bias re-laid as one row is the bias broadcast into one row. -/
theorem b2_eq (c : Dev nD) : bd6 m c (Proc.devRef .tc main_v59) = Cert.ReferenceIdeal.Read.val_main_v68 (a6 m c) := by
  show StableHlo.after hostOps3 (bd5 m c) (Proc.devRef .tc main_v59) = _
  generalize hF : bd5 m c = F
  after_results_simp
  subst hF
  rw [show bd5 m c (Proc.devRef .tc main_arg6) = a6 m c from ((bd5_keep m c main_arg6 (by decide)).trans <| (bd4_keep m c main_arg6 (by decide)).trans <| (bd3_keep m c main_arg6 (by decide)).trans <| (bd2_keep m c main_arg6 (by decide)).trans <| (bd1_keep m c main_arg6 (by decide)))]
  exact row_cast_eq_bcast (a6 m c) _ _

/-- The combine pipeline leaves the reference's clamped sum: the layer's output features. -/
theorem x2_eq (c : Dev nD) : bd7 m c (Proc.devRef .tc main_v60) = Cert.ReferenceIdeal.Read.val_main_v71 (a0 m c) (a1 m c) (a3 m c) (a4 m c) (a5 m c) (a6 m c) :=
  (bd7_arr m c 4).trans <| (final3 (rd6 m) c).trans <| by
    have hA : rd6 m c main_v57 = Cert.ReferenceIdeal.Read.val_main_v62 (a0 m c) (a1 m c) (a3 m c) (a4 m c) (a5 m c) := agg2_eq m c
    have hH : rd6 m c main_v44 = Cert.ReferenceIdeal.Read.val_main_v49 (a0 m c) (a1 m c) (a3 m c) (a4 m c) (a5 m c) := ((bd6_keep m c main_v44 (by decide))).trans (h2_eq m c)
    have hD : rd6 m c main_v58 = Cert.ReferenceIdeal.Read.val_main_v64 (a1 m c) := d2_eq m c
    have hB : rd6 m c main_v59 = Cert.ReferenceIdeal.Read.val_main_v68 (a6 m c) := b2_eq m c
    rw [hA, hH, hD, hB]
    exact (host_form _ _ _ _ _ _ _).symm

/-! ## Layer 3 -/

/-- The matrix-product pipeline leaves the reference's contraction of the layer's input features with its weights. -/
theorem h3_eq (c : Dev nD) : bd8 m c (Proc.devRef .tc main_v61) = Cert.ReferenceIdeal.Read.val_main_v72 (a0 m c) (a1 m c) (a3 m c) (a4 m c) (a5 m c) (a6 m c) (a7 m c) :=
  (bd8_arr m c 2).trans <| (final4 (rd7 m) c).trans <|
    (congrArg₂ (matProd (M := 524288) (K := 8) (N := 1)) (x2_eq m c) ((bd7_keep m c main_arg7 (by decide)).trans <| (bd6_keep m c main_arg7 (by decide)).trans <| (bd5_keep m c main_arg7 (by decide)).trans <| (bd4_keep m c main_arg7 (by decide)).trans <| (bd3_keep m c main_arg7 (by decide)).trans <| (bd2_keep m c main_arg7 (by decide)).trans <| (bd1_keep m c main_arg7 (by decide)))).trans
      (host_dot_eq Cert.ReferenceIdeal.dot_S524288x8_S8x1_S524288x1_1_0_0_1_n_n rfl rfl rfl rfl rfl rfl _ _).symm

/-- The aggregated messages: the same scatter of the same gathered, scaled rows. -/
theorem agg3_eq (c : Dev nD) : bd9 m c (Proc.devRef .tc main_v73) = Cert.ReferenceIdeal.Read.val_main_v84 (a0 m c) (a1 m c) (a3 m c) (a4 m c) (a5 m c) (a6 m c) (a7 m c) := by
  show StableHlo.after hostOps5 (bd8 m c) (Proc.devRef .tc main_v73) = _
  generalize hF : bd8 m c = F
  after_results_simp
  subst hF
  rw [show bd8 m c (Proc.devRef .tc main_v61) = Cert.ReferenceIdeal.Read.val_main_v72 (a0 m c) (a1 m c) (a3 m c) (a4 m c) (a5 m c) (a6 m c) (a7 m c) from h3_eq m c,
    show bd8 m c (Proc.devRef .tc main_v3) = Cert.ReferenceIdeal.Read.val_main_v3 (a1 m c) from ((bd8_keep m c main_v3 (by decide)).trans <| (bd7_keep m c main_v3 (by decide)).trans <| (bd6_keep m c main_v3 (by decide)).trans <| (bd5_keep m c main_v3 (by decide)).trans <| (bd4_keep m c main_v3 (by decide)).trans <| (bd3_keep m c main_v3 (by decide)).trans <| (bd2_keep m c main_v3 (by decide))).trans (edge_v3 m c),
    show bd8 m c (Proc.devRef .tc main_v1) = Cert.ReferenceIdeal.Read.val_main_v1 (a1 m c) from ((bd8_keep m c main_v1 (by decide)).trans <| (bd7_keep m c main_v1 (by decide)).trans <| (bd6_keep m c main_v1 (by decide)).trans <| (bd5_keep m c main_v1 (by decide)).trans <| (bd4_keep m c main_v1 (by decide)).trans <| (bd3_keep m c main_v1 (by decide)).trans <| (bd2_keep m c main_v1 (by decide))).trans (edge_v1 m c),
    show bd8 m c (Proc.devRef .tc main_v25) = Cert.ReferenceIdeal.Read.val_main_v25 (a1 m c) from ((bd8_keep m c main_v25 (by decide)).trans <| (bd7_keep m c main_v25 (by decide)).trans <| (bd6_keep m c main_v25 (by decide)).trans <| (bd5_keep m c main_v25 (by decide)).trans <| (bd4_keep m c main_v25 (by decide)).trans <| (bd3_keep m c main_v25 (by decide)).trans <| (bd2_keep m c main_v25 (by decide))).trans (edge_v25 m c)]
  rfl

/-- The squared inverse root degrees re-laid as one column are those values broadcast into one column. -/
theorem d3_eq (c : Dev nD) : bd9 m c (Proc.devRef .tc main_v74) = Cert.ReferenceIdeal.Read.val_main_v86 (a1 m c) := by
  show StableHlo.after hostOps5 (bd8 m c) (Proc.devRef .tc main_v74) = _
  generalize hF : bd8 m c = F
  after_results_simp
  subst hF
  rw [show bd8 m c (Proc.devRef .tc main_v26) = Cert.ReferenceIdeal.Read.val_main_v40 (a1 m c) from ((bd8_keep m c main_v26 (by decide)).trans <| (bd7_keep m c main_v26 (by decide)).trans <| (bd6_keep m c main_v26 (by decide)).trans <| (bd5_keep m c main_v26 (by decide)).trans <| (bd4_keep m c main_v26 (by decide)).trans <| (bd3_keep m c main_v26 (by decide)).trans <| (bd2_keep m c main_v26 (by decide))).trans (edge_v26 m c)]
  exact col_cast_eq_bcast (Cert.ReferenceIdeal.Read.val_main_v40 (a1 m c)) _ _

/-- The bias re-laid as one row is the bias broadcast into one row. -/
theorem b3_eq (c : Dev nD) : bd9 m c (Proc.devRef .tc main_v75) = Cert.ReferenceIdeal.Read.val_main_v89 (a8 m c) := by
  show StableHlo.after hostOps5 (bd8 m c) (Proc.devRef .tc main_v75) = _
  generalize hF : bd8 m c = F
  after_results_simp
  subst hF
  rw [show bd8 m c (Proc.devRef .tc main_arg8) = a8 m c from ((bd8_keep m c main_arg8 (by decide)).trans <| (bd7_keep m c main_arg8 (by decide)).trans <| (bd6_keep m c main_arg8 (by decide)).trans <| (bd5_keep m c main_arg8 (by decide)).trans <| (bd4_keep m c main_arg8 (by decide)).trans <| (bd3_keep m c main_arg8 (by decide)).trans <| (bd2_keep m c main_arg8 (by decide)).trans <| (bd1_keep m c main_arg8 (by decide)))]
  exact row_cast_eq_bcast (a8 m c) _ _

/-- The combine pipeline leaves the reference's clamped sum: the layer's output features. -/
theorem x3_eq (c : Dev nD) : bd10 m c (Proc.devRef .tc main_v76) = Cert.ReferenceIdeal.Read.val_main_v92 (a0 m c) (a1 m c) (a3 m c) (a4 m c) (a5 m c) (a6 m c) (a7 m c) (a8 m c) :=
  (bd10_arr m c 4).trans <| (final5 (rd9 m) c).trans <| by
    have hA : rd9 m c main_v73 = Cert.ReferenceIdeal.Read.val_main_v84 (a0 m c) (a1 m c) (a3 m c) (a4 m c) (a5 m c) (a6 m c) (a7 m c) := agg3_eq m c
    have hH : rd9 m c main_v61 = Cert.ReferenceIdeal.Read.val_main_v72 (a0 m c) (a1 m c) (a3 m c) (a4 m c) (a5 m c) (a6 m c) (a7 m c) := ((bd9_keep m c main_v61 (by decide))).trans (h3_eq m c)
    have hD : rd9 m c main_v74 = Cert.ReferenceIdeal.Read.val_main_v86 (a1 m c) := d3_eq m c
    have hB : rd9 m c main_v75 = Cert.ReferenceIdeal.Read.val_main_v89 (a8 m c) := b3_eq m c
    rw [hA, hH, hD, hB]
    exact (host_form_col _ _ _ _ _ _).symm

/-! ## The closing operations -/

/-- The three layers' features joined side by side: the reference's joined matrix. -/
theorem feats_eq (c : Dev nD) : bd11 m c (Proc.devRef .tc main_v77) = Cert.ReferenceIdeal.Read.val_main_v93 (a0 m c) (a1 m c) (a3 m c) (a4 m c) (a5 m c) (a6 m c) (a7 m c) (a8 m c) := by
  show StableHlo.after hostOps6 (bd10 m c) (Proc.devRef .tc main_v77) = _
  generalize hF : bd10 m c = F
  after_results_simp
  subst hF
  show concatenate S524288x17 1 [⟨S524288x8, bd10 m c (Proc.devRef .tc main_v43)⟩, ⟨S524288x8, bd10 m c (Proc.devRef .tc main_v60)⟩, ⟨S524288x1, bd10 m c (Proc.devRef .tc main_v76)⟩] _ = _
  rw [show bd10 m c (Proc.devRef .tc main_v43) = Cert.ReferenceIdeal.Read.val_main_v48 (a0 m c) (a1 m c) (a3 m c) (a4 m c) from ((bd10_keep m c main_v43 (by decide)).trans <| (bd9_keep m c main_v43 (by decide)).trans <| (bd8_keep m c main_v43 (by decide)).trans <| (bd7_keep m c main_v43 (by decide)).trans <| (bd6_keep m c main_v43 (by decide)).trans <| (bd5_keep m c main_v43 (by decide))).trans (x1_eq m c),
    show bd10 m c (Proc.devRef .tc main_v60) = Cert.ReferenceIdeal.Read.val_main_v71 (a0 m c) (a1 m c) (a3 m c) (a4 m c) (a5 m c) (a6 m c) from ((bd10_keep m c main_v60 (by decide)).trans <| (bd9_keep m c main_v60 (by decide)).trans <| (bd8_keep m c main_v60 (by decide))).trans (x2_eq m c),
    show bd10 m c (Proc.devRef .tc main_v76) = Cert.ReferenceIdeal.Read.val_main_v92 (a0 m c) (a1 m c) (a3 m c) (a4 m c) (a5 m c) (a6 m c) (a7 m c) (a8 m c) from x3_eq m c]
  rfl

end Cert.KernelIdeal.Bridge

end
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.Bridge.Tail.lean ====
/-
  The dense head. After the three layers' features are joined, both programs gather one row per graph, multiply by the
  first dense layer's weights, add its bias, clamp below at zero, multiply by the second dense layer's weights and add
  its bias — the same operations on the same joined features, so the same result.
-/
import proofs.«109645_j46763603919526_2_alg».proof.Proof.Bridge.Layers
import proofs.«109645_j46763603919526_2_alg».proof.Proof.LibTypedRef

set_option maxRecDepth 16384
set_option maxHeartbeats 4000000

noncomputable section

namespace Cert.KernelIdeal.Bridge

open Cert.KernelIdeal Cert.KernelIdeal.Gen Cert.KernelIdeal.Frame
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The first dense layer before its clamp: the target rows gathered out of the joined features, times the weights,
    plus the bias. -/
theorem pre_eq (c : Dev nD) : bd11 m c (Proc.devRef .tc main_v92) = Cert.ReferenceIdeal.Read.val_main_v108 (a0 m c) (a1 m c) (a2 m c) (a3 m c) (a4 m c) (a5 m c) (a6 m c) (a7 m c) (a8 m c) (a9 m c) (a10 m c) := by
  show StableHlo.after hostOps6 (bd10 m c) (Proc.devRef .tc main_v92) = _
  generalize hF : bd10 m c = F
  after_results_simp
  subst hF
  rw [show bd10 m c (Proc.devRef .tc ((![main_v43, main_v60, main_v76] : Fin 3 → Ref sig .tc) 0)) = Cert.ReferenceIdeal.Read.val_main_v48 (a0 m c) (a1 m c) (a3 m c) (a4 m c) from ((bd10_keep m c main_v43 (by decide)).trans <| (bd9_keep m c main_v43 (by decide)).trans <| (bd8_keep m c main_v43 (by decide)).trans <| (bd7_keep m c main_v43 (by decide)).trans <| (bd6_keep m c main_v43 (by decide)).trans <| (bd5_keep m c main_v43 (by decide))).trans (x1_eq m c),
    show bd10 m c (Proc.devRef .tc ((![main_v43, main_v60, main_v76] : Fin 3 → Ref sig .tc) 1)) = Cert.ReferenceIdeal.Read.val_main_v71 (a0 m c) (a1 m c) (a3 m c) (a4 m c) (a5 m c) (a6 m c) from ((bd10_keep m c main_v60 (by decide)).trans <| (bd9_keep m c main_v60 (by decide)).trans <| (bd8_keep m c main_v60 (by decide))).trans (x2_eq m c),
    show bd10 m c (Proc.devRef .tc ((![main_v43, main_v60, main_v76] : Fin 3 → Ref sig .tc) 2)) = Cert.ReferenceIdeal.Read.val_main_v92 (a0 m c) (a1 m c) (a3 m c) (a4 m c) (a5 m c) (a6 m c) (a7 m c) (a8 m c) from x3_eq m c,
    show bd10 m c (Proc.devRef .tc main_arg2) = a2 m c from ((bd10_keep m c main_arg2 (by decide)).trans <| (bd9_keep m c main_arg2 (by decide)).trans <| (bd8_keep m c main_arg2 (by decide)).trans <| (bd7_keep m c main_arg2 (by decide)).trans <| (bd6_keep m c main_arg2 (by decide)).trans <| (bd5_keep m c main_arg2 (by decide)).trans <| (bd4_keep m c main_arg2 (by decide)).trans <| (bd3_keep m c main_arg2 (by decide)).trans <| (bd2_keep m c main_arg2 (by decide)).trans <| (bd1_keep m c main_arg2 (by decide))),
    show bd10 m c (Proc.devRef .tc main_arg9) = a9 m c from ((bd10_keep m c main_arg9 (by decide)).trans <| (bd9_keep m c main_arg9 (by decide)).trans <| (bd8_keep m c main_arg9 (by decide)).trans <| (bd7_keep m c main_arg9 (by decide)).trans <| (bd6_keep m c main_arg9 (by decide)).trans <| (bd5_keep m c main_arg9 (by decide)).trans <| (bd4_keep m c main_arg9 (by decide)).trans <| (bd3_keep m c main_arg9 (by decide)).trans <| (bd2_keep m c main_arg9 (by decide)).trans <| (bd1_keep m c main_arg9 (by decide))),
    show bd10 m c (Proc.devRef .tc main_arg10) = a10 m c from ((bd10_keep m c main_arg10 (by decide)).trans <| (bd9_keep m c main_arg10 (by decide)).trans <| (bd8_keep m c main_arg10 (by decide)).trans <| (bd7_keep m c main_arg10 (by decide)).trans <| (bd6_keep m c main_arg10 (by decide)).trans <| (bd5_keep m c main_arg10 (by decide)).trans <| (bd4_keep m c main_arg10 (by decide)).trans <| (bd3_keep m c main_arg10 (by decide)).trans <| (bd2_keep m c main_arg10 (by decide)).trans <| (bd1_keep m c main_arg10 (by decide)))]
  rfl

/-- The first dense layer's output, clamped below at zero. The clamp is written over typed references; carrying a value to
    a reference's own type and back, or along a type equation that holds by computation, changes nothing, so for any
    operand what is left on both sides is the maximum of the operand and the broadcast zero. -/
theorem hid_eq (c : Dev nD) : bd12 m c (Proc.devRef .tc main_v93) = Cert.ReferenceIdeal.Read.val_main_v109 (a0 m c) (a1 m c) (a2 m c) (a3 m c) (a4 m c) (a5 m c) (a6 m c) (a7 m c) (a8 m c) (a9 m c) (a10 m c) := by
  show StableHlo.after hostOps6_1 (bd11 m c) (Proc.devRef .tc main_v93) = _
  generalize hF : bd11 m c = F
  after_results_simp
  subst hF
  rw [show bd11 m c (Proc.devRef .tc main_v92) = Cert.ReferenceIdeal.Read.val_main_v108 (a0 m c) (a1 m c) (a2 m c) (a3 m c) (a4 m c) (a5 m c) (a6 m c) (a7 m c) (a8 m c) (a9 m c) (a10 m c) from pre_eq m c]
  show _ = maximumf (F := Ideal) (s := S64x16) (φ := .f32) (Cert.ReferenceIdeal.Read.val_main_v108 (a0 m c) (a1 m c) (a2 m c) (a3 m c) (a4 m c) (a5 m c) (a6 m c) (a7 m c) (a8 m c) (a9 m c) (a10 m c)) (Cert.ReferenceIdeal.Read.val_main_call3_v0 (F := Ideal))
  generalize Cert.ReferenceIdeal.Read.val_main_v108 (a0 m c) (a1 m c) (a2 m c) (a3 m c) (a4 m c) (a5 m c) (a6 m c) (a7 m c) (a8 m c) (a9 m c) (a10 m c) = L
  rw [Cert.Lib.ofBuf_toBuf, Cert.Lib.ofBuf_toBuf]
  rw [show TRef.ofBuf (Val := Elt Ideal) (TRef.of main_v92 : TRef sig ⟨S64x16, .f32⟩) L = L from rfl]
  rw [show broadcastInDim S64x16 ![] bcast_S_S64x16 (constant (F := Ideal) S_ .f32 0x00000000#32) = Cert.ReferenceIdeal.Read.val_main_call3_v0 (F := Ideal) from rfl]
  generalize maximumf (F := Ideal) (s := S64x16) (φ := .f32) L (Cert.ReferenceIdeal.Read.val_main_call3_v0 (F := Ideal)) = W
  rfl

/-- The result: the second dense layer. -/
theorem result_eq (c : Dev nD) : bd13 m c (Proc.devRef .tc main_v97) = Cert.ReferenceIdeal.Read.val_main_v113 (a0 m c) (a1 m c) (a2 m c) (a3 m c) (a4 m c) (a5 m c) (a6 m c) (a7 m c) (a8 m c) (a9 m c) (a10 m c) (a11 m c) (a12 m c) := by
  show StableHlo.after hostOps6_2 (bd12 m c) (Proc.devRef .tc main_v97) = _
  generalize hF : bd12 m c = F
  after_results_simp
  subst hF
  rw [show bd12 m c (Proc.devRef .tc main_v93) = Cert.ReferenceIdeal.Read.val_main_v109 (a0 m c) (a1 m c) (a2 m c) (a3 m c) (a4 m c) (a5 m c) (a6 m c) (a7 m c) (a8 m c) (a9 m c) (a10 m c) from hid_eq m c,
    show bd12 m c (Proc.devRef .tc main_arg11) = a11 m c from ((bd12_keep m c main_arg11 (by decide)).trans <| (bd11_keep m c main_arg11 (by decide)).trans <| (bd10_keep m c main_arg11 (by decide)).trans <| (bd9_keep m c main_arg11 (by decide)).trans <| (bd8_keep m c main_arg11 (by decide)).trans <| (bd7_keep m c main_arg11 (by decide)).trans <| (bd6_keep m c main_arg11 (by decide)).trans <| (bd5_keep m c main_arg11 (by decide)).trans <| (bd4_keep m c main_arg11 (by decide)).trans <| (bd3_keep m c main_arg11 (by decide)).trans <| (bd2_keep m c main_arg11 (by decide)).trans <| (bd1_keep m c main_arg11 (by decide))),
    show bd12 m c (Proc.devRef .tc main_arg12) = a12 m c from ((bd12_keep m c main_arg12 (by decide)).trans <| (bd11_keep m c main_arg12 (by decide)).trans <| (bd10_keep m c main_arg12 (by decide)).trans <| (bd9_keep m c main_arg12 (by decide)).trans <| (bd8_keep m c main_arg12 (by decide)).trans <| (bd7_keep m c main_arg12 (by decide)).trans <| (bd6_keep m c main_arg12 (by decide)).trans <| (bd5_keep m c main_arg12 (by decide)).trans <| (bd4_keep m c main_arg12 (by decide)).trans <| (bd3_keep m c main_arg12 (by decide)).trans <| (bd2_keep m c main_arg12 (by decide)).trans <| (bd1_keep m c main_arg12 (by decide)))]
  rfl

end Cert.KernelIdeal.Bridge

end
-- ==== Proof.lean ====
/-
  A three-layer graph convolution with a two-layer dense head, as six pipelines among host operations, against the same
  network written with plain array operations. In each layer the node features are multiplied by the layer's weights
  (a matrix-product pipeline over bands of rows), every edge carries its source's row scaled by the product of the two
  ends' inverse root degrees to its target (a host gather and scatter-add), and the sum of those messages, the node's
  own row scaled by its squared inverse root degree, and the bias is clamped below at zero (a combine pipeline over
  bands of rows). The three layers' features are joined, one row per graph is gathered, and two dense layers follow.

  Every block of every pipeline divides its array evenly, each body reads its blocks whole and writes its block whole,
  so each pipeline runs to the end, faults nowhere and writes only its output array: no argument array is changed, at
  the word level and over the extended reals alike. Over the extended reals a matrix-product pipeline leaves exactly
  the contraction the reference computes (narrowing to bf16 is the identity there, a sum is a sum whatever its tiling)
  and a combine pipeline leaves exactly the reference's clamped sum (the same additions in the same order), so the two
  programs' results are the same function of the arguments; no finiteness of the inputs is needed for that.
-/
import proofs.«109645_j46763603919526_2_alg».proof.Defs
import proofs.«109645_j46763603919526_2_alg».proof.Proof.Gen.Kernel
import proofs.«109645_j46763603919526_2_alg».proof.Proof.Gen.KernelIdeal
import proofs.«109645_j46763603919526_2_alg».proof.Proof.Gen.ReferenceIdeal
import proofs.«109645_j46763603919526_2_alg».proof.Proof.Gen.ReferenceIdeal.Run
import proofs.«109645_j46763603919526_2_alg».proof.Proof.Gen.ReferenceIdeal.Read
import proofs.«109645_j46763603919526_2_alg».proof.Proof.Gen.Pre_finite_inputs
import proofs.«109645_j46763603919526_2_alg».proof.Proof.BitsFrame.Run
import proofs.«109645_j46763603919526_2_alg».proof.Proof.IdealFrame.Run
import proofs.«109645_j46763603919526_2_alg».proof.Proof.Bridge.Tail
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end, faults nowhere and leaves its arguments as launched. -/
theorem frame_kernel : Cert.frame_Kernel := fun m ρ _ => Cert.Kernel.Frame.frame m ρ

/-- So does the kernel read over the extended reals. -/
theorem frame_kernel_ideal : Cert.frame_KernelIdeal := fun m ρ _ => Cert.KernelIdeal.Frame.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- From memories agreeing on the arguments both idealized programs end with the same result: the kernel's last
    boundary holds the reference's last stage of the arguments. -/
theorem algebraic : Cert.algebraic_KernelIdeal_ReferenceIdeal := by
  intro m ρ m' ρ' _ hagree
  refine ⟨fun c => Cert.KernelIdeal.Frame.bd13 m c (Proc.devRef .tc Cert.KernelIdeal.main_v97), ?_, ?_⟩
  · refine (θ_run Cert.KernelIdeal.defs _ _).mono (fun r h c => ?_) (Cert.KernelIdeal.Frame.run_all (F := Ideal) m ρ)
    exact ⟨h c _ (Cert.KernelIdeal.Frame.mem_uc Cert.KernelIdeal.main_v97 (by decide)),
      (h c _ (Cert.KernelIdeal.Frame.mem_uc Cert.KernelIdeal.main_arg0 (by decide))).trans (Cert.KernelIdeal.Frame.bd13_main_arg0 m c),
      (h c _ (Cert.KernelIdeal.Frame.mem_uc Cert.KernelIdeal.main_arg1 (by decide))).trans (Cert.KernelIdeal.Frame.bd13_main_arg1 m c),
      (h c _ (Cert.KernelIdeal.Frame.mem_uc Cert.KernelIdeal.main_arg2 (by decide))).trans (Cert.KernelIdeal.Frame.bd13_main_arg2 m c),
      (h c _ (Cert.KernelIdeal.Frame.mem_uc Cert.KernelIdeal.main_arg3 (by decide))).trans (Cert.KernelIdeal.Frame.bd13_main_arg3 m c),
      (h c _ (Cert.KernelIdeal.Frame.mem_uc Cert.KernelIdeal.main_arg4 (by decide))).trans (Cert.KernelIdeal.Frame.bd13_main_arg4 m c),
      (h c _ (Cert.KernelIdeal.Frame.mem_uc Cert.KernelIdeal.main_arg5 (by decide))).trans (Cert.KernelIdeal.Frame.bd13_main_arg5 m c),
      (h c _ (Cert.KernelIdeal.Frame.mem_uc Cert.KernelIdeal.main_arg6 (by decide))).trans (Cert.KernelIdeal.Frame.bd13_main_arg6 m c),
      (h c _ (Cert.KernelIdeal.Frame.mem_uc Cert.KernelIdeal.main_arg7 (by decide))).trans (Cert.KernelIdeal.Frame.bd13_main_arg7 m c),
      (h c _ (Cert.KernelIdeal.Frame.mem_uc Cert.KernelIdeal.main_arg8 (by decide))).trans (Cert.KernelIdeal.Frame.bd13_main_arg8 m c),
      (h c _ (Cert.KernelIdeal.Frame.mem_uc Cert.KernelIdeal.main_arg9 (by decide))).trans (Cert.KernelIdeal.Frame.bd13_main_arg9 m c),
      (h c _ (Cert.KernelIdeal.Frame.mem_uc Cert.KernelIdeal.main_arg10 (by decide))).trans (Cert.KernelIdeal.Frame.bd13_main_arg10 m c),
      (h c _ (Cert.KernelIdeal.Frame.mem_uc Cert.KernelIdeal.main_arg11 (by decide))).trans (Cert.KernelIdeal.Frame.bd13_main_arg11 m c),
      (h c _ (Cert.KernelIdeal.Frame.mem_uc Cert.KernelIdeal.main_arg12 (by decide))).trans (Cert.KernelIdeal.Frame.bd13_main_arg12 m c)⟩
  · refine (θ_run Cert.ReferenceIdeal.defs _ _).mono (fun r h c => ⟨?_, (h c).2⟩) (Cert.ReferenceIdeal.Value.run (F := Ideal) m' ρ')
    have e := (h c).1.trans (Cert.ReferenceIdeal.Read.val_main_v113_eq m' c)
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2] at e
    exact e.trans (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
